-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x7 : Shape := ⟨2, ![256, 7]⟩
abbrev S515x7 : Shape := ⟨2, ![515, 7]⟩
abbrev S515 : Shape := ⟨1, ![515]⟩
abbrev S260x515 : Shape := ⟨2, ![260, 515]⟩
abbrev S260 : Shape := ⟨1, ![260]⟩
abbrev S65536x260 : Shape := ⟨2, ![65536, 260]⟩
abbrev S65536 : Shape := ⟨1, ![65536]⟩
abbrev S2048x65536 : Shape := ⟨2, ![2048, 65536]⟩
abbrev S2048 : Shape := ⟨1, ![2048]⟩
abbrev S_ : Shape := ⟨0, ![]⟩

class Facts : Prop where
  bcast_S_S256x7 : S_.BroadcastsInDim S256x7 (![] : Fin 0 → Fin S256x7.rank)
  reducesTo_S256x7_S_d0_1 : S256x7.ReducesTo [0, 1] S_
  h_S_ : 0 < S_.numel
  bcast_S_S515x7 : S_.BroadcastsInDim S515x7 (![] : Fin 0 → Fin S515x7.rank)
  reducesTo_S515x7_S_d0_1 : S515x7.ReducesTo [0, 1] S_
  bcast_S_S515 : S_.BroadcastsInDim S515 (![] : Fin 0 → Fin S515.rank)
  reducesTo_S515_S_d0 : S515.ReducesTo [0] S_
  bcast_S_S260x515 : S_.BroadcastsInDim S260x515 (![] : Fin 0 → Fin S260x515.rank)
  reducesTo_S260x515_S_d0_1 : S260x515.ReducesTo [0, 1] S_
  bcast_S_S260 : S_.BroadcastsInDim S260 (![] : Fin 0 → Fin S260.rank)
  reducesTo_S260_S_d0 : S260.ReducesTo [0] S_
  bcast_S_S65536x260 : S_.BroadcastsInDim S65536x260 (![] : Fin 0 → Fin S65536x260.rank)
  reducesTo_S65536x260_S_d0_1 : S65536x260.ReducesTo [0, 1] S_
  bcast_S_S65536 : S_.BroadcastsInDim S65536 (![] : Fin 0 → Fin S65536.rank)
  reducesTo_S65536_S_d0 : S65536.ReducesTo [0] S_
  bcast_S_S2048x65536 : S_.BroadcastsInDim S2048x65536 (![] : Fin 0 → Fin S2048x65536.rank)
  reducesTo_S2048x65536_S_d0_1 : S2048x65536.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x65536 .f32) (main_arg8 : FVec F S2048 .f32) (main_v33 : IVec S_ 1) : IVec S_ 1 :=
  let main_v34 : FVec F S2048x65536 .f32 := Host.absf main_arg7
  let main_cst_12 : FVec F S_ .f32 := constant S_ .f32 0x7F800000#32
  let main_v35 : FVec F S2048x65536 .f32 := broadcastInDim S2048x65536 ![] bcast_S_S2048x65536 main_cst_12
  let main_v36 : IVec S2048x65536 1 := cmpf .olt main_v34 main_v35
  let main_c_13 : IVec S_ 1 := constantI S_ 1 1#1
  let main_v37 : IVec S_ 1 := (fun x v => Host.reduce IntOp.andi x v reducesTo_S2048x65536_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S260 .f32) (main_arg5 : FVec F S65536x260 .f32) (main_arg6 : FVec F S65536 .f32) (main_arg7 : FVec F S2048x65536 .f32) (main_arg8 : FVec F S2048 .f32) (main_v13 : IVec S_ 1) (main_v16 : IVec S260x515 1) : IVec S_ 1 :=
  let main_c_5 : IVec S_ 1 := constantI S_ 1 1#1
  let main_v17 : IVec S_ 1 := (fun x v => Host.reduce IntOp.andi x v reducesTo_S260x515_S_d0_1 h_S_) main_v16 main_c_5
  let main_v18 : IVec S_ 1 := andi main_v13 main_v17
  let main_v19 : FVec F S260 .f32 := Host.absf main_arg4
  let main_cst_6 : FVec F S_ .f32 := constant S_ .f32 0x7F800000#32
  let main_v20 : FVec F S260 .f32 := broadcastInDim S260 ![] bcast_S_S260 main_cst_6
  let main_v21 : IVec S260 1 := cmpf .olt main_v19 main_v20
  let main_c_7 : IVec S_ 1 := constantI S_ 1 1#1
  let main_v22 : IVec S_ 1 := (fun x v => Host.reduce IntOp.andi x v reducesTo_S260_S_d0 h_S_) main_v21 main_c_7
  let main_v23 : IVec S_ 1 := andi main_v18 main_v22
  let main_v24 : FVec F S65536x260 .f32 := Host.absf main_arg5
  let main_cst_8 : FVec F S_ .f32 := constant S_ .f32 0x7F800000#32
  let main_v25 : FVec F S65536x260 .f32 := broadcastInDim S65536x260 ![] bcast_S_S65536x260 main_cst_8
  let main_v26 : IVec S65536x260 1 := cmpf .olt main_v24 main_v25
  let main_c_9 : IVec S_ 1 := constantI S_ 1 1#1
  let main_v27 : IVec S_ 1 := (fun x v => Host.reduce IntOp.andi x v reducesTo_S65536x260_S_d0_1 h_S_) main_v26 main_c_9
  let main_v28 : IVec S_ 1 := andi main_v23 main_v27
  let main_v29 : FVec F S65536 .f32 := Host.absf main_arg6
  let main_cst_10 : FVec F S_ .f32 := constant S_ .f32 0x7F800000#32
  let main_v30 : FVec F S65536 .f32 := broadcastInDim S65536 ![] bcast_S_S65536 main_cst_10
  let main_v31 : IVec S65536 1 := cmpf .olt main_v29 main_v30
  let main_c_11 : IVec S_ 1 := constantI S_ 1 1#1
  let main_v32 : IVec S_ 1 := (fun x v => Host.reduce IntOp.andi x v reducesTo_S65536_S_d0 h_S_) main_v31 main_c_11
  let main_v33 : IVec S_ 1 := andi main_v28 main_v32
  fn_part2 (F := F) main_arg7 main_arg8 main_v33

def fn {F : FTy → Type} [FloatOps F] (main_arg0 : FVec F S256x7 .f32) (main_arg1 : FVec F S515x7 .f32) (main_arg2 : FVec F S515 .f32) (main_arg3 : FVec F S260x515 .f32) (main_arg4 : FVec F S260 .f32) (main_arg5 : FVec F S65536x260 .f32) (main_arg6 : FVec F S65536 .f32) (main_arg7 : FVec F S2048x65536 .f32) (main_arg8 : FVec F S2048 .f32) : IVec S_ 1 :=
  let main_v0 : FVec F S256x7 .f32 := Host.absf main_arg0
  let main_cst : FVec F S_ .f32 := constant S_ .f32 0x7F800000#32
  let main_v1 : FVec F S256x7 .f32 := broadcastInDim S256x7 ![] bcast_S_S256x7 main_cst
  let main_v2 : IVec S256x7 1 := cmpf .olt main_v0 main_v1
  let main_c : IVec S_ 1 := constantI S_ 1 1#1
  let main_v3 : IVec S_ 1 := (fun x v => Host.reduce IntOp.andi x v reducesTo_S256x7_S_d0_1 h_S_) main_v2 main_c
  let main_v4 : FVec F S515x7 .f32 := Host.absf main_arg1
  let main_cst_0 : FVec F S_ .f32 := constant S_ .f32 0x7F800000#32
  let main_v5 : FVec F S515x7 .f32 := broadcastInDim S515x7 ![] bcast_S_S515x7 main_cst_0
  let main_v6 : IVec S515x7 1 := cmpf .olt main_v4 main_v5
  let main_c_1 : IVec S_ 1 := constantI S_ 1 1#1
  let main_v7 : IVec S_ 1 := (fun x v => Host.reduce IntOp.andi x v reducesTo_S515x7_S_d0_1 h_S_) main_v6 main_c_1
  let main_v8 : IVec S_ 1 := andi main_v3 main_v7
  let main_v9 : FVec F S515 .f32 := Host.absf main_arg2
  let main_cst_2 : FVec F S_ .f32 := constant S_ .f32 0x7F800000#32
  let main_v10 : FVec F S515 .f32 := broadcastInDim S515 ![] bcast_S_S515 main_cst_2
  let main_v11 : IVec S515 1 := cmpf .olt main_v9 main_v10
  let main_c_3 : IVec S_ 1 := constantI S_ 1 1#1
  let main_v12 : IVec S_ 1 := (fun x v => Host.reduce IntOp.andi x v reducesTo_S515_S_d0 h_S_) main_v11 main_c_3
  let main_v13 : IVec S_ 1 := andi main_v8 main_v12
  let main_v14 : FVec F S260x515 .f32 := Host.absf main_arg3
  let main_cst_4 : FVec F S_ .f32 := constant S_ .f32 0x7F800000#32
  let main_v15 : FVec F S260x515 .f32 := broadcastInDim S260x515 ![] bcast_S_S260x515 main_cst_4
  let main_v16 : IVec S260x515 1 := cmpf .olt main_v14 main_v15
  fn_part1 (F := F) main_arg4 main_arg5 main_arg6 main_arg7 main_arg8 main_v13 main_v16
-- ==== Kernel.lean ====
abbrev S256x7 : Shape := ⟨2, ![256, 7]⟩
abbrev S515x7 : Shape := ⟨2, ![515, 7]⟩
abbrev S515 : Shape := ⟨1, ![515]⟩
abbrev S260x515 : Shape := ⟨2, ![260, 515]⟩
abbrev S260 : Shape := ⟨1, ![260]⟩
abbrev S65536x260 : Shape := ⟨2, ![65536, 260]⟩
abbrev S65536 : Shape := ⟨1, ![65536]⟩
abbrev S2048x65536 : Shape := ⟨2, ![2048, 65536]⟩
abbrev S2048 : Shape := ⟨1, ![2048]⟩
abbrev S1x515 : Shape := ⟨2, ![1, 515]⟩
abbrev S1x260 : Shape := ⟨2, ![1, 260]⟩
abbrev S1x65536 : Shape := ⟨2, ![1, 65536]⟩
abbrev S1x2048 : Shape := ⟨2, ![1, 2048]⟩
abbrev S256x260 : Shape := ⟨2, ![256, 260]⟩
abbrev S256x515 : Shape := ⟨2, ![256, 515]⟩
abbrev S256x2048 : Shape := ⟨2, ![256, 2048]⟩
abbrev S2048x260 : Shape := ⟨2, ![2048, 260]⟩
abbrev S1024x2048 : Shape := ⟨2, ![1024, 2048]⟩
abbrev S1x1024 : Shape := ⟨2, ![1, 1024]⟩
abbrev S256x1024 : Shape := ⟨2, ![256, 1024]⟩

abbrev nBuf : Space → Nat
  | .hbm => 17
  | .vmem => 18
  | .smem => 0
  | _ => 0

abbrev bufTy : (tb : Table) → Fin (tcTables nBuf tb) → BufTy
  | .hbm, ⟨0, _⟩ => ⟨S256x7, .f32⟩
  | .hbm, ⟨1, _⟩ => ⟨S515x7, .f32⟩
  | .hbm, ⟨2, _⟩ => ⟨S515, .f32⟩
  | .hbm, ⟨3, _⟩ => ⟨S260x515, .f32⟩
  | .hbm, ⟨4, _⟩ => ⟨S260, .f32⟩
  | .hbm, ⟨5, _⟩ => ⟨S65536x260, .f32⟩
  | .hbm, ⟨6, _⟩ => ⟨S65536, .f32⟩
  | .hbm, ⟨7, _⟩ => ⟨S2048x65536, .f32⟩
  | .hbm, ⟨8, _⟩ => ⟨S2048, .f32⟩
  | .hbm, ⟨9, _⟩ => ⟨S1x515, .f32⟩
  | .hbm, ⟨10, _⟩ => ⟨S1x260, .f32⟩
  | .hbm, ⟨11, _⟩ => ⟨S1x65536, .f32⟩
  | .hbm, ⟨12, _⟩ => ⟨S1x2048, .f32⟩
  | .hbm, ⟨13, _⟩ => ⟨S256x260, .bf16⟩
  | .hbm, ⟨14, _⟩ => ⟨S65536x260, .bf16⟩
  | .hbm, ⟨15, _⟩ => ⟨S2048x65536, .bf16⟩
  | .hbm, ⟨16, _⟩ => ⟨S256x2048, .f32⟩
  | .local _ .vmem, ⟨0, _⟩ => ⟨S256x7, .f32⟩
  | .local _ .vmem, ⟨1, _⟩ => ⟨S515x7, .f32⟩
  | .local _ .vmem, ⟨2, _⟩ => ⟨S1x515, .f32⟩
  | .local _ .vmem, ⟨3, _⟩ => ⟨S260x515, .f32⟩
  | .local _ .vmem, ⟨4, _⟩ => ⟨S1x260, .f32⟩
  | .local _ .vmem, ⟨5, _⟩ => ⟨S256x260, .bf16⟩
  | .local _ .vmem, ⟨6, _⟩ => ⟨S256x260, .bf16⟩
  | .local _ .vmem, ⟨7, _⟩ => ⟨S2048x260, .bf16⟩
  | .local _ .vmem, ⟨8, _⟩ => ⟨S2048x260, .bf16⟩
  | .local _ .vmem, ⟨9, _⟩ => ⟨S1x2048, .f32⟩
  | .local _ .vmem, ⟨10, _⟩ => ⟨S1x2048, .f32⟩
  | .local _ .vmem, ⟨11, _⟩ => ⟨S1024x2048, .bf16⟩
  | .local _ .vmem, ⟨12, _⟩ => ⟨S1024x2048, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S256x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S515x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x515 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S260x515 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x260 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x260 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S256x260 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x260 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S515_S1x515 : S515.ShapeCasts S1x515
  shapeCasts_S260_S1x260 : S260.ShapeCasts S1x260
  shapeCasts_S65536_S1x65536 : S65536.ShapeCasts S1x65536
  shapeCasts_S2048_S1x2048 : S2048.ShapeCasts S1x2048
  inb_S256x7_S256x7_0_0 : ∀ a, (![0, 0] : Fin 2 → Nat) a + S256x7.size a ≤ S256x7.size a
  h_S256x7 : 0 < S256x7.numel
  inb_S515x7_S515x7_0_0 : ∀ a, (![0, 0] : Fin 2 → Nat) a + S515x7.size a ≤ S515x7.size a
  h_S515x7 : 0 < S515x7.numel
  inb_S1x515_S1x515_0_0 : ∀ a, (![0, 0] : Fin 2 → Nat) a + S1x515.size a ≤ S1x515.size a
  h_S1x515 : 0 < S1x515.numel
  shapeCasts_S1x515_S1x515 : S1x515.ShapeCasts S1x515
  broadcasts_S1x515_S256x515 : S1x515.Broadcasts S256x515
  inb_S260x515_S260x515_0_0 : ∀ a, (![0, 0] : Fin 2 → Nat) a + S260x515.size a ≤ S260x515.size a
  h_S260x515 : 0 < S260x515.numel
  inb_S1x260_S1x260_0_0 : ∀ a, (![0, 0] : Fin 2 → Nat) a + S1x260.size a ≤ S1x260.size a
  h_S1x260 : 0 < S1x260.numel
  shapeCasts_S1x260_S1x260 : S1x260.ShapeCasts S1x260
  broadcasts_S1x260_S256x260 : S1x260.Broadcasts S256x260
  bitsLt_bf16_f32 : FTy.bits .bf16 < FTy.bits .f32
  inb_S256x260_S256x260_0_0 : ∀ a, (![0, 0] : Fin 2 → Nat) a + S256x260.size a ≤ S256x260.size a
  h_S256x260 : 0 < S256x260.numel
  packedbf16_S256x260_S256x260_0_0 : (Rect.unit (s := S256x260) ![0, 0] S256x260.size inb_S256x260_S256x260_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S256x260_S256x260 : S256x260.ShapeCasts S256x260
  inb_S2048x260_S2048x260_0_0 : ∀ a, (![0, 0] : Fin 2 → Nat) a + S2048x260.size a ≤ S2048x260.size a
  h_S2048x260 : 0 < S2048x260.numel
  shapeCasts_S2048x260_S2048x260 : S2048x260.ShapeCasts S2048x260
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x7_S515x7_S256x515_1_1_0_0_n_n_wf : DotDims.WF S256x7 S515x7 S256x515 [1] [1] [0] [0] [] []
  dot_S256x515_S260x515_S256x260_1_1_0_0_n_n_wf : DotDims.WF S256x515 S260x515 S256x260 [1] [1] [0] [0] [] []
  dot_S256x260_S2048x260_S256x2048_1_1_0_0_n_n_wf : DotDims.WF S256x260 S2048x260 S256x2048 [1] [1] [0] [0] [] []
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x7.size a ≤ S256x7.size a
  hwx0_0 : ∀ i : grid0.Coords, EltTy.bits .f32 = 32 ∨ (Rect.block (s := S256x7) S256x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S515x7.size a ≤ S515x7.size a
  hwx0_1 : ∀ i : grid0.Coords, EltTy.bits .f32 = 32 ∨ (Rect.block (s := S515x7) S515x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x515.size a ≤ S1x515.size a
  hwx0_2 : ∀ i : grid0.Coords, EltTy.bits .f32 = 32 ∨ (Rect.block (s := S1x515) S1x515.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S260x515.size a ≤ S260x515.size a
  hwx0_3 : ∀ i : grid0.Coords, EltTy.bits .f32 = 32 ∨ (Rect.block (s := S260x515) S260x515.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x260.size a ≤ S1x260.size a
  hwx0_4 : ∀ i : grid0.Coords, EltTy.bits .f32 = 32 ∨ (Rect.block (s := S1x260) S1x260.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x260.size a ≤ S256x260.size a
  hwx0_5 : ∀ i : grid0.Coords, EltTy.bits .bf16 = 32 ∨ (Rect.block (s := S256x260) S256x260.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x260.size a ≤ S256x260.size a
  hwx1_0 : ∀ i : grid1.Coords, EltTy.bits .bf16 = 32 ∨ (Rect.block (s := S256x260) S256x260.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x260.size a ≤ S65536x260.size a
  hwx1_1 : ∀ i : grid1.Coords, EltTy.bits .bf16 = 32 ∨ (Rect.block (s := S65536x260) S2048x260.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x65536.size a
  hwx1_2 : ∀ i : grid1.Coords, EltTy.bits .f32 = 32 ∨ (Rect.block (s := S1x65536) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S2048x65536.size a
  hwx1_3 : ∀ i : grid1.Coords, EltTy.bits .bf16 = 32 ∨ (Rect.block (s := S2048x65536) S1024x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x2048.size a
  hwx1_4 : ∀ i : grid1.Coords, EltTy.bits .f32 = 32 ∨ (Rect.block (s := S1x2048) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S256x2048.size a
  hwx1_5 : ∀ i : grid1.Coords, EltTy.bits .f32 = 32 ∨ (Rect.block (s := S256x2048) S256x1024.size (cc1_transform_5 i) (hinb1_5 i)).WholeWords (EltTy.packing .f32)

variable [Facts₀]

def dot_S256x7_S515x7_S256x515_1_1_0_0_n_n : DotDims S256x7 S515x7 S256x515 where
  lhsContracting := [1]
  rhsContracting := [1]
  lhsNonContracting := [0]
  rhsNonContracting := [0]
  lhsBatch := []
  rhsBatch := []
  wf := dot_S256x7_S515x7_S256x515_1_1_0_0_n_n_wf
def dot_S256x515_S260x515_S256x260_1_1_0_0_n_n : DotDims S256x515 S260x515 S256x260 where
  lhsContracting := [1]
  rhsContracting := [1]
  lhsNonContracting := [0]
  rhsNonContracting := [0]
  lhsBatch := []
  rhsBatch := []
  wf := dot_S256x515_S260x515_S256x260_1_1_0_0_n_n_wf
def dot_S256x260_S2048x260_S256x2048_1_1_0_0_n_n : DotDims S256x260 S2048x260 S256x2048 where
  lhsContracting := [1]
  rhsContracting := [1]
  lhsNonContracting := [0]
  rhsNonContracting := [0]
  lhsBatch := []
  rhsBatch := []
  wf := dot_S256x260_S2048x260_S256x2048_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_arg0) S256x7.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S515x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x515.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S260x515.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x260.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x260.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S256x260.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x260.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S256x7 : Shape := ⟨2, ![256, 7]⟩
abbrev S515x7 : Shape := ⟨2, ![515, 7]⟩
abbrev S515 : Shape := ⟨1, ![515]⟩
abbrev S260x515 : Shape := ⟨2, ![260, 515]⟩
abbrev S260 : Shape := ⟨1, ![260]⟩
abbrev S65536x260 : Shape := ⟨2, ![65536, 260]⟩
abbrev S65536 : Shape := ⟨1, ![65536]⟩
abbrev S2048x65536 : Shape := ⟨2, ![2048, 65536]⟩
abbrev S2048 : Shape := ⟨1, ![2048]⟩
abbrev S7x515 : Shape := ⟨2, ![7, 515]⟩
abbrev S256x515 : Shape := ⟨2, ![256, 515]⟩
abbrev S1x515 : Shape := ⟨2, ![1, 515]⟩
abbrev S_ : Shape := ⟨0, ![]⟩
abbrev S515x260 : Shape := ⟨2, ![515, 260]⟩
abbrev S256x260 : Shape := ⟨2, ![256, 260]⟩
abbrev S1x260 : Shape := ⟨2, ![1, 260]⟩
abbrev S260x65536 : Shape := ⟨2, ![260, 65536]⟩
abbrev S256x65536 : Shape := ⟨2, ![256, 65536]⟩
abbrev S1x65536 : Shape := ⟨2, ![1, 65536]⟩
abbrev S65536x2048 : Shape := ⟨2, ![65536, 2048]⟩
abbrev S256x2048 : Shape := ⟨2, ![256, 2048]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S256x7, .f32⟩
  | .hbm, ⟨1, _⟩ => ⟨S515x7, .f32⟩
  | .hbm, ⟨2, _⟩ => ⟨S515, .f32⟩
  | .hbm, ⟨3, _⟩ => ⟨S260x515, .f32⟩
  | .hbm, ⟨4, _⟩ => ⟨S260, .f32⟩
  | .hbm, ⟨5, _⟩ => ⟨S65536x260, .f32⟩
  | .hbm, ⟨6, _⟩ => ⟨S65536, .f32⟩
  | .hbm, ⟨7, _⟩ => ⟨S2048x65536, .f32⟩
  | .hbm, ⟨8, _⟩ => ⟨S2048, .f32⟩
  | .hbm, ⟨9, _⟩ => ⟨S7x515, .f32⟩
  | .hbm, ⟨10, _⟩ => ⟨S256x515, .f32⟩
  | .hbm, ⟨11, _⟩ => ⟨S1x515, .f32⟩
  | .hbm, ⟨12, _⟩ => ⟨S256x515, .f32⟩
  | .hbm, ⟨13, _⟩ => ⟨S256x515, .f32⟩
  | .hbm, ⟨14, _⟩ => ⟨S_, .f32⟩
  | .hbm, ⟨15, _⟩ => ⟨S256x515, .f32⟩
  | .hbm, ⟨16, _⟩ => ⟨S256x515, .f32⟩
  | .hbm, ⟨17, _⟩ => ⟨S515x260, .f32⟩
  | .hbm, ⟨18, _⟩ => ⟨S256x260, .f32⟩
  | .hbm, ⟨19, _⟩ => ⟨S1x260, .f32⟩
  | .hbm, ⟨20, _⟩ => ⟨S256x260, .f32⟩
  | .hbm, ⟨21, _⟩ => ⟨S256x260, .f32⟩
  | .hbm, ⟨22, _⟩ => ⟨S_, .f32⟩
  | .hbm, ⟨23, _⟩ => ⟨S256x260, .f32⟩
  | .hbm, ⟨24, _⟩ => ⟨S256x260, .f32⟩
  | .hbm, ⟨25, _⟩ => ⟨S260x65536, .f32⟩
  | .hbm, ⟨26, _⟩ => ⟨S256x65536, .f32⟩
  | .hbm, ⟨27, _⟩ => ⟨S1x65536, .f32⟩
  | .hbm, ⟨28, _⟩ => ⟨S256x65536, .f32⟩
  | .hbm, ⟨29, _⟩ => ⟨S256x65536, .f32⟩
  | .hbm, ⟨30, _⟩ => ⟨S_, .f32⟩
  | .hbm, ⟨31, _⟩ => ⟨S256x65536, .f32⟩
  | .hbm, ⟨32, _⟩ => ⟨S256x65536, .f32⟩
  | .hbm, ⟨33, _⟩ => ⟨S65536x2048, .f32⟩
  | .hbm, ⟨34, _⟩ => ⟨S256x2048, .f32⟩
  | .hbm, ⟨35, _⟩ => ⟨S1x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | _, _ => ⟨S256x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call3_cst : Ref sig .tc := ⟨.hbm, 38, rfl⟩
abbrev main_call3_v0 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  transposes_S515x7_S7x515_1_0 : S515x7.Transposes [1, 0] S7x515
  bcast_S515_S1x515_1 : S515.BroadcastsInDim S1x515 (![1] : Fin 1 → Fin S1x515.rank)
  bcast_S1x515_S256x515_0_1 : S1x515.BroadcastsInDim S256x515 (![0, 1] : Fin 2 → Fin S256x515.rank)
  bcast_S_S256x515 : S_.BroadcastsInDim S256x515 (![] : Fin 0 → Fin S256x515.rank)
  transposes_S260x515_S515x260_1_0 : S260x515.Transposes [1, 0] S515x260
  bcast_S260_S1x260_1 : S260.BroadcastsInDim S1x260 (![1] : Fin 1 → Fin S1x260.rank)
  bcast_S1x260_S256x260_0_1 : S1x260.BroadcastsInDim S256x260 (![0, 1] : Fin 2 → Fin S256x260.rank)
  bcast_S_S256x260 : S_.BroadcastsInDim S256x260 (![] : Fin 0 → Fin S256x260.rank)
  transposes_S65536x260_S260x65536_1_0 : S65536x260.Transposes [1, 0] S260x65536
  bcast_S65536_S1x65536_1 : S65536.BroadcastsInDim S1x65536 (![1] : Fin 1 → Fin S1x65536.rank)
  bcast_S1x65536_S256x65536_0_1 : S1x65536.BroadcastsInDim S256x65536 (![0, 1] : Fin 2 → Fin S256x65536.rank)
  bcast_S_S256x65536 : S_.BroadcastsInDim S256x65536 (![] : Fin 0 → Fin S256x65536.rank)
  transposes_S2048x65536_S65536x2048_1_0 : S2048x65536.Transposes [1, 0] S65536x2048
  bcast_S2048_S1x2048_1 : S2048.BroadcastsInDim S1x2048 (![1] : Fin 1 → Fin S1x2048.rank)
  bcast_S1x2048_S256x2048_0_1 : S1x2048.BroadcastsInDim S256x2048 (![0, 1] : Fin 2 → Fin S256x2048.rank)
  bcast_S_S256x2048 : S_.BroadcastsInDim S256x2048 (![] : Fin 0 → Fin S256x2048.rank)
  dot_S256x7_S7x515_S256x515_1_0_0_1_n_n_wf : DotDims.WF S256x7 S7x515 S256x515 [1] [0] [0] [1] [] []
  dot_S256x515_S515x260_S256x260_1_0_0_1_n_n_wf : DotDims.WF S256x515 S515x260 S256x260 [1] [0] [0] [1] [] []
  dot_S256x260_S260x65536_S256x65536_1_0_0_1_n_n_wf : DotDims.WF S256x260 S260x65536 S256x65536 [1] [0] [0] [1] [] []
  dot_S256x65536_S65536x2048_S256x2048_1_0_0_1_n_n_wf : DotDims.WF S256x65536 S65536x2048 S256x2048 [1] [0] [0] [1] [] []

variable [Facts₀]

def dot_S256x7_S7x515_S256x515_1_0_0_1_n_n : DotDims S256x7 S7x515 S256x515 where
  lhsContracting := [1]
  rhsContracting := [0]
  lhsNonContracting := [0]
  rhsNonContracting := [1]
  lhsBatch := []
  rhsBatch := []
  wf := dot_S256x7_S7x515_S256x515_1_0_0_1_n_n_wf
def dot_S256x515_S515x260_S256x260_1_0_0_1_n_n : DotDims S256x515 S515x260 S256x260 where
  lhsContracting := [1]
  rhsContracting := [0]
  lhsNonContracting := [0]
  rhsNonContracting := [1]
  lhsBatch := []
  rhsBatch := []
  wf := dot_S256x515_S515x260_S256x260_1_0_0_1_n_n_wf
def dot_S256x260_S260x65536_S256x65536_1_0_0_1_n_n : DotDims S256x260 S260x65536 S256x65536 where
  lhsContracting := [1]
  rhsContracting := [0]
  lhsNonContracting := [0]
  rhsNonContracting := [1]
  lhsBatch := []
  rhsBatch := []
  wf := dot_S256x260_S260x65536_S256x65536_1_0_0_1_n_n_wf
def dot_S256x65536_S65536x2048_S256x2048_1_0_0_1_n_n : DotDims S256x65536 S65536x2048 S256x2048 where
  lhsContracting := [1]
  rhsContracting := [0]
  lhsNonContracting := [0]
  rhsNonContracting := [1]
  lhsBatch := []
  rhsBatch := []
  wf := dot_S256x65536_S65536x2048_S256x2048_1_0_0_1_n_n_wf

class Facts : Prop extends Facts₀ where

variable [Facts]
-- ==== Proof.K.First.lean ====
/-
  The first kernel: both small layers in one grid point.  Its five inputs are whole arrays, each read once;
  its one output, the 256 × 260 activations, is stored whole.  This file states, for any contents `V` the
  buffers hold when the kernel is entered, what each staging buffer holds around the body (an input: its
  array, which is its only block; the output: the body's one stored value, the two layers applied to the
  inputs), and proves that the body run on those buffers leaves exactly that.
-/
import proofs.«175217_j66597762892542_2_alg».proof.Proof.Gen.Kernel.Launch
import proofs.«175217_j66597762892542_2_alg».proof.Proof.Gen.Kernel.Skeleton
import proofs.«175217_j66597762892542_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the first kernel reads -/

/-- Window `w`'s block at point `t` of the first kernel, read off its array as the kernel finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's staging buffer holds its block when the body runs, whatever was fetched when: an input's
    block index never moves unfetched, and the body leaves the block in place. -/
theorem foundA_0 {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)

/-- Input 1's staging buffer holds its block when the body runs, whatever was fetched when: an input's
    block index never moves unfetched, and the body leaves the block in place. -/
theorem foundA_1 {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

/-- Input 2's staging buffer holds its block when the body runs, whatever was fetched when: an input's
    block index never moves unfetched, and the body leaves the block in place. -/
theorem foundA_2 {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

/-- Input 3's staging buffer holds its block when the body runs, whatever was fetched when: an input's
    block index never moves unfetched, and the body leaves the block in place. -/
theorem foundA_3 {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)

/-- Input 4's staging buffer holds its block when the body runs, whatever was fetched when: an input's
    block index never moves unfetched, and the body leaves the block in place. -/
theorem foundA_4 {c : Dev nD} (dat : Dat τ (Elt F) Unit ℕ (UR sig nD τ) ℕ cfg0 c) (hA : dat.A 4 = V c (Pipeline.arrRef spec0 4))
    (hafter : ∀ t, dat.after 4 t = blkA V c 4 t) (t : Fin cfg0.N) (d) : dat.before 4 t d = blkA V c 4 t :=
  (dat.before_in_eq_fetched 4 rfl (fun _ => rfl) (fun _ _ _ => rfl) (fun t => by rw [hafter]; unfold Dat.blockOf blkA; rw [hA]; try rfl) t d).trans
    (by unfold Dat.fetched Dat.blockOf blkA; rw [hA]; try rfl)

/-! ## What the body stores -/

/-- The whole 256 × 260 rectangle: the body's one store covers the output block. -/
abbrev wholeA : Rect S256x260 := Rect.unit (s := S256x260) ![0, 0] S256x260.size inb_S256x260_S256x260_0_0

/-- The output buffer after the body: its one store, of the two layers applied to the loaded inputs. -/
def outA (x0 : Vec F S256x7 .f32) (x1 : Vec F S515x7 .f32) (x2 : Vec F S1x515 .f32) (x3 : Vec F S260x515 .f32) (x4 : Vec F S1x260 .f32) : Vec F S256x260 .bf16 :=
  View.canon [⟨wholeA, k0_pay1 (View.ld x0 (Rect.unit (s := S256x7) ![0, 0] S256x7.size inb_S256x7_S256x7_0_0)) (View.ld x1 (Rect.unit (s := S515x7) ![0, 0] S515x7.size inb_S515x7_S515x7_0_0)) (View.ld x2 (Rect.unit (s := S1x515) ![0, 0] S1x515.size inb_S1x515_S1x515_0_0)) (View.ld x3 (Rect.unit (s := S260x515) ![0, 0] S260x515.size inb_S260x515_S260x515_0_0)) (View.ld x4 (Rect.unit (s := S1x260) ![0, 0] S1x260.size inb_S1x260_S1x260_0_0))⟩]

/-- One rectangle that is the whole buffer covers it. -/
theorem coverA (p0 : Vec F S256x260 .bf16) (y : S256x260.Idx) :
    ∃ pc ∈ ([⟨wholeA, p0⟩] : List (View.Piece (Elt F) S256x260 .bf16)), y ∈ pc.1.set :=
  View.cover_of_tiled [⟨wholeA, p0⟩] S256x260.size (by rfl) y

/-! ## The body on whole staging buffers -/

set_option maxHeartbeats 1000000 in
/-- Run on whole buffers holding the five inputs (the output's holding anything), the body ends with the inputs
    as they were and the output at `outA` of them. -/
theorem bodyA (c : Dev nD) (E : Set ℕ) (i : grid0.Coords)
    (a0 : Memref sig .tc .vmem S256x7 .f32) (h0 : a0.IsWhole) (a1 : Memref sig .tc .vmem S515x7 .f32) (h1 : a1.IsWhole)
    (a2 : Memref sig .tc .vmem S1x515 .f32) (h2 : a2.IsWhole) (a3 : Memref sig .tc .vmem S260x515 .f32) (h3 : a3.IsWhole)
    (a4 : Memref sig .tc .vmem S1x260 .f32) (h4 : a4.IsWhole) (a5 : Memref sig .tc .vmem S256x260 .bf16) (h5 : a5.IsWhole)
    (x0 : Vec F S256x7 .f32) (x1 : Vec F S515x7 .f32) (x2 : Vec F S1x515 .f32) (x3 : Vec F S260x515 .f32) (x4 : Vec F S1x260 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (outA x0 x1 x2 x3 x4)) -∗ K ⟨⟩))
      ⊢ wp frame (wpE (defs₀ (F := F)) Variants.none c none) E (cc0__mlp12_kernel i a0 h0 a1 h1 a2 h2 a3 h3 a4 h4 a5 h5) K := by
  simp only [cc0__mlp12_kernel_eq_skeleton]; unfold cc0__mlp12_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-! ## The first kernel's proof data -/

/-- Around the first kernel on core `c`: the arrays as found (`V`); after the body each input's buffer at its block
    and the output's at `outA` of the input blocks; the invariant is the scoped buffers nobody stages and the generator
    register, untouched; nothing owed; full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => outA (blkA V c 0 t) (blkA V c 1 t) (blkA V c 2 t) (blkA V c 3 t) (blkA V c 4 t)
  Φ _ := Pipeline.ΦA spec0 c
  q _ := fullShare
  owed _ := 0

theorem datA_A (c : Dev nD) (w : Fin cfg0.W) : (datA V c).A w = V c (Pipeline.arrRef spec0 w) := by
  dsimp only [datA]

theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) : (datA V c).after 3 t = blkA V c 3 t := by dsimp only [datA]
theorem afterA_4 (c : Dev nD) (t : Fin cfg0.N) : (datA V c).after 4 t = blkA V c 4 t := by dsimp only [datA]
theorem afterA_5 (c : Dev nD) (t : Fin cfg0.N) :
    (datA V c).after 5 t = outA (blkA V c 0 t) (blkA V c 1 t) (blkA V c 2 t) (blkA V c 3 t) (blkA V c 4 t) := by dsimp only [datA]

theorem beforeA_0 (c : Dev nD) (t : Fin cfg0.N) (d) : (datA V c).before 0 t d = blkA V c 0 t :=
  foundA_0 V (datA V c) (datA_A V c 0) (afterA_0 V c) t d
theorem beforeA_1 (c : Dev nD) (t : Fin cfg0.N) (d) : (datA V c).before 1 t d = blkA V c 1 t :=
  foundA_1 V (datA V c) (datA_A V c 1) (afterA_1 V c) t d
theorem beforeA_2 (c : Dev nD) (t : Fin cfg0.N) (d) : (datA V c).before 2 t d = blkA V c 2 t :=
  foundA_2 V (datA V c) (datA_A V c 2) (afterA_2 V c) t d
theorem beforeA_3 (c : Dev nD) (t : Fin cfg0.N) (d) : (datA V c).before 3 t d = blkA V c 3 t :=
  foundA_3 V (datA V c) (datA_A V c 3) (afterA_3 V c) t d
theorem beforeA_4 (c : Dev nD) (t : Fin cfg0.N) (d) : (datA V c).before 4 t d = blkA V c 4 t :=
  foundA_4 V (datA V c) (datA_A V c 4) (afterA_4 V c) t d

/-! ## The body obligation -/

/-- What the body is handed at point `t`, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d))
    ∗ (∃ d, owns (c : Thread nD τ) (st0_5 t) fullShare ((datA V c).before 5 t d)))

/-- and what it hands back. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t)
    ∗ owns (c : Thread nD τ) (st0_5 t) fullShare ((datA V c).after 5 t))

/-- The body at any point: the inputs' buffers hold their blocks, so `bodyA` applies; the invariant and what the core
    owes pass through untouched. -/
theorem soundA (c : Dev nD) (t : Fin cfg0.N) :
    preA V c t ⊢ wp frame (wpE (defs₀ (F := F)) Variants.none c none) Set.univ (bodyAt0 t) (fun _ => postA V c t) := by
  unfold preA postA bodyAt0
  simp only [beforeA_0, beforeA_1, beforeA_2, beforeA_3, beforeA_4]
  rw [show (datA V c).Φ t.succ = (datA V c).Φ t.castSucc from rfl,
    show (datA V c).owesAt () t.succ = (datA V c).owesAt () t.castSucc from rfl,
    afterA_0, afterA_1, afterA_2, afterA_3, afterA_4, afterA_5]
  iintro ⟨HΦ, Ho, ⟨%d0, H0⟩, ⟨%d1, H1⟩, ⟨%d2, H2⟩, ⟨%d3, H3⟩, ⟨%d4, H4⟩, ⟨%d5, H5⟩⟩
  iapply (bodyA c Set.univ _ _ _ _ _ _ _ _ _ _ _ _ _ (blkA V c 0 t) (blkA V c 1 t) (blkA V c 2 t) (blkA V c 3 t) (blkA V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for the first kernel, at every point. -/
theorem obligationA (c : Dev nD) : BodyObligation (datA (F := F) V c) (defs₀ (F := F)) Variants.none () Set.univ := fun t => by
  rw [bigSep_W0, bigSep_W0]
  exact soundA V c t

end Cert.Kernel.Hand

end
-- ==== Proof.K.Second.lean ====
/-
  The second kernel: layers three and four fused over a 2 × 32 grid.  Point (h, k) takes features
  2048k … 2048k+2047 of layer three for all 256 rows, and adds their contribution to half h (1024 units) of layer four
  into a running total kept in a scratch buffer: the total is reset to zero where k = 0 and, where k = 31, the bias is
  added, the ramp applied and the result stored to the output block, which is written back only there.
  This file holds what the three kinds of point (k = 0, 0 < k < 31, k = 31) share: the blocks the kernel reads, the two
  conditions on the grid point in closed form, where the output window lies idle, the staging buffers by name, and the
  kernel's invariant with the scratch buffer singled out.
-/
import proofs.«175217_j66597762892542_2_alg».proof.Proof.Gen.Kernel.Launch
import proofs.«175217_j66597762892542_2_alg».proof.Proof.Gen.Kernel.Skeleton
import proofs.«175217_j66597762892542_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the second kernel reads -/

/-- Window `w`'s block at point `t` of the second kernel, read off its array as the kernel finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's staging buffer holds its block when the body runs, fetched at that point or not: unfetched, the
    block index has not moved, and the body leaves the block in place. -/
theorem foundB_0 {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)

/-- Input 1's staging buffer holds its block when the body runs, fetched at that point or not: unfetched, the
    block index has not moved, and the body leaves the block in place. -/
theorem foundB_1 {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)

/-- Input 2's staging buffer holds its block when the body runs, fetched at that point or not: unfetched, the
    block index has not moved, and the body leaves the block in place. -/
theorem foundB_2 {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- Input 3's staging buffer holds its block when the body runs, fetched at that point or not: unfetched, the
    block index has not moved, and the body leaves the block in place. -/
theorem foundB_3 {c : Dev nD} (dat : Dat τ (Elt F) Unit ℕ (UR sig nD τ) ℕ cfg1 c) (hA : dat.A 3 = V c (Pipeline.arrRef spec1 3))
    (hafter : ∀ t, dat.after 3 t = blkB V c 3 t) (t : Fin cfg1.N) (d) : dat.before 3 t d = blkB V c 3 t :=
  (dat.before_in_eq_fetched 3 rfl (fun _ => rfl) (fun _ _ _ => rfl) (fun t => by rw [hafter]; unfold Dat.blockOf blkB; rw [hA]; try rfl) t d).trans
    (by unfold Dat.fetched Dat.blockOf blkB; rw [hA]; try rfl)

/-- Input 4's staging buffer holds its block when the body runs, fetched at that point or not: unfetched, the
    block index has not moved, and the body leaves the block in place. -/
theorem foundB_4 {c : Dev nD} (dat : Dat τ (Elt F) Unit ℕ (UR sig nD τ) ℕ cfg1 c) (hA : dat.A 4 = V c (Pipeline.arrRef spec1 4))
    (hafter : ∀ t, dat.after 4 t = blkB V c 4 t) (t : Fin cfg1.N) (d) : dat.before 4 t d = blkB V c 4 t :=
  (dat.before_in_eq_fetched 4 rfl (fun _ => rfl) (fun _ _ _ => rfl) (fun t => by rw [hafter]; unfold Dat.blockOf blkB; rw [hA]; try rfl) t d).trans
    (by unfold Dat.fetched Dat.blockOf blkB; rw [hA]; try rfl)

/-! ## The two conditions on the grid point -/

/-- "This is the first tile of the sum" (k = 0): the body's first branch, as the kernel computes it from the point. -/
abbrev isFirst (i : grid1.Coords) : Prop := (Scalar.cmpi .ne (Scalar.extui (Scalar.cmpi .eq (BitVec.ofNat 32 (i 1).val) 0#32)) 0#32) = 1#1
/-- Along the 64 points in order it holds at the multiples of 32. -/
theorem isFirst_iff : ∀ t : Fin cfg1.N, isFirst (grid1.coords t) ↔ t.val % 32 = 0 :=
  (by decide +kernel : ∀ t : Fin grid1.N, isFirst (grid1.coords t) ↔ t.val % 32 = 0)

/-- "This is the last tile of the sum" (k = 31): the body's second branch. -/
abbrev isLast (i : grid1.Coords) : Prop := k1_cond2 i = 1#1
/-- It holds at the points one below a multiple of 32. -/
theorem isLast_iff : ∀ t : Fin cfg1.N, isLast (grid1.coords t) ↔ t.val % 32 = 31 :=
  (by decide +kernel : ∀ t : Fin grid1.N, isLast (grid1.coords t) ↔ t.val % 32 = 31)

/-! ## Where the output window lies idle -/

/-- Away from the last tile the body stores nothing into the output block, -/
theorem idle_of_not_last : ∀ t : Fin cfg1.N, ¬isLast (grid1.coords t) → cfg1.idle 5 (grid1.coords t) = true := by decide +kernel
/-- and the block is not written back there. -/
theorem noFlush_of_not_last : ∀ t : Fin cfg1.N, ¬isLast (grid1.coords t) → (cfg1.win 5).flush t = false := by decide +kernel
/-- At the last tile the body stores it. -/
theorem live_of_last : ∀ t : Fin cfg1.N, isLast (grid1.coords t) → cfg1.idle 5 (grid1.coords t) = false := by decide +kernel
/-- The inputs are never idle. -/
theorem live_in_0 : ∀ t : Fin cfg1.N, cfg1.idle 0 (grid1.coords t) = false := fun _ => rfl
theorem live_in_1 : ∀ t : Fin cfg1.N, cfg1.idle 1 (grid1.coords t) = false := fun _ => rfl
theorem live_in_2 : ∀ t : Fin cfg1.N, cfg1.idle 2 (grid1.coords t) = false := fun _ => rfl
theorem live_in_3 : ∀ t : Fin cfg1.N, cfg1.idle 3 (grid1.coords t) = false := fun _ => rfl
theorem live_in_4 : ∀ t : Fin cfg1.N, cfg1.idle 4 (grid1.coords t) = false := fun _ => rfl

/-! ## The staging buffers by name -/

abbrev mB_0 (t : Fin cfg1.N) : Memref sig .tc .vmem S256x260 .bf16 := win1_0.stage (cfg1.slots t 0)
abbrev hB_0 (t : Fin cfg1.N) : (mB_0 t).IsWhole := hstage1_0 ((cfg1.slots t 0).cast nbuf1_0)
abbrev mB_1 (t : Fin cfg1.N) : Memref sig .tc .vmem S2048x260 .bf16 := win1_1.stage (cfg1.slots t 1)
abbrev hB_1 (t : Fin cfg1.N) : (mB_1 t).IsWhole := hstage1_1 ((cfg1.slots t 1).cast nbuf1_1)
abbrev mB_2 (t : Fin cfg1.N) : Memref sig .tc .vmem S1x2048 .f32 := win1_2.stage (cfg1.slots t 2)
abbrev hB_2 (t : Fin cfg1.N) : (mB_2 t).IsWhole := hstage1_2 ((cfg1.slots t 2).cast nbuf1_2)
abbrev mB_3 (t : Fin cfg1.N) : Memref sig .tc .vmem S1024x2048 .bf16 := win1_3.stage (cfg1.slots t 3)
abbrev hB_3 (t : Fin cfg1.N) : (mB_3 t).IsWhole := hstage1_3 ((cfg1.slots t 3).cast nbuf1_3)
abbrev mB_4 (t : Fin cfg1.N) : Memref sig .tc .vmem S1x1024 .f32 := win1_4.stage (cfg1.slots t 4)
abbrev hB_4 (t : Fin cfg1.N) : (mB_4 t).IsWhole := hstage1_4 ((cfg1.slots t 4).cast nbuf1_4)
abbrev mB_5 (t : Fin cfg1.N) : Memref sig .tc .vmem S256x1024 .f32 := win1_5.stage (cfg1.slots t 5)
abbrev hB_5 (t : Fin cfg1.N) : (mB_5 t).IsWhole := hstage1_5 ((cfg1.slots t 5).cast nbuf1_5)
/-- The scratch buffer that carries the running total from point to point. -/
abbrev accM : Memref sig .tc .vmem S256x1024 .f32 := Memref.whole cc1_scratch0
/-- The running total is stated through this view, -/
abbrev accV : View sig .tc .vmem S256x1024 .f32 := (accM).view
/-- and the output block through one of its two staging buffers (which one does not matter). -/
abbrev outV : View sig .tc .vmem S256x1024 .f32 := (Memref.whole cc1_stg5_0 : Memref sig .tc .vmem S256x1024 .f32).view
/-- The whole 256 × 1024 rectangle: every store of the body covers its buffer. -/
abbrev wholeB : Rect S256x1024 := Rect.unit (s := S256x1024) ![0, 0] S256x1024.size inb_S256x1024_S256x1024_0_0

/-! ## The invariant, the scratch buffer singled out -/

/-- The scoped buffers the second kernel's windows do not stage — the first kernel's six staging buffers, each at some
    contents — with `S` in the place of the scratch buffer. -/
def restWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ S)

/-- What the region hands the kernel before the first point: those buffers, the scratch buffer at anything, and the
    generator register at some state. -/
theorem entry_eq (c : Dev nD) :
    (Pipeline.ΦA spec1 c : sProp 𝕄)
      = iprop(restWith c (iprop(∃ d, owns (c : Thread nD τ) accM fullShare d)) ∗ (∃ r, prngReg c r)) := by
  unfold Pipeline.ΦA restWith; rw [scopedRest1_eq]; simp only [accM, owns_whole]; try rfl

/-- The scratch buffer taken out of the rest and put back. -/
theorem restWith_mono (c : Dev nD) {S S' : sProp 𝕄} (h : S ⊢ S') : restWith c S ⊢ restWith c S' := by
  unfold restWith
  iintro ⟨H0, H1, H2, H3, H4, H5, HS⟩
  isplitl [H0]; · iexact H0
  isplitl [H1]; · iexact H1
  isplitl [H2]; · iexact H2
  isplitl [H3]; · iexact H3
  isplitl [H4]; · iexact H4
  isplitl [H5]; · iexact H5
  iapply h; iexact HS

end Cert.Kernel.Hand

end
-- ==== Proof.K.RunFirst.lean ====
/-
  The second kernel's body run where the sum starts (k = 0, not the last tile): on whole buffers holding the five input blocks, the scratch buffer holding anything and the output buffer, which this point leaves alone, holding whatever it holds,
  the body terminates with the inputs as they were, the output buffer untouched and the scratch buffer written by the body's
  stores (the reset to zero, then the first tile's partial sum added).  The written pieces are found by running the body; what they
  amount to is read off afterwards.
-/
import proofs.«175217_j66597762892542_2_alg».proof.Proof.K.Second

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch buffer at a point where the sum starts (k = 0, not the last tile), with the proof that
    the body, run on whole buffers as described above, ends holding them. -/
noncomputable def runFirst (c : Dev nD) (i : grid1.Coords)
    (a2 : Memref sig .tc .vmem S256x260 .bf16) (h2 : a2.IsWhole) (a3 : Memref sig .tc .vmem S2048x260 .bf16) (h3 : a3.IsWhole)
    (a4 : Memref sig .tc .vmem S1x2048 .f32) (h4 : a4.IsWhole) (a5 : Memref sig .tc .vmem S1024x2048 .bf16) (h5 : a5.IsWhole)
    (a6 : Memref sig .tc .vmem S1x1024 .f32) (h6 : a6.IsWhole) (a7 : Memref sig .tc .vmem S256x1024 .f32) (h7 : a7.IsWhole)
    (a8 : Memref sig .tc .vmem S256x1024 .f32) (h8 : a8.IsWhole) (hc0 : isFirst i) (hc1 : ¬isLast i)
    (x0 : Vec F S256x260 .bf16) (x1 : Vec F S2048x260 .bf16) (x2 : Vec F S1x2048 .f32) (x3 : Vec F S1024x2048 .bf16) (x4 : Vec F S1x1024 .f32) :
    Σ' (L5 : List (View.Piece (Elt F) S256x1024 .f32)), { LS : List (View.Piece (Elt F) S256x1024 .f32) //
      ∀ (xi : Vec F S256x1024 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare xi ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4 ∗ owns (c : Thread nD τ) a7 fullShare xi
                ∗ (∃ f, a8.view.loc (c : Thread nD τ) ↦[a8.view.set]{fullShare} a8.view.writes (Elt F) f LS)) -∗ K ⟨⟩))
          ⊢ wp frame (wpE (defs₀ (F := F)) Variants.none c none) E (cc1__fused34_kernel i a2 h2 a3 h3 a4 h4 a5 h5 a6 h6 a7 h7 a8 h8) K } := by
  refine ⟨[], ?_, fun xi E K => ?run⟩
  case run =>
    simp only [cc1__fused34_kernel_eq_skeleton]; unfold cc1__fused34_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact HS

end Cert.Kernel.Hand

end
-- ==== Proof.K.RunMid.lean ====
/-
  The second kernel's body run in the middle of the sum (0 < k < 31): on whole buffers holding the five input blocks, the scratch buffer holding the running total so far and the output buffer, which this point leaves alone, holding whatever it holds,
  the body terminates with the inputs as they were, the output buffer untouched and the scratch buffer written by the body's
  store (the total with this tile's partial sum added).  The written pieces are found by running the body; what they
  amount to is read off afterwards.
-/
import proofs.«175217_j66597762892542_2_alg».proof.Proof.K.Second

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch buffer at a point in the middle of the sum (0 < k < 31), with the proof that
    the body, run on whole buffers as described above, ends holding them. -/
noncomputable def runMid (c : Dev nD) (i : grid1.Coords)
    (a2 : Memref sig .tc .vmem S256x260 .bf16) (h2 : a2.IsWhole) (a3 : Memref sig .tc .vmem S2048x260 .bf16) (h3 : a3.IsWhole)
    (a4 : Memref sig .tc .vmem S1x2048 .f32) (h4 : a4.IsWhole) (a5 : Memref sig .tc .vmem S1024x2048 .bf16) (h5 : a5.IsWhole)
    (a6 : Memref sig .tc .vmem S1x1024 .f32) (h6 : a6.IsWhole) (a7 : Memref sig .tc .vmem S256x1024 .f32) (h7 : a7.IsWhole)
    (a8 : Memref sig .tc .vmem S256x1024 .f32) (h8 : a8.IsWhole) (hc0 : ¬isFirst i) (hc1 : ¬isLast i)
    (x0 : Vec F S256x260 .bf16) (x1 : Vec F S2048x260 .bf16) (x2 : Vec F S1x2048 .f32) (x3 : Vec F S1024x2048 .bf16) (x4 : Vec F S1x1024 .f32) (xs : Vec F S256x1024 .f32) :
    Σ' (L5 : List (View.Piece (Elt F) S256x1024 .f32)), { LS : List (View.Piece (Elt F) S256x1024 .f32) //
      ∀ (xi : Vec F S256x1024 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare xi ∗ owns (c : Thread nD τ) a8 fullShare xs
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4 ∗ owns (c : Thread nD τ) a7 fullShare xi
                ∗ (∃ f, a8.view.loc (c : Thread nD τ) ↦[a8.view.set]{fullShare} a8.view.writes (Elt F) f LS)) -∗ K ⟨⟩))
          ⊢ wp frame (wpE (defs₀ (F := F)) Variants.none c none) E (cc1__fused34_kernel i a2 h2 a3 h3 a4 h4 a5 h5 a6 h6 a7 h7 a8 h8) K } := by
  refine ⟨[], ?_, fun xi E K => ?run⟩
  case run =>
    simp only [cc1__fused34_kernel_eq_skeleton]; unfold cc1__fused34_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hfs
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact HS

end Cert.Kernel.Hand

end
-- ==== Proof.K.RunLast.lean ====
/-
  The second kernel's body run where the sum ends (k = 31): on whole buffers holding the five input blocks, the scratch buffer holding the running total so far and the output buffer holding anything,
  the body terminates with the inputs as they were, the output buffer written by its one store and the scratch buffer written by the body's
  store (the total with this tile's partial sum added).  The written pieces are found by running the body; what they
  amount to is read off afterwards.
-/
import proofs.«175217_j66597762892542_2_alg».proof.Proof.K.Second

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer and in the scratch buffer at a point where the sum ends (k = 31), with the proof that
    the body, run on whole buffers as described above, ends holding them. -/
noncomputable def runLast (c : Dev nD) (i : grid1.Coords)
    (a2 : Memref sig .tc .vmem S256x260 .bf16) (h2 : a2.IsWhole) (a3 : Memref sig .tc .vmem S2048x260 .bf16) (h3 : a3.IsWhole)
    (a4 : Memref sig .tc .vmem S1x2048 .f32) (h4 : a4.IsWhole) (a5 : Memref sig .tc .vmem S1024x2048 .bf16) (h5 : a5.IsWhole)
    (a6 : Memref sig .tc .vmem S1x1024 .f32) (h6 : a6.IsWhole) (a7 : Memref sig .tc .vmem S256x1024 .f32) (h7 : a7.IsWhole)
    (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) :
    Σ' (L5 : List (View.Piece (Elt F) S256x1024 .f32)), { LS : List (View.Piece (Elt F) S256x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ (∃ d, owns (c : Thread nD τ) a7 fullShare d) ∗ owns (c : Thread nD τ) a8 fullShare xs
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4 ∗ (∃ f, a7.view.loc (c : Thread nD τ) ↦[a7.view.set]{fullShare} a7.view.writes (Elt F) f L5)
                ∗ (∃ f, a8.view.loc (c : Thread nD τ) ↦[a8.view.set]{fullShare} a8.view.writes (Elt F) f LS)) -∗ K ⟨⟩))
          ⊢ wp frame (wpE (defs₀ (F := F)) Variants.none c none) E (cc1__fused34_kernel i a2 h2 a3 h3 a4 h4 a5 h5 a6 h6 a7 h7 a8 h8) K } := by
  refine ⟨?_, ?_, fun E K => ?run⟩
  case run =>
    simp only [cc1__fused34_kernel_eq_skeleton]; unfold cc1__fused34_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := h2.eq_unread hf2; obtain rfl := h3.eq_unread hf3; obtain rfl := h4.eq_unread hf4; obtain rfl := h5.eq_unread hf5; obtain rfl := h6.eq_unread hf6; obtain rfl := h8.eq_unread hfs
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact HS

end Cert.Kernel.Hand

end
-- ==== Proof.K.Fused.lean ====
/-
  The second kernel, point by point.  After point n the scratch buffer holds the running total `totalAt n`: what a
  first-tile point leaves from its five input blocks alone, what any other point leaves from its blocks and the total
  the point before left.  At a last-tile point the output buffer is left at `outLast` of the blocks and the total
  before; elsewhere the output window is idle and its buffer goes back as it came.  The kernel's invariant is the
  entry state before the first point and afterwards "the scratch buffer holds `totalAt` of the point before"; with it
  the body, in each of the three kinds of point, meets the pipeline's obligation.
-/
import proofs.«175217_j66597762892542_2_alg».proof.Proof.K.RunFirst
import proofs.«175217_j66597762892542_2_alg».proof.Proof.K.RunMid
import proofs.«175217_j66597762892542_2_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- The scratch buffer's pieces at a point of this kind tile it, so they cover it. -/
theorem totalCoverFirst (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : isFirst i) (hc1 : ¬isLast i)
    (x0 : Vec F S256x260 .bf16) (x1 : Vec F S2048x260 .bf16) (x2 : Vec F S1x2048 .f32) (x3 : Vec F S1024x2048 .bf16) (x4 : Vec F S1x1024 .f32) (y : S256x1024.Idx) :
    ∃ pc ∈ (runFirst c i a2 h2 a3 h3 a4 h4 a5 h5 a6 h6 a7 h7 a8 h8 hc0 hc1 x0 x1 x2 x3 x4).2.1, y ∈ pc.1.set :=
  View.cover_of_tiledL (runFirst c i a2 h2 a3 h3 a4 h4 a5 h5 a6 h6 a7 h7 a8 h8 hc0 hc1 x0 x1 x2 x3 x4).2.1 S256x1024.size (by sl_kernel_rfl) y

/-- The running total a point of this kind leaves in the scratch buffer: its pieces read back. -/
def totalFirst (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : isFirst i) (hc1 : ¬isLast i)
    (x0 : Vec F S256x260 .bf16) (x1 : Vec F S2048x260 .bf16) (x2 : Vec F S1x2048 .f32) (x3 : Vec F S1024x2048 .bf16) (x4 : Vec F S1x1024 .f32) : Vec F S256x1024 .f32 :=
  accV.read (Elt F) (accV.writes (Elt F) accV.junk (runFirst c i a2 h2 a3 h3 a4 h4 a5 h5 a6 h6 a7 h7 a8 h8 hc0 hc1 x0 x1 x2 x3 x4).2.1)

/-- The scratch buffer's pieces at a point of this kind tile it, so they cover it. -/
theorem totalCoverMid (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : ¬isLast i)
    (x0 : Vec F S256x260 .bf16) (x1 : Vec F S2048x260 .bf16) (x2 : Vec F S1x2048 .f32) (x3 : Vec F S1024x2048 .bf16) (x4 : Vec F S1x1024 .f32) (xs : Vec F S256x1024 .f32) (y : S256x1024.Idx) :
    ∃ pc ∈ (runMid c i a2 h2 a3 h3 a4 h4 a5 h5 a6 h6 a7 h7 a8 h8 hc0 hc1 x0 x1 x2 x3 x4 xs).2.1, y ∈ pc.1.set :=
  View.cover_of_tiledL (runMid c i a2 h2 a3 h3 a4 h4 a5 h5 a6 h6 a7 h7 a8 h8 hc0 hc1 x0 x1 x2 x3 x4 xs).2.1 S256x1024.size (by sl_kernel_rfl) y

/-- The running total a point of this kind leaves in the scratch buffer: its pieces read back. -/
def totalMid (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : ¬isLast i)
    (x0 : Vec F S256x260 .bf16) (x1 : Vec F S2048x260 .bf16) (x2 : Vec F S1x2048 .f32) (x3 : Vec F S1024x2048 .bf16) (x4 : Vec F S1x1024 .f32) (xs : Vec F S256x1024 .f32) : Vec F S256x1024 .f32 :=
  accV.read (Elt F) (accV.writes (Elt F) accV.junk (runMid c i a2 h2 a3 h3 a4 h4 a5 h5 a6 h6 a7 h7 a8 h8 hc0 hc1 x0 x1 x2 x3 x4 xs).2.1)

/-- The scratch buffer's pieces at a point of this kind tile it, so they cover it. -/
theorem totalCoverLast (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) (y : S256x1024.Idx) :
    ∃ pc ∈ (runLast c i a2 h2 a3 h3 a4 h4 a5 h5 a6 h6 a7 h7 a8 h8 hc0 hc1 x0 x1 x2 x3 x4 xs).2.1, y ∈ pc.1.set :=
  View.cover_of_tiledL (runLast c i a2 h2 a3 h3 a4 h4 a5 h5 a6 h6 a7 h7 a8 h8 hc0 hc1 x0 x1 x2 x3 x4 xs).2.1 S256x1024.size (by sl_kernel_rfl) y

/-- The running total a point of this kind leaves in the scratch buffer: its pieces read back. -/
def totalLast (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) : Vec F S256x1024 .f32 :=
  accV.read (Elt F) (accV.writes (Elt F) accV.junk (runLast c i a2 h2 a3 h3 a4 h4 a5 h5 a6 h6 a7 h7 a8 h8 hc0 hc1 x0 x1 x2 x3 x4 xs).2.1)

/-- The output buffer's pieces at the last tile tile it, so they cover it. -/
theorem outCoverLast (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) (y : S256x1024.Idx) :
    ∃ pc ∈ (runLast c i a2 h2 a3 h3 a4 h4 a5 h5 a6 h6 a7 h7 a8 h8 hc0 hc1 x0 x1 x2 x3 x4 xs).1, y ∈ pc.1.set :=
  View.cover_of_tiledL (runLast c i a2 h2 a3 h3 a4 h4 a5 h5 a6 h6 a7 h7 a8 h8 hc0 hc1 x0 x1 x2 x3 x4 xs).1 S256x1024.size (by sl_kernel_rfl) y

/-- What the last tile's point leaves in the output buffer: its pieces read back. -/
def outLast (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) : Vec F S256x1024 .f32 :=
  outV.read (Elt F) (outV.writes (Elt F) outV.junk (runLast c i a2 h2 a3 h3 a4 h4 a5 h5 a6 h6 a7 h7 a8 h8 hc0 hc1 x0 x1 x2 x3 x4 xs).1)

/-! ## The running total after each point -/

/-- The running total after the point at position `n`: by recursion on the position, the kind of point read off `n mod 32`. -/
def totalAt (c : Dev nD) : (n : ℕ) → n < cfg1.N → Vec F S256x1024 .f32
  | 0, hn => totalFirst c (grid1.coords ⟨0, hn⟩) (mB_0 ⟨0, hn⟩) (hB_0 ⟨0, hn⟩) (mB_1 ⟨0, hn⟩) (hB_1 ⟨0, hn⟩) (mB_2 ⟨0, hn⟩) (hB_2 ⟨0, hn⟩) (mB_3 ⟨0, hn⟩) (hB_3 ⟨0, hn⟩) (mB_4 ⟨0, hn⟩) (hB_4 ⟨0, hn⟩) (mB_5 ⟨0, hn⟩) (hB_5 ⟨0, hn⟩) accM (Memref.isWhole_whole _) ((isFirst_iff ⟨0, hn⟩).mpr (Nat.zero_mod _)) (fun h => (fun h => by (try dsimp only at h); omega) ((isLast_iff ⟨0, hn⟩).mp h)) (blkB V c 0 ⟨0, hn⟩) (blkB V c 1 ⟨0, hn⟩) (blkB V c 2 ⟨0, hn⟩) (blkB V c 3 ⟨0, hn⟩) (blkB V c 4 ⟨0, hn⟩)
  | n + 1, hn =>
    if h0 : (n + 1) % 32 = 0 then
      if h1 : (n + 1) % 32 = 31 then
        False.elim (by omega)
      else
        totalFirst c (grid1.coords ⟨n + 1, hn⟩) (mB_0 ⟨n + 1, hn⟩) (hB_0 ⟨n + 1, hn⟩) (mB_1 ⟨n + 1, hn⟩) (hB_1 ⟨n + 1, hn⟩) (mB_2 ⟨n + 1, hn⟩) (hB_2 ⟨n + 1, hn⟩) (mB_3 ⟨n + 1, hn⟩) (hB_3 ⟨n + 1, hn⟩) (mB_4 ⟨n + 1, hn⟩) (hB_4 ⟨n + 1, hn⟩) (mB_5 ⟨n + 1, hn⟩) (hB_5 ⟨n + 1, hn⟩) accM (Memref.isWhole_whole _) ((isFirst_iff ⟨n + 1, hn⟩).mpr h0) (fun h => h1 ((isLast_iff ⟨n + 1, hn⟩).mp h)) (blkB V c 0 ⟨n + 1, hn⟩) (blkB V c 1 ⟨n + 1, hn⟩) (blkB V c 2 ⟨n + 1, hn⟩) (blkB V c 3 ⟨n + 1, hn⟩) (blkB V c 4 ⟨n + 1, hn⟩)
    else
      if h1 : (n + 1) % 32 = 31 then
        totalLast c (grid1.coords ⟨n + 1, hn⟩) (mB_0 ⟨n + 1, hn⟩) (hB_0 ⟨n + 1, hn⟩) (mB_1 ⟨n + 1, hn⟩) (hB_1 ⟨n + 1, hn⟩) (mB_2 ⟨n + 1, hn⟩) (hB_2 ⟨n + 1, hn⟩) (mB_3 ⟨n + 1, hn⟩) (hB_3 ⟨n + 1, hn⟩) (mB_4 ⟨n + 1, hn⟩) (hB_4 ⟨n + 1, hn⟩) (mB_5 ⟨n + 1, hn⟩) (hB_5 ⟨n + 1, hn⟩) accM (Memref.isWhole_whole _) (fun h => h0 ((isFirst_iff ⟨n + 1, hn⟩).mp h)) ((isLast_iff ⟨n + 1, hn⟩).mpr h1) (blkB V c 0 ⟨n + 1, hn⟩) (blkB V c 1 ⟨n + 1, hn⟩) (blkB V c 2 ⟨n + 1, hn⟩) (blkB V c 3 ⟨n + 1, hn⟩) (blkB V c 4 ⟨n + 1, hn⟩) (totalAt c n (Nat.lt_of_succ_lt hn))
      else
        totalMid c (grid1.coords ⟨n + 1, hn⟩) (mB_0 ⟨n + 1, hn⟩) (hB_0 ⟨n + 1, hn⟩) (mB_1 ⟨n + 1, hn⟩) (hB_1 ⟨n + 1, hn⟩) (mB_2 ⟨n + 1, hn⟩) (hB_2 ⟨n + 1, hn⟩) (mB_3 ⟨n + 1, hn⟩) (hB_3 ⟨n + 1, hn⟩) (mB_4 ⟨n + 1, hn⟩) (hB_4 ⟨n + 1, hn⟩) (mB_5 ⟨n + 1, hn⟩) (hB_5 ⟨n + 1, hn⟩) accM (Memref.isWhole_whole _) (fun h => h0 ((isFirst_iff ⟨n + 1, hn⟩).mp h)) (fun h => h1 ((isLast_iff ⟨n + 1, hn⟩).mp h)) (blkB V c 0 ⟨n + 1, hn⟩) (blkB V c 1 ⟨n + 1, hn⟩) (blkB V c 2 ⟨n + 1, hn⟩) (blkB V c 3 ⟨n + 1, hn⟩) (blkB V c 4 ⟨n + 1, hn⟩) (totalAt c n (Nat.lt_of_succ_lt hn))

/-- At a first-tile point the total starts afresh. -/
theorem totalAt_first (c : Dev nD) (t : Fin cfg1.N) (h0 : t.val % 32 = 0) (h1 : ¬t.val % 32 = 31) :
    totalAt V c t.val t.isLt = totalFirst c (grid1.coords t) (mB_0 t) (hB_0 t) (mB_1 t) (hB_1 t) (mB_2 t) (hB_2 t) (mB_3 t) (hB_3 t) (mB_4 t) (hB_4 t) (mB_5 t) (hB_5 t) accM (Memref.isWhole_whole _) ((isFirst_iff t).mpr h0) (fun h => h1 ((isLast_iff t).mp h)) (blkB V c 0 t) (blkB V c 1 t) (blkB V c 2 t) (blkB V c 3 t) (blkB V c 4 t) := by
  obtain ⟨n, hn⟩ := t
  cases n with
  | zero => exact rfl
  | succ n => exact (dif_pos h0).trans ((dif_neg h1).trans rfl)

/-- At a middle point it is the point's contribution added to the total before. -/
theorem totalAt_mid (c : Dev nD) (t : Fin cfg1.N) (h0 : ¬t.val % 32 = 0) (h1 : ¬t.val % 32 = 31) :
    totalAt V c t.val t.isLt = totalMid c (grid1.coords t) (mB_0 t) (hB_0 t) (mB_1 t) (hB_1 t) (mB_2 t) (hB_2 t) (mB_3 t) (hB_3 t) (mB_4 t) (hB_4 t) (mB_5 t) (hB_5 t) accM (Memref.isWhole_whole _) (fun h => h0 ((isFirst_iff t).mp h)) (fun h => h1 ((isLast_iff t).mp h)) (blkB V c 0 t) (blkB V c 1 t) (blkB V c 2 t) (blkB V c 3 t) (blkB V c 4 t) (totalAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last-tile point likewise. -/
theorem totalAt_last (c : Dev nD) (t : Fin cfg1.N) (h0 : ¬t.val % 32 = 0) (h1 : t.val % 32 = 31) :
    totalAt V c t.val t.isLt = totalLast c (grid1.coords t) (mB_0 t) (hB_0 t) (mB_1 t) (hB_1 t) (mB_2 t) (hB_2 t) (mB_3 t) (hB_3 t) (mB_4 t) (hB_4 t) (mB_5 t) (hB_5 t) accM (Memref.isWhole_whole _) (fun h => h0 ((isFirst_iff t).mp h)) ((isLast_iff t).mpr h1) (blkB V c 0 t) (blkB V c 1 t) (blkB V c 2 t) (blkB V c 3 t) (blkB V c 4 t) (totalAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output buffer holds after point `t`'s body where that is ever looked at — at the last-tile points, which
    alone write the block back: `outLast` of the point's blocks and the total before.  (Elsewhere the value is a
    placeholder nothing reads: the window is idle there.) -/
def outAt (c : Dev nD) (t : Fin cfg1.N) : Vec F S256x1024 .f32 :=
  if h1 : t.val % 32 = 31 then
    outLast c (grid1.coords t) (mB_0 t) (hB_0 t) (mB_1 t) (hB_1 t) (mB_2 t) (hB_2 t) (mB_3 t) (hB_3 t) (mB_4 t) (hB_4 t) (mB_5 t) (hB_5 t) accM (Memref.isWhole_whole _) (fun h => (fun h => by omega) ((isFirst_iff t).mp h)) ((isLast_iff t).mpr h1) (blkB V c 0 t) (blkB V c 1 t) (blkB V c 2 t) (blkB V c 3 t) (blkB V c 4 t) (totalAt V c (t.val - 1) (Nat.lt_of_le_of_lt (Nat.sub_le _ _) t.isLt))
  else totalAt V c t.val t.isLt

theorem outAt_last (c : Dev nD) (t : Fin cfg1.N) (h0 : ¬t.val % 32 = 0) (h1 : t.val % 32 = 31) :
    outAt V c t = outLast c (grid1.coords t) (mB_0 t) (hB_0 t) (mB_1 t) (hB_1 t) (mB_2 t) (hB_2 t) (mB_3 t) (hB_3 t) (mB_4 t) (hB_4 t) (mB_5 t) (hB_5 t) accM (Memref.isWhole_whole _) (fun h => h0 ((isFirst_iff t).mp h)) ((isLast_iff t).mpr h1) (blkB V c 0 t) (blkB V c 1 t) (blkB V c 2 t) (blkB V c 3 t) (blkB V c 4 t) (totalAt V c (t.val - 1) (Nat.lt_of_le_of_lt (Nat.sub_le _ _) t.isLt)) :=
  dif_pos h1

/-! ## The invariant -/

/-- Before position `n`: at the start what the region hands over; afterwards the scratch buffer at the total the point
    before left, beside the other scoped buffers and the generator register. -/
def inv (c : Dev nD) : (n : ℕ) → n ≤ cfg1.N → sProp 𝕄
  | 0, _ => Pipeline.ΦA spec1 c
  | n + 1, hn => iprop(restWith c (owns (c : Thread nD τ) accM fullShare (totalAt V c n hn)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(restWith c (owns (c : Thread nD τ) accM fullShare (totalAt V c n hn)) ∗ (∃ r, prngReg c r)) := rfl

theorem inv_pos (c : Dev nD) (n : ℕ) (h : n ≤ cfg1.N) (hz : n ≠ 0) :
    inv V c n h = iprop(restWith c (owns (c : Thread nD τ) accM fullShare (totalAt V c (n - 1) (by omega))) ∗ (∃ r, prngReg c r)) := by
  cases n with
  | zero => exact absurd rfl hz
  | succ n => rfl

/-! ## The second kernel's proof data -/

/-- Around the second kernel on core `c`: the arrays as found (`V`); after the body each input's buffer at its block and
    the output's at `outAt`; the invariant `inv`; nothing owed; full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => outAt V c t
  Φ t := inv V c t.val (Nat.le_of_lt_succ t.isLt)
  q _ := fullShare
  owed _ := 0

theorem datB_A (c : Dev nD) (w : Fin cfg1.W) : (datB V c).A w = V c (Pipeline.arrRef spec1 w) := by
  dsimp only [datB]

theorem inv_castSucc (c : Dev nD) (t : Fin cfg1.N) :
    (datB V c).Φ t.castSucc = inv V c t.val (Nat.le_of_lt t.isLt) := by
  dsimp only [datB]; simp only [Fin.coe_castSucc]

theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = blkB V c 3 t := by dsimp only [datB]
theorem afterB_4 (c : Dev nD) (t : Fin cfg1.N) : (datB V c).after 4 t = blkB V c 4 t := by dsimp only [datB]
theorem afterB_5 (c : Dev nD) (t : Fin cfg1.N) : (datB V c).after 5 t = outAt V c t := by dsimp only [datB]

theorem beforeB_0 (c : Dev nD) (t : Fin cfg1.N) (d) : (datB V c).before 0 t d = blkB V c 0 t :=
  foundB_0 V (datB V c) (datB_A V c 0) (afterB_0 V c) t d
theorem beforeB_1 (c : Dev nD) (t : Fin cfg1.N) (d) : (datB V c).before 1 t d = blkB V c 1 t :=
  foundB_1 V (datB V c) (datB_A V c 1) (afterB_1 V c) t d
theorem beforeB_2 (c : Dev nD) (t : Fin cfg1.N) (d) : (datB V c).before 2 t d = blkB V c 2 t :=
  foundB_2 V (datB V c) (datB_A V c 2) (afterB_2 V c) t d
theorem beforeB_3 (c : Dev nD) (t : Fin cfg1.N) (d) : (datB V c).before 3 t d = blkB V c 3 t :=
  foundB_3 V (datB V c) (datB_A V c 3) (afterB_3 V c) t d
theorem beforeB_4 (c : Dev nD) (t : Fin cfg1.N) (d) : (datB V c).before 4 t d = blkB V c 4 t :=
  foundB_4 V (datB V c) (datB_A V c 4) (afterB_4 V c) t d

/-! ## The body obligation -/

/-- What the body is handed at point `t`, -/
def preB (c : Dev nD) (t : Fin cfg1.N) : sProp 𝕄 :=
  iprop((datB V c).Φ t.castSucc ∗ (datB V c).owesAt () t.castSucc
    ∗ (∃ d, owns (c : Thread nD τ) (mB_0 t) fullShare ((datB V c).before 0 t d))
    ∗ (∃ d, owns (c : Thread nD τ) (mB_1 t) fullShare ((datB V c).before 1 t d))
    ∗ (∃ d, owns (c : Thread nD τ) (mB_2 t) fullShare ((datB V c).before 2 t d))
    ∗ (∃ d, owns (c : Thread nD τ) (mB_3 t) fullShare ((datB V c).before 3 t d))
    ∗ (∃ d, owns (c : Thread nD τ) (mB_4 t) fullShare ((datB V c).before 4 t d))
    ∗ (∃ d, owns (c : Thread nD τ) (mB_5 t) fullShare ((datB V c).before 5 t d)))

/-- and what it hands back. -/
def postB (c : Dev nD) (t : Fin cfg1.N) : sProp 𝕄 :=
  iprop((datB V c).Φ t.succ ∗ (datB V c).owesAt () t.succ
    ∗ (datB V c).leavesExact 0 t
    ∗ (datB V c).leavesExact 1 t
    ∗ (datB V c).leavesExact 2 t
    ∗ (datB V c).leavesExact 3 t
    ∗ (datB V c).leavesExact 4 t
    ∗ (datB V c).leavesExact 5 t)

set_option maxHeartbeats 4800000 in
/-- The body at any point.  The inputs' buffers hold their blocks; `t mod 32` says which kind of point this is; the
    invariant hands over the scratch buffer at the total before (at anything, at the very first point) and takes it
    back at this point's total; away from the last tile the output buffer goes back as it came. -/
theorem soundB (c : Dev nD) (t : Fin cfg1.N) :
    preB V c t ⊢ wp frame (wpE (defs₀ (F := F)) Variants.none c none) Set.univ (bodyAt1 t) (fun _ => postB V c t) := by
  unfold preB postB bodyAt1
  simp only [beforeB_0, beforeB_1, beforeB_2, beforeB_3, beforeB_4]
  rw [show (datB V c).owesAt () t.succ = (datB V c).owesAt () t.castSucc from rfl]
  rw [show (datB V c).Φ t.succ = inv V c (t.val + 1) t.isLt from rfl, inv_succ]
  have hN : t.val < 64 := lt_of_lt_of_eq t.isLt (show cfg1.N = 64 from N_1)
  by_cases h0 : t.val % 32 = 0
  · by_cases h1 : t.val % 32 = 31
    · exfalso; omega
    · rw [show (datB V c).leavesExact 0 t = owns (c : Thread nD τ) (mB_0 t) fullShare ((datB V c).after 0 t) from by
        unfold Dat.leavesExact; rw [live_in_0 t], afterB_0]
      rw [show (datB V c).leavesExact 1 t = owns (c : Thread nD τ) (mB_1 t) fullShare ((datB V c).after 1 t) from by
        unfold Dat.leavesExact; rw [live_in_1 t], afterB_1]
      rw [show (datB V c).leavesExact 2 t = owns (c : Thread nD τ) (mB_2 t) fullShare ((datB V c).after 2 t) from by
        unfold Dat.leavesExact; rw [live_in_2 t], afterB_2]
      rw [show (datB V c).leavesExact 3 t = owns (c : Thread nD τ) (mB_3 t) fullShare ((datB V c).after 3 t) from by
        unfold Dat.leavesExact; rw [live_in_3 t], afterB_3]
      rw [show (datB V c).leavesExact 4 t = owns (c : Thread nD τ) (mB_4 t) fullShare ((datB V c).after 4 t) from by
        unfold Dat.leavesExact; rw [live_in_4 t], afterB_4]
      rw [Dat.leavesExact_idle (datB V c) 5 t (idle_of_not_last t (fun h => h1 ((isLast_iff t).mp h))) (noFlush_of_not_last t (fun h => h1 ((isLast_iff t).mp h)))]
      rw [totalAt_first V c t h0 h1]
      unfold totalFirst; (try dsimp only)
      by_cases hz : t.val = 0
      · rw [inv_castSucc V c t, inv_zero V c _ _ hz, entry_eq]
        unfold restWith
        iintro ⟨⟨⟨G0, G1, G2, G3, G4, G5, HS⟩, Hg⟩, Ho, ⟨%d0, I0⟩, ⟨%d1, I1⟩, ⟨%d2, I2⟩, ⟨%d3, I3⟩, ⟨%d4, I4⟩, ⟨%d5, I5⟩⟩
        iapply ((runFirst c (grid1.coords t) _ _ _ _ _ _ _ _ _ _ _ _ _ _ ((isFirst_iff t).mpr h0) (fun h => h1 ((isLast_iff t).mp h)) (blkB V c 0 t) (blkB V c 1 t) (blkB V c 2 t) (blkB V c 3 t) (blkB V c 4 t)).2.2 _ Set.univ _)
        isplitl [I0]; · iexact I0
        isplitl [I1]; · iexact I1
        isplitl [I2]; · iexact I2
        isplitl [I3]; · iexact I3
        isplitl [I4]; · iexact I4
        isplitl [I5]; · iexact I5
        isplitl [HS]; · iexact HS
        iintro ⟨I0, I1, I2, I3, I4, I5, ⟨%es, HS⟩⟩
        isplitl [G0 G1 G2 G3 G4 G5 HS Hg]
        · isplitl [G0 G1 G2 G3 G4 G5 HS]
          · isplitl [G0]; · iexact G0
            isplitl [G1]; · iexact G1
            isplitl [G2]; · iexact G2
            isplitl [G3]; · iexact G3
            isplitl [G4]; · iexact G4
            isplitl [G5]; · iexact G5
            unfold owns; iexists _; isplitr
            swap; · iexact HS
            ipureintro; exact View.read_writes_of_cover _ _ _ _ _ (totalCoverFirst c _ _ _ _ _ _ _ _ _ _ _ _ _ _ _ _ _ _ _ _ _ _)
          iexact Hg
        isplitl [Ho]; · iexact Ho
        isplitl [I0]; · iexact I0
        isplitl [I1]; · iexact I1
        isplitl [I2]; · iexact I2
        isplitl [I3]; · iexact I3
        isplitl [I4]; · iexact I4
        iexists _; iexact I5
      · rw [inv_castSucc V c t, inv_pos V c _ _ hz]
        unfold restWith
        iintro ⟨⟨⟨G0, G1, G2, G3, G4, G5, HS⟩, Hg⟩, Ho, ⟨%d0, I0⟩, ⟨%d1, I1⟩, ⟨%d2, I2⟩, ⟨%d3, I3⟩, ⟨%d4, I4⟩, ⟨%d5, I5⟩⟩
        iapply ((runFirst c (grid1.coords t) _ _ _ _ _ _ _ _ _ _ _ _ _ _ ((isFirst_iff t).mpr h0) (fun h => h1 ((isLast_iff t).mp h)) (blkB V c 0 t) (blkB V c 1 t) (blkB V c 2 t) (blkB V c 3 t) (blkB V c 4 t)).2.2 _ Set.univ _)
        isplitl [I0]; · iexact I0
        isplitl [I1]; · iexact I1
        isplitl [I2]; · iexact I2
        isplitl [I3]; · iexact I3
        isplitl [I4]; · iexact I4
        isplitl [I5]; · iexact I5
        isplitl [HS]; · iexists _; iexact HS
        iintro ⟨I0, I1, I2, I3, I4, I5, ⟨%es, HS⟩⟩
        isplitl [G0 G1 G2 G3 G4 G5 HS Hg]
        · isplitl [G0 G1 G2 G3 G4 G5 HS]
          · isplitl [G0]; · iexact G0
            isplitl [G1]; · iexact G1
            isplitl [G2]; · iexact G2
            isplitl [G3]; · iexact G3
            isplitl [G4]; · iexact G4
            isplitl [G5]; · iexact G5
            unfold owns; iexists _; isplitr
            swap; · iexact HS
            ipureintro; exact View.read_writes_of_cover _ _ _ _ _ (totalCoverFirst c _ _ _ _ _ _ _ _ _ _ _ _ _ _ _ _ _ _ _ _ _ _)
          iexact Hg
        isplitl [Ho]; · iexact Ho
        isplitl [I0]; · iexact I0
        isplitl [I1]; · iexact I1
        isplitl [I2]; · iexact I2
        isplitl [I3]; · iexact I3
        isplitl [I4]; · iexact I4
        iexists _; iexact I5
  · by_cases h1 : t.val % 32 = 31
    · rw [show (datB V c).leavesExact 0 t = owns (c : Thread nD τ) (mB_0 t) fullShare ((datB V c).after 0 t) from by
        unfold Dat.leavesExact; rw [live_in_0 t], afterB_0]
      rw [show (datB V c).leavesExact 1 t = owns (c : Thread nD τ) (mB_1 t) fullShare ((datB V c).after 1 t) from by
        unfold Dat.leavesExact; rw [live_in_1 t], afterB_1]
      rw [show (datB V c).leavesExact 2 t = owns (c : Thread nD τ) (mB_2 t) fullShare ((datB V c).after 2 t) from by
        unfold Dat.leavesExact; rw [live_in_2 t], afterB_2]
      rw [show (datB V c).leavesExact 3 t = owns (c : Thread nD τ) (mB_3 t) fullShare ((datB V c).after 3 t) from by
        unfold Dat.leavesExact; rw [live_in_3 t], afterB_3]
      rw [show (datB V c).leavesExact 4 t = owns (c : Thread nD τ) (mB_4 t) fullShare ((datB V c).after 4 t) from by
        unfold Dat.leavesExact; rw [live_in_4 t], afterB_4]
      rw [show (datB V c).leavesExact 5 t = owns (c : Thread nD τ) (mB_5 t) fullShare ((datB V c).after 5 t) from by
        unfold Dat.leavesExact; rw [live_of_last t ((isLast_iff t).mpr h1)], afterB_5]
      rw [totalAt_last V c t h0 h1, outAt_last V c t h0 h1]
      unfold outLast totalLast; (try dsimp only)
      have hz : t.val ≠ 0 := by omega
      rw [inv_castSucc V c t, inv_pos V c _ _ hz]
      unfold restWith
      iintro ⟨⟨⟨G0, G1, G2, G3, G4, G5, HS⟩, Hg⟩, Ho, ⟨%d0, I0⟩, ⟨%d1, I1⟩, ⟨%d2, I2⟩, ⟨%d3, I3⟩, ⟨%d4, I4⟩, ⟨%d5, I5⟩⟩
      iapply ((runLast c (grid1.coords t) _ _ _ _ _ _ _ _ _ _ _ _ _ _ (fun h => h0 ((isFirst_iff t).mp h)) ((isLast_iff t).mpr h1) (blkB V c 0 t) (blkB V c 1 t) (blkB V c 2 t) (blkB V c 3 t) (blkB V c 4 t) _).2.2 Set.univ _)
      isplitl [I0]; · iexact I0
      isplitl [I1]; · iexact I1
      isplitl [I2]; · iexact I2
      isplitl [I3]; · iexact I3
      isplitl [I4]; · iexact I4
      isplitl [I5]; · iexists _; iexact I5
      isplitl [HS]; · iexact HS
      iintro ⟨I0, I1, I2, I3, I4, ⟨%e5, I5⟩, ⟨%es, HS⟩⟩
      isplitl [G0 G1 G2 G3 G4 G5 HS Hg]
      · isplitl [G0 G1 G2 G3 G4 G5 HS]
        · isplitl [G0]; · iexact G0
          isplitl [G1]; · iexact G1
          isplitl [G2]; · iexact G2
          isplitl [G3]; · iexact G3
          isplitl [G4]; · iexact G4
          isplitl [G5]; · iexact G5
          unfold owns; iexists _; isplitr
          swap; · iexact HS
          ipureintro; exact View.read_writes_of_cover _ _ _ _ _ (totalCoverLast c _ _ _ _ _ _ _ _ _ _ _ _ _ _ _ _ _ _ _ _ _ _ _)
        iexact Hg
      isplitl [Ho]; · iexact Ho
      isplitl [I0]; · iexact I0
      isplitl [I1]; · iexact I1
      isplitl [I2]; · iexact I2
      isplitl [I3]; · iexact I3
      isplitl [I4]; · iexact I4
      unfold owns; iexists _; isplitr
      swap; · iexact I5
      ipureintro; exact View.read_writes_of_cover _ _ _ _ _ (outCoverLast c _ _ _ _ _ _ _ _ _ _ _ _ _ _ _ _ _ _ _ _ _ _ _)
    · rw [show (datB V c).leavesExact 0 t = owns (c : Thread nD τ) (mB_0 t) fullShare ((datB V c).after 0 t) from by
        unfold Dat.leavesExact; rw [live_in_0 t], afterB_0]
      rw [show (datB V c).leavesExact 1 t = owns (c : Thread nD τ) (mB_1 t) fullShare ((datB V c).after 1 t) from by
        unfold Dat.leavesExact; rw [live_in_1 t], afterB_1]
      rw [show (datB V c).leavesExact 2 t = owns (c : Thread nD τ) (mB_2 t) fullShare ((datB V c).after 2 t) from by
        unfold Dat.leavesExact; rw [live_in_2 t], afterB_2]
      rw [show (datB V c).leavesExact 3 t = owns (c : Thread nD τ) (mB_3 t) fullShare ((datB V c).after 3 t) from by
        unfold Dat.leavesExact; rw [live_in_3 t], afterB_3]
      rw [show (datB V c).leavesExact 4 t = owns (c : Thread nD τ) (mB_4 t) fullShare ((datB V c).after 4 t) from by
        unfold Dat.leavesExact; rw [live_in_4 t], afterB_4]
      rw [Dat.leavesExact_idle (datB V c) 5 t (idle_of_not_last t (fun h => h1 ((isLast_iff t).mp h))) (noFlush_of_not_last t (fun h => h1 ((isLast_iff t).mp h)))]
      rw [totalAt_mid V c t h0 h1]
      unfold totalMid; (try dsimp only)
      have hz : t.val ≠ 0 := by omega
      rw [inv_castSucc V c t, inv_pos V c _ _ hz]
      unfold restWith
      iintro ⟨⟨⟨G0, G1, G2, G3, G4, G5, HS⟩, Hg⟩, Ho, ⟨%d0, I0⟩, ⟨%d1, I1⟩, ⟨%d2, I2⟩, ⟨%d3, I3⟩, ⟨%d4, I4⟩, ⟨%d5, I5⟩⟩
      iapply ((runMid c (grid1.coords t) _ _ _ _ _ _ _ _ _ _ _ _ _ _ (fun h => h0 ((isFirst_iff t).mp h)) (fun h => h1 ((isLast_iff t).mp h)) (blkB V c 0 t) (blkB V c 1 t) (blkB V c 2 t) (blkB V c 3 t) (blkB V c 4 t) _).2.2 _ Set.univ _)
      isplitl [I0]; · iexact I0
      isplitl [I1]; · iexact I1
      isplitl [I2]; · iexact I2
      isplitl [I3]; · iexact I3
      isplitl [I4]; · iexact I4
      isplitl [I5]; · iexact I5
      isplitl [HS]; · iexact HS
      iintro ⟨I0, I1, I2, I3, I4, I5, ⟨%es, HS⟩⟩
      isplitl [G0 G1 G2 G3 G4 G5 HS Hg]
      · isplitl [G0 G1 G2 G3 G4 G5 HS]
        · isplitl [G0]; · iexact G0
          isplitl [G1]; · iexact G1
          isplitl [G2]; · iexact G2
          isplitl [G3]; · iexact G3
          isplitl [G4]; · iexact G4
          isplitl [G5]; · iexact G5
          unfold owns; iexists _; isplitr
          swap; · iexact HS
          ipureintro; exact View.read_writes_of_cover _ _ _ _ _ (totalCoverMid c _ _ _ _ _ _ _ _ _ _ _ _ _ _ _ _ _ _ _ _ _ _ _)
        iexact Hg
      isplitl [Ho]; · iexact Ho
      isplitl [I0]; · iexact I0
      isplitl [I1]; · iexact I1
      isplitl [I2]; · iexact I2
      isplitl [I3]; · iexact I3
      isplitl [I4]; · iexact I4
      iexists _; iexact I5

/-- The pipeline's body obligation for the second kernel, at every point. -/
theorem obligationB (c : Dev nD) : BodyObligation (datB (F := F) V c) (defs₀ (F := F)) Variants.none () Set.univ := fun t => by
  rw [bigSep_W1, bigSep_W1]
  exact soundB V c t

/-- What the region hands over is the invariant before the first point. -/
theorem entryB (c : Dev nD) : Pipeline.ΦA spec1 c ⊢ (datB V c).Φ 0 := by
  rw [show (datB V c).Φ 0 = inv V c 0 (Nat.zero_le _) from rfl, inv_zero V c 0 _ rfl]
  try exact Idealize.SL.BI.Entails.refl _

/-- The total's name forgotten: the scratch buffer at some contents. -/
theorem forget_total (c : Dev nD) (x : Vec F S256x1024 .f32) :
    restWith c (owns (c : Thread nD τ) accM fullShare x) ⊢ (restWith c (iprop(∃ d, owns (c : Thread nD τ) accM fullShare d)) : sProp 𝕄) :=
  restWith_mono c (by iintro H; iexists x; iexact H)

/-- After the last point the invariant gives the entry state back, the total's name forgotten. -/
theorem exitB (c : Dev nD) : (datB V c).Φ (Fin.last cfg1.N) ⊢ Pipeline.ΦA spec1 c := by
  rw [show (datB V c).Φ (Fin.last cfg1.N) = inv V c (Fin.last cfg1.N).val (Nat.le_of_lt_succ (Fin.last cfg1.N).isLt) from rfl,
    inv_pos V c _ _ (by rw [Fin.val_last]; have : cfg1.N = 64 := N_1; omega), entry_eq]
  exact sep_mono (forget_total c _) .rfl

end Cert.Kernel.Hand

end
-- ==== Proof.K.Whole.lean ====
/-
  The whole program: reshape the four biases, run the first kernel, round the two large weight matrices, run the
  second kernel.  The contents of every unscoped buffer are followed from the launch through these four steps
  (`W0` … `W4`): a host step applies its operations; a kernel leaves its arrays at what its pipeline wrote back and
  every other buffer alone.  Each kernel enters the run as a region with its proof data taken at the contents it is
  entered with, and the run ends with every unscoped buffer at `W4`: the nine argument arrays as launched, and the
  result array at what the second kernel's write-backs left.
-/
import proofs.«175217_j66597762892542_2_alg».proof.Proof.K.First
import proofs.«175217_j66597762892542_2_alg».proof.Proof.K.Fused
import proofs.«175217_j66597762892542_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the steps -/

/-- Core `c`'s buffers at launch. -/
abbrev W0 : Dev nD → Valuation τ sig (Elt F) := fun c b => m (c, b)
/-- After the four reshapes (what the first kernel is entered with). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its arrays at what its pipeline leaves, every other buffer as entered. -/
def W2 (c : Dev nD) : Valuation τ sig (Elt F) :=
  Pipeline.withArrays spec0 c (W1 m c) fun w => (datA (V1 m) c).arrAt w cfg0.N
theorem W2_arr (c : Dev nD) (w : Fin cfg0.W) :
    W2 m c (Proc.devRef .tc (Pipeline.arrRef spec0 w)) = (datA (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem leftA (c : Dev nD) (w : Fin cfg0.W) : (datA (V1 m) c).arrAt w cfg0.N = V2 m c (Pipeline.arrRef spec0 w) :=
  (W2_arr m c w).symm
theorem keptA (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two roundings (what the second kernel is entered with). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel. -/
def W4 (c : Dev nD) : Valuation τ sig (Elt F) :=
  Pipeline.withArrays spec1 c (W3 m c) fun w => (datB (V3 m) c).arrAt w cfg1.N
theorem W4_arr (c : Dev nD) (w : Fin cfg1.W) :
    W4 m c (Proc.devRef .tc (Pipeline.arrRef spec1 w)) = (datB (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem leftB (c : Dev nD) (w : Fin cfg1.W) : (datB (V3 m) c).arrAt w cfg1.N = V4 m c (Pipeline.arrRef spec1 w) :=
  (W4_arr m c w).symm
theorem keptB (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No step writes an argument array -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((datA (V1 m) c).arrAt_in 0 rfl _).trans (datA_A (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((datA (V1 m) c).arrAt_in 1 rfl _).trans (datA_A (V1 m) c 1))
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 3).trans (((datA (V1 m) c).arrAt_in 3 rfl _).trans (datA_A (V1 m) c 3))
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## Both kernels' proof data, and what rides along -/

/-- The two pipelines' proof data, each at the contents its kernel is entered with. -/
def pdats : (p : Fin 2) → (c : Dev nD) → Dat τ (Elt F) Unit ℕ (UR sig nD τ) ℕ (Pipeline.pin (pcfgs (F := F)) adm p) c
  | ⟨0, _⟩ => fun c => datA (V1 m) c
  | ⟨1, _⟩ => fun c => datB (V3 m) c
abbrev 𝒱₀ : Variants := Variants.none
/-- No core owes another anything. -/
abbrev L : GSem nD τ sig → Finset Unit := fun _ => ∅
abbrev lv : GSem nD τ sig → Unit → ℕ := fun _ _ => 0
/-- Beside the buffers, through every step: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, the `owes` apart. -/
abbrev Tend (c : Dev nD) : sProp 𝕄 := iprop(StableHlo.held (c : Thread nD τ) (Pipeline.ucRefs τ sig) (W4 m c) ∗ ∃ r, prngReg c r)

/-! ## The two kernels as segments -/

set_option backward.isDefEq.respectTransparency.types false in
/-- The first kernel's region as a segment of the program: entered with every unscoped buffer at `W1`, left with them at
    `W2`.  Its arrays are split out of the unscoped buffers on the way in and put back, at what the pipeline
    leaves in them, on the way out; the generator register goes into the kernel's invariant and comes back; nothing is
    owed; the kernel has no semaphore of its own. -/
def segA : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligationA (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (leftA m c) (keptA m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region as a segment of the program: entered with every unscoped buffer at `W3`, left with them at
    `W4`.  Its arrays are split out of the unscoped buffers on the way in and put back, at what the pipeline
    leaves in them, on the way out; the generator register goes into the kernel's invariant and comes back; nothing is
    owed; the kernel has no semaphore of its own. -/
def segB : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligationB (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (entryB (V3 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (exitB (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (leftB m c) (keptB m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

abbrev segs : List (Pipeline.Seg (pcfgs (F := F)) adm (pdats m) () defs₀ 𝒱₀ L lv) :=
  [ .host (hostSeg hostOps0 hostOps0_sub hostOps0_fresh (W0 m)),
    .region (segA m),
    .host (hostSeg hostOps1 hostOps1_sub hostOps1_fresh (W2 m)),
    .region (segB m) ]
theorem main_is_segs (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer of every core at `W4`. -/
theorem run_whole : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_whole m ρ)

/-- The result array ends at what the second kernel's write-backs leave, and the argument arrays as launched. -/
theorem result_and_args : θ_run defs (onTc (τ := τ) (main (F := F))) ⟨m, fun _ => 0, ρ⟩ (fun r => ∀ c : Dev nD,
      r.2.mem ((c.tc : Thread nD τ).loc main_v7) = (datB (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_v7 (by decide))).trans (W4_arr m c 5),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_whole m ρ)

end Cert.Kernel.Hand

end
-- ==== Proof.KI.First.lean ====
/-
  The first kernel: both small layers in one grid point.  Its five inputs are whole arrays, each read once;
  its one output, the 256 × 260 activations, is stored whole.  This file states, for any contents `V` the
  buffers hold when the kernel is entered, what each staging buffer holds around the body (an input: its
  array, which is its only block; the output: the body's one stored value, the two layers applied to the
  inputs), and proves that the body run on those buffers leaves exactly that.
-/
import proofs.«175217_j66597762892542_2_alg».proof.Proof.Gen.KernelIdeal.Launch
import proofs.«175217_j66597762892542_2_alg».proof.Proof.Gen.KernelIdeal.Skeleton
import proofs.«175217_j66597762892542_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the first kernel reads -/

/-- Window `w`'s block at point `t` of the first kernel, read off its array as the kernel finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's staging buffer holds its block when the body runs, whatever was fetched when: an input's
    block index never moves unfetched, and the body leaves the block in place. -/
theorem foundA_0 {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)

/-- Input 1's staging buffer holds its block when the body runs, whatever was fetched when: an input's
    block index never moves unfetched, and the body leaves the block in place. -/
theorem foundA_1 {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

/-- Input 2's staging buffer holds its block when the body runs, whatever was fetched when: an input's
    block index never moves unfetched, and the body leaves the block in place. -/
theorem foundA_2 {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

/-- Input 3's staging buffer holds its block when the body runs, whatever was fetched when: an input's
    block index never moves unfetched, and the body leaves the block in place. -/
theorem foundA_3 {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)

/-- Input 4's staging buffer holds its block when the body runs, whatever was fetched when: an input's
    block index never moves unfetched, and the body leaves the block in place. -/
theorem foundA_4 {c : Dev nD} (dat : Dat τ (Elt F) Unit ℕ (UR sig nD τ) ℕ cfg0 c) (hA : dat.A 4 = V c (Pipeline.arrRef spec0 4))
    (hafter : ∀ t, dat.after 4 t = blkA V c 4 t) (t : Fin cfg0.N) (d) : dat.before 4 t d = blkA V c 4 t :=
  (dat.before_in_eq_fetched 4 rfl (fun _ => rfl) (fun _ _ _ => rfl) (fun t => by rw [hafter]; unfold Dat.blockOf blkA; rw [hA]; try rfl) t d).trans
    (by unfold Dat.fetched Dat.blockOf blkA; rw [hA]; try rfl)

/-! ## What the body stores -/

/-- The whole 256 × 260 rectangle: the body's one store covers the output block. -/
abbrev wholeA : Rect S256x260 := Rect.unit (s := S256x260) ![0, 0] S256x260.size inb_S256x260_S256x260_0_0

/-- The output buffer after the body: its one store, of the two layers applied to the loaded inputs. -/
def outA (x0 : Vec F S256x7 .f32) (x1 : Vec F S515x7 .f32) (x2 : Vec F S1x515 .f32) (x3 : Vec F S260x515 .f32) (x4 : Vec F S1x260 .f32) : Vec F S256x260 .bf16 :=
  View.canon [⟨wholeA, k0_pay1 (View.ld x0 (Rect.unit (s := S256x7) ![0, 0] S256x7.size inb_S256x7_S256x7_0_0)) (View.ld x1 (Rect.unit (s := S515x7) ![0, 0] S515x7.size inb_S515x7_S515x7_0_0)) (View.ld x2 (Rect.unit (s := S1x515) ![0, 0] S1x515.size inb_S1x515_S1x515_0_0)) (View.ld x3 (Rect.unit (s := S260x515) ![0, 0] S260x515.size inb_S260x515_S260x515_0_0)) (View.ld x4 (Rect.unit (s := S1x260) ![0, 0] S1x260.size inb_S1x260_S1x260_0_0))⟩]

/-- One rectangle that is the whole buffer covers it. -/
theorem coverA (p0 : Vec F S256x260 .bf16) (y : S256x260.Idx) :
    ∃ pc ∈ ([⟨wholeA, p0⟩] : List (View.Piece (Elt F) S256x260 .bf16)), y ∈ pc.1.set :=
  View.cover_of_tiled [⟨wholeA, p0⟩] S256x260.size (by rfl) y

/-! ## The body on whole staging buffers -/

set_option maxHeartbeats 1000000 in
/-- Run on whole buffers holding the five inputs (the output's holding anything), the body ends with the inputs
    as they were and the output at `outA` of them. -/
theorem bodyA (c : Dev nD) (E : Set ℕ) (i : grid0.Coords)
    (a0 : Memref sig .tc .vmem S256x7 .f32) (h0 : a0.IsWhole) (a1 : Memref sig .tc .vmem S515x7 .f32) (h1 : a1.IsWhole)
    (a2 : Memref sig .tc .vmem S1x515 .f32) (h2 : a2.IsWhole) (a3 : Memref sig .tc .vmem S260x515 .f32) (h3 : a3.IsWhole)
    (a4 : Memref sig .tc .vmem S1x260 .f32) (h4 : a4.IsWhole) (a5 : Memref sig .tc .vmem S256x260 .bf16) (h5 : a5.IsWhole)
    (x0 : Vec F S256x7 .f32) (x1 : Vec F S515x7 .f32) (x2 : Vec F S1x515 .f32) (x3 : Vec F S260x515 .f32) (x4 : Vec F S1x260 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (outA x0 x1 x2 x3 x4)) -∗ K ⟨⟩))
      ⊢ wp frame (wpE (defs₀ (F := F)) Variants.none c none) E (cc0__mlp12_kernel i a0 h0 a1 h1 a2 h2 a3 h3 a4 h4 a5 h5) K := by
  simp only [cc0__mlp12_kernel_eq_skeleton]; unfold cc0__mlp12_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-! ## The first kernel's proof data -/

/-- Around the first kernel on core `c`: the arrays as found (`V`); after the body each input's buffer at its block
    and the output's at `outA` of the input blocks; the invariant is the scoped buffers nobody stages and the generator
    register, untouched; nothing owed; full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => outA (blkA V c 0 t) (blkA V c 1 t) (blkA V c 2 t) (blkA V c 3 t) (blkA V c 4 t)
  Φ _ := Pipeline.ΦA spec0 c
  q _ := fullShare
  owed _ := 0

theorem datA_A (c : Dev nD) (w : Fin cfg0.W) : (datA V c).A w = V c (Pipeline.arrRef spec0 w) := by
  dsimp only [datA]

theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) : (datA V c).after 3 t = blkA V c 3 t := by dsimp only [datA]
theorem afterA_4 (c : Dev nD) (t : Fin cfg0.N) : (datA V c).after 4 t = blkA V c 4 t := by dsimp only [datA]
theorem afterA_5 (c : Dev nD) (t : Fin cfg0.N) :
    (datA V c).after 5 t = outA (blkA V c 0 t) (blkA V c 1 t) (blkA V c 2 t) (blkA V c 3 t) (blkA V c 4 t) := by dsimp only [datA]

theorem beforeA_0 (c : Dev nD) (t : Fin cfg0.N) (d) : (datA V c).before 0 t d = blkA V c 0 t :=
  foundA_0 V (datA V c) (datA_A V c 0) (afterA_0 V c) t d
theorem beforeA_1 (c : Dev nD) (t : Fin cfg0.N) (d) : (datA V c).before 1 t d = blkA V c 1 t :=
  foundA_1 V (datA V c) (datA_A V c 1) (afterA_1 V c) t d
theorem beforeA_2 (c : Dev nD) (t : Fin cfg0.N) (d) : (datA V c).before 2 t d = blkA V c 2 t :=
  foundA_2 V (datA V c) (datA_A V c 2) (afterA_2 V c) t d
theorem beforeA_3 (c : Dev nD) (t : Fin cfg0.N) (d) : (datA V c).before 3 t d = blkA V c 3 t :=
  foundA_3 V (datA V c) (datA_A V c 3) (afterA_3 V c) t d
theorem beforeA_4 (c : Dev nD) (t : Fin cfg0.N) (d) : (datA V c).before 4 t d = blkA V c 4 t :=
  foundA_4 V (datA V c) (datA_A V c 4) (afterA_4 V c) t d

/-! ## The body obligation -/

/-- What the body is handed at point `t`, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d))
    ∗ (∃ d, owns (c : Thread nD τ) (st0_5 t) fullShare ((datA V c).before 5 t d)))

/-- and what it hands back. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t)
    ∗ owns (c : Thread nD τ) (st0_5 t) fullShare ((datA V c).after 5 t))

/-- The body at any point: the inputs' buffers hold their blocks, so `bodyA` applies; the invariant and what the core
    owes pass through untouched. -/
theorem soundA (c : Dev nD) (t : Fin cfg0.N) :
    preA V c t ⊢ wp frame (wpE (defs₀ (F := F)) Variants.none c none) Set.univ (bodyAt0 t) (fun _ => postA V c t) := by
  unfold preA postA bodyAt0
  simp only [beforeA_0, beforeA_1, beforeA_2, beforeA_3, beforeA_4]
  rw [show (datA V c).Φ t.succ = (datA V c).Φ t.castSucc from rfl,
    show (datA V c).owesAt () t.succ = (datA V c).owesAt () t.castSucc from rfl,
    afterA_0, afterA_1, afterA_2, afterA_3, afterA_4, afterA_5]
  iintro ⟨HΦ, Ho, ⟨%d0, H0⟩, ⟨%d1, H1⟩, ⟨%d2, H2⟩, ⟨%d3, H3⟩, ⟨%d4, H4⟩, ⟨%d5, H5⟩⟩
  iapply (bodyA c Set.univ _ _ _ _ _ _ _ _ _ _ _ _ _ (blkA V c 0 t) (blkA V c 1 t) (blkA V c 2 t) (blkA V c 3 t) (blkA V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for the first kernel, at every point. -/
theorem obligationA (c : Dev nD) : BodyObligation (datA (F := F) V c) (defs₀ (F := F)) Variants.none () Set.univ := fun t => by
  rw [bigSep_W0, bigSep_W0]
  exact soundA V c t

end Cert.KernelIdeal.Hand

end
-- ==== Proof.KI.Second.lean ====
/-
  The second kernel: layers three and four fused over a 2 × 32 grid.  Point (h, k) takes features
  2048k … 2048k+2047 of layer three for all 256 rows, and adds their contribution to half h (1024 units) of layer four
  into a running total kept in a scratch buffer: the total is reset to zero where k = 0 and, where k = 31, the bias is
  added, the ramp applied and the result stored to the output block, which is written back only there.
  This file holds what the three kinds of point (k = 0, 0 < k < 31, k = 31) share: the blocks the kernel reads, the two
  conditions on the grid point in closed form, where the output window lies idle, the staging buffers by name, and the
  kernel's invariant with the scratch buffer singled out.
-/
import proofs.«175217_j66597762892542_2_alg».proof.Proof.Gen.KernelIdeal.Launch
import proofs.«175217_j66597762892542_2_alg».proof.Proof.Gen.KernelIdeal.Skeleton
import proofs.«175217_j66597762892542_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the second kernel reads -/

/-- Window `w`'s block at point `t` of the second kernel, read off its array as the kernel finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's staging buffer holds its block when the body runs, fetched at that point or not: unfetched, the
    block index has not moved, and the body leaves the block in place. -/
theorem foundB_0 {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)

/-- Input 1's staging buffer holds its block when the body runs, fetched at that point or not: unfetched, the
    block index has not moved, and the body leaves the block in place. -/
theorem foundB_1 {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)

/-- Input 2's staging buffer holds its block when the body runs, fetched at that point or not: unfetched, the
    block index has not moved, and the body leaves the block in place. -/
theorem foundB_2 {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- Input 3's staging buffer holds its block when the body runs, fetched at that point or not: unfetched, the
    block index has not moved, and the body leaves the block in place. -/
theorem foundB_3 {c : Dev nD} (dat : Dat τ (Elt F) Unit ℕ (UR sig nD τ) ℕ cfg1 c) (hA : dat.A 3 = V c (Pipeline.arrRef spec1 3))
    (hafter : ∀ t, dat.after 3 t = blkB V c 3 t) (t : Fin cfg1.N) (d) : dat.before 3 t d = blkB V c 3 t :=
  (dat.before_in_eq_fetched 3 rfl (fun _ => rfl) (fun _ _ _ => rfl) (fun t => by rw [hafter]; unfold Dat.blockOf blkB; rw [hA]; try rfl) t d).trans
    (by unfold Dat.fetched Dat.blockOf blkB; rw [hA]; try rfl)

/-- Input 4's staging buffer holds its block when the body runs, fetched at that point or not: unfetched, the
    block index has not moved, and the body leaves the block in place. -/
theorem foundB_4 {c : Dev nD} (dat : Dat τ (Elt F) Unit ℕ (UR sig nD τ) ℕ cfg1 c) (hA : dat.A 4 = V c (Pipeline.arrRef spec1 4))
    (hafter : ∀ t, dat.after 4 t = blkB V c 4 t) (t : Fin cfg1.N) (d) : dat.before 4 t d = blkB V c 4 t :=
  (dat.before_in_eq_fetched 4 rfl (fun _ => rfl) (fun _ _ _ => rfl) (fun t => by rw [hafter]; unfold Dat.blockOf blkB; rw [hA]; try rfl) t d).trans
    (by unfold Dat.fetched Dat.blockOf blkB; rw [hA]; try rfl)

/-! ## The two conditions on the grid point -/

/-- "This is the first tile of the sum" (k = 0): the body's first branch, as the kernel computes it from the point. -/
abbrev isFirst (i : grid1.Coords) : Prop := (Scalar.cmpi .ne (Scalar.extui (Scalar.cmpi .eq (BitVec.ofNat 32 (i 1).val) 0#32)) 0#32) = 1#1
/-- Along the 64 points in order it holds at the multiples of 32. -/
theorem isFirst_iff : ∀ t : Fin cfg1.N, isFirst (grid1.coords t) ↔ t.val % 32 = 0 :=
  (by decide +kernel : ∀ t : Fin grid1.N, isFirst (grid1.coords t) ↔ t.val % 32 = 0)

/-- "This is the last tile of the sum" (k = 31): the body's second branch. -/
abbrev isLast (i : grid1.Coords) : Prop := k1_cond2 i = 1#1
/-- It holds at the points one below a multiple of 32. -/
theorem isLast_iff : ∀ t : Fin cfg1.N, isLast (grid1.coords t) ↔ t.val % 32 = 31 :=
  (by decide +kernel : ∀ t : Fin grid1.N, isLast (grid1.coords t) ↔ t.val % 32 = 31)

/-! ## Where the output window lies idle -/

/-- Away from the last tile the body stores nothing into the output block, -/
theorem idle_of_not_last : ∀ t : Fin cfg1.N, ¬isLast (grid1.coords t) → cfg1.idle 5 (grid1.coords t) = true := by decide +kernel
/-- and the block is not written back there. -/
theorem noFlush_of_not_last : ∀ t : Fin cfg1.N, ¬isLast (grid1.coords t) → (cfg1.win 5).flush t = false := by decide +kernel
/-- At the last tile the body stores it. -/
theorem live_of_last : ∀ t : Fin cfg1.N, isLast (grid1.coords t) → cfg1.idle 5 (grid1.coords t) = false := by decide +kernel
/-- The inputs are never idle. -/
theorem live_in_0 : ∀ t : Fin cfg1.N, cfg1.idle 0 (grid1.coords t) = false := fun _ => rfl
theorem live_in_1 : ∀ t : Fin cfg1.N, cfg1.idle 1 (grid1.coords t) = false := fun _ => rfl
theorem live_in_2 : ∀ t : Fin cfg1.N, cfg1.idle 2 (grid1.coords t) = false := fun _ => rfl
theorem live_in_3 : ∀ t : Fin cfg1.N, cfg1.idle 3 (grid1.coords t) = false := fun _ => rfl
theorem live_in_4 : ∀ t : Fin cfg1.N, cfg1.idle 4 (grid1.coords t) = false := fun _ => rfl

/-! ## The staging buffers by name -/

abbrev mB_0 (t : Fin cfg1.N) : Memref sig .tc .vmem S256x260 .bf16 := win1_0.stage (cfg1.slots t 0)
abbrev hB_0 (t : Fin cfg1.N) : (mB_0 t).IsWhole := hstage1_0 ((cfg1.slots t 0).cast nbuf1_0)
abbrev mB_1 (t : Fin cfg1.N) : Memref sig .tc .vmem S2048x260 .bf16 := win1_1.stage (cfg1.slots t 1)
abbrev hB_1 (t : Fin cfg1.N) : (mB_1 t).IsWhole := hstage1_1 ((cfg1.slots t 1).cast nbuf1_1)
abbrev mB_2 (t : Fin cfg1.N) : Memref sig .tc .vmem S1x2048 .f32 := win1_2.stage (cfg1.slots t 2)
abbrev hB_2 (t : Fin cfg1.N) : (mB_2 t).IsWhole := hstage1_2 ((cfg1.slots t 2).cast nbuf1_2)
abbrev mB_3 (t : Fin cfg1.N) : Memref sig .tc .vmem S1024x2048 .bf16 := win1_3.stage (cfg1.slots t 3)
abbrev hB_3 (t : Fin cfg1.N) : (mB_3 t).IsWhole := hstage1_3 ((cfg1.slots t 3).cast nbuf1_3)
abbrev mB_4 (t : Fin cfg1.N) : Memref sig .tc .vmem S1x1024 .f32 := win1_4.stage (cfg1.slots t 4)
abbrev hB_4 (t : Fin cfg1.N) : (mB_4 t).IsWhole := hstage1_4 ((cfg1.slots t 4).cast nbuf1_4)
abbrev mB_5 (t : Fin cfg1.N) : Memref sig .tc .vmem S256x1024 .f32 := win1_5.stage (cfg1.slots t 5)
abbrev hB_5 (t : Fin cfg1.N) : (mB_5 t).IsWhole := hstage1_5 ((cfg1.slots t 5).cast nbuf1_5)
/-- The scratch buffer that carries the running total from point to point. -/
abbrev accM : Memref sig .tc .vmem S256x1024 .f32 := Memref.whole cc1_scratch0
/-- The running total is stated through this view, -/
abbrev accV : View sig .tc .vmem S256x1024 .f32 := (accM).view
/-- and the output block through one of its two staging buffers (which one does not matter). -/
abbrev outV : View sig .tc .vmem S256x1024 .f32 := (Memref.whole cc1_stg5_0 : Memref sig .tc .vmem S256x1024 .f32).view
/-- The whole 256 × 1024 rectangle: every store of the body covers its buffer. -/
abbrev wholeB : Rect S256x1024 := Rect.unit (s := S256x1024) ![0, 0] S256x1024.size inb_S256x1024_S256x1024_0_0

/-! ## The invariant, the scratch buffer singled out -/

/-- The scoped buffers the second kernel's windows do not stage — the first kernel's six staging buffers, each at some
    contents — with `S` in the place of the scratch buffer. -/
def restWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ S)

/-- What the region hands the kernel before the first point: those buffers, the scratch buffer at anything, and the
    generator register at some state. -/
theorem entry_eq (c : Dev nD) :
    (Pipeline.ΦA spec1 c : sProp 𝕄)
      = iprop(restWith c (iprop(∃ d, owns (c : Thread nD τ) accM fullShare d)) ∗ (∃ r, prngReg c r)) := by
  unfold Pipeline.ΦA restWith; rw [scopedRest1_eq]; simp only [accM, owns_whole]; try rfl

/-- The scratch buffer taken out of the rest and put back. -/
theorem restWith_mono (c : Dev nD) {S S' : sProp 𝕄} (h : S ⊢ S') : restWith c S ⊢ restWith c S' := by
  unfold restWith
  iintro ⟨H0, H1, H2, H3, H4, H5, HS⟩
  isplitl [H0]; · iexact H0
  isplitl [H1]; · iexact H1
  isplitl [H2]; · iexact H2
  isplitl [H3]; · iexact H3
  isplitl [H4]; · iexact H4
  isplitl [H5]; · iexact H5
  iapply h; iexact HS

end Cert.KernelIdeal.Hand

end
-- ==== Proof.KI.RunFirst.lean ====
/-
  The second kernel's body run where the sum starts (k = 0, not the last tile): on whole buffers holding the five input blocks, the scratch buffer holding anything and the output buffer, which this point leaves alone, holding whatever it holds,
  the body terminates with the inputs as they were, the output buffer untouched and the scratch buffer written by the body's
  stores (the reset to zero, then the first tile's partial sum added).  The written pieces are found by running the body; what they
  amount to is read off afterwards.
-/
import proofs.«175217_j66597762892542_2_alg».proof.Proof.KI.Second

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch buffer at a point where the sum starts (k = 0, not the last tile), with the proof that
    the body, run on whole buffers as described above, ends holding them. -/
noncomputable def runFirst (c : Dev nD) (i : grid1.Coords)
    (a2 : Memref sig .tc .vmem S256x260 .bf16) (h2 : a2.IsWhole) (a3 : Memref sig .tc .vmem S2048x260 .bf16) (h3 : a3.IsWhole)
    (a4 : Memref sig .tc .vmem S1x2048 .f32) (h4 : a4.IsWhole) (a5 : Memref sig .tc .vmem S1024x2048 .bf16) (h5 : a5.IsWhole)
    (a6 : Memref sig .tc .vmem S1x1024 .f32) (h6 : a6.IsWhole) (a7 : Memref sig .tc .vmem S256x1024 .f32) (h7 : a7.IsWhole)
    (a8 : Memref sig .tc .vmem S256x1024 .f32) (h8 : a8.IsWhole) (hc0 : isFirst i) (hc1 : ¬isLast i)
    (x0 : Vec F S256x260 .bf16) (x1 : Vec F S2048x260 .bf16) (x2 : Vec F S1x2048 .f32) (x3 : Vec F S1024x2048 .bf16) (x4 : Vec F S1x1024 .f32) :
    Σ' (L5 : List (View.Piece (Elt F) S256x1024 .f32)), { LS : List (View.Piece (Elt F) S256x1024 .f32) //
      ∀ (xi : Vec F S256x1024 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare xi ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4 ∗ owns (c : Thread nD τ) a7 fullShare xi
                ∗ (∃ f, a8.view.loc (c : Thread nD τ) ↦[a8.view.set]{fullShare} a8.view.writes (Elt F) f LS)) -∗ K ⟨⟩))
          ⊢ wp frame (wpE (defs₀ (F := F)) Variants.none c none) E (cc1__fused34_kernel i a2 h2 a3 h3 a4 h4 a5 h5 a6 h6 a7 h7 a8 h8) K } := by
  refine ⟨[], ?_, fun xi E K => ?run⟩
  case run =>
    simp only [cc1__fused34_kernel_eq_skeleton]; unfold cc1__fused34_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact HS

end Cert.KernelIdeal.Hand

end
-- ==== Proof.KI.RunMid.lean ====
/-
  The second kernel's body run in the middle of the sum (0 < k < 31): on whole buffers holding the five input blocks, the scratch buffer holding the running total so far and the output buffer, which this point leaves alone, holding whatever it holds,
  the body terminates with the inputs as they were, the output buffer untouched and the scratch buffer written by the body's
  store (the total with this tile's partial sum added).  The written pieces are found by running the body; what they
  amount to is read off afterwards.
-/
import proofs.«175217_j66597762892542_2_alg».proof.Proof.KI.Second

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch buffer at a point in the middle of the sum (0 < k < 31), with the proof that
    the body, run on whole buffers as described above, ends holding them. -/
noncomputable def runMid (c : Dev nD) (i : grid1.Coords)
    (a2 : Memref sig .tc .vmem S256x260 .bf16) (h2 : a2.IsWhole) (a3 : Memref sig .tc .vmem S2048x260 .bf16) (h3 : a3.IsWhole)
    (a4 : Memref sig .tc .vmem S1x2048 .f32) (h4 : a4.IsWhole) (a5 : Memref sig .tc .vmem S1024x2048 .bf16) (h5 : a5.IsWhole)
    (a6 : Memref sig .tc .vmem S1x1024 .f32) (h6 : a6.IsWhole) (a7 : Memref sig .tc .vmem S256x1024 .f32) (h7 : a7.IsWhole)
    (a8 : Memref sig .tc .vmem S256x1024 .f32) (h8 : a8.IsWhole) (hc0 : ¬isFirst i) (hc1 : ¬isLast i)
    (x0 : Vec F S256x260 .bf16) (x1 : Vec F S2048x260 .bf16) (x2 : Vec F S1x2048 .f32) (x3 : Vec F S1024x2048 .bf16) (x4 : Vec F S1x1024 .f32) (xs : Vec F S256x1024 .f32) :
    Σ' (L5 : List (View.Piece (Elt F) S256x1024 .f32)), { LS : List (View.Piece (Elt F) S256x1024 .f32) //
      ∀ (xi : Vec F S256x1024 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare xi ∗ owns (c : Thread nD τ) a8 fullShare xs
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4 ∗ owns (c : Thread nD τ) a7 fullShare xi
                ∗ (∃ f, a8.view.loc (c : Thread nD τ) ↦[a8.view.set]{fullShare} a8.view.writes (Elt F) f LS)) -∗ K ⟨⟩))
          ⊢ wp frame (wpE (defs₀ (F := F)) Variants.none c none) E (cc1__fused34_kernel i a2 h2 a3 h3 a4 h4 a5 h5 a6 h6 a7 h7 a8 h8) K } := by
  refine ⟨[], ?_, fun xi E K => ?run⟩
  case run =>
    simp only [cc1__fused34_kernel_eq_skeleton]; unfold cc1__fused34_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hfs
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact HS

end Cert.KernelIdeal.Hand

end
-- ==== Proof.KI.RunLast.lean ====
/-
  The second kernel's body run where the sum ends (k = 31): on whole buffers holding the five input blocks, the scratch buffer holding the running total so far and the output buffer holding anything,
  the body terminates with the inputs as they were, the output buffer written by its one store and the scratch buffer written by the body's
  store (the total with this tile's partial sum added).  The written pieces are found by running the body; what they
  amount to is read off afterwards.
-/
import proofs.«175217_j66597762892542_2_alg».proof.Proof.KI.Second

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer and in the scratch buffer at a point where the sum ends (k = 31), with the proof that
    the body, run on whole buffers as described above, ends holding them. -/
noncomputable def runLast (c : Dev nD) (i : grid1.Coords)
    (a2 : Memref sig .tc .vmem S256x260 .bf16) (h2 : a2.IsWhole) (a3 : Memref sig .tc .vmem S2048x260 .bf16) (h3 : a3.IsWhole)
    (a4 : Memref sig .tc .vmem S1x2048 .f32) (h4 : a4.IsWhole) (a5 : Memref sig .tc .vmem S1024x2048 .bf16) (h5 : a5.IsWhole)
    (a6 : Memref sig .tc .vmem S1x1024 .f32) (h6 : a6.IsWhole) (a7 : Memref sig .tc .vmem S256x1024 .f32) (h7 : a7.IsWhole)
    (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) :
    Σ' (L5 : List (View.Piece (Elt F) S256x1024 .f32)), { LS : List (View.Piece (Elt F) S256x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ (∃ d, owns (c : Thread nD τ) a7 fullShare d) ∗ owns (c : Thread nD τ) a8 fullShare xs
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4 ∗ (∃ f, a7.view.loc (c : Thread nD τ) ↦[a7.view.set]{fullShare} a7.view.writes (Elt F) f L5)
                ∗ (∃ f, a8.view.loc (c : Thread nD τ) ↦[a8.view.set]{fullShare} a8.view.writes (Elt F) f LS)) -∗ K ⟨⟩))
          ⊢ wp frame (wpE (defs₀ (F := F)) Variants.none c none) E (cc1__fused34_kernel i a2 h2 a3 h3 a4 h4 a5 h5 a6 h6 a7 h7 a8 h8) K } := by
  refine ⟨?_, ?_, fun E K => ?run⟩
  case run =>
    simp only [cc1__fused34_kernel_eq_skeleton]; unfold cc1__fused34_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := h2.eq_unread hf2; obtain rfl := h3.eq_unread hf3; obtain rfl := h4.eq_unread hf4; obtain rfl := h5.eq_unread hf5; obtain rfl := h6.eq_unread hf6; obtain rfl := h8.eq_unread hfs
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact HS

end Cert.KernelIdeal.Hand

end
-- ==== Proof.KI.Fused.lean ====
/-
  The second kernel, point by point.  After point n the scratch buffer holds the running total `totalAt n`: what a
  first-tile point leaves from its five input blocks alone, what any other point leaves from its blocks and the total
  the point before left.  At a last-tile point the output buffer is left at `outLast` of the blocks and the total
  before; elsewhere the output window is idle and its buffer goes back as it came.  The kernel's invariant is the
  entry state before the first point and afterwards "the scratch buffer holds `totalAt` of the point before"; with it
  the body, in each of the three kinds of point, meets the pipeline's obligation.
-/
import proofs.«175217_j66597762892542_2_alg».proof.Proof.KI.RunFirst
import proofs.«175217_j66597762892542_2_alg».proof.Proof.KI.RunMid
import proofs.«175217_j66597762892542_2_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- The scratch buffer's pieces at a point of this kind tile it, so they cover it. -/
theorem totalCoverFirst (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : isFirst i) (hc1 : ¬isLast i)
    (x0 : Vec F S256x260 .bf16) (x1 : Vec F S2048x260 .bf16) (x2 : Vec F S1x2048 .f32) (x3 : Vec F S1024x2048 .bf16) (x4 : Vec F S1x1024 .f32) (y : S256x1024.Idx) :
    ∃ pc ∈ (runFirst c i a2 h2 a3 h3 a4 h4 a5 h5 a6 h6 a7 h7 a8 h8 hc0 hc1 x0 x1 x2 x3 x4).2.1, y ∈ pc.1.set :=
  View.cover_of_tiledL (runFirst c i a2 h2 a3 h3 a4 h4 a5 h5 a6 h6 a7 h7 a8 h8 hc0 hc1 x0 x1 x2 x3 x4).2.1 S256x1024.size (by sl_kernel_rfl) y

/-- The running total a point of this kind leaves in the scratch buffer: its pieces read back. -/
def totalFirst (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : isFirst i) (hc1 : ¬isLast i)
    (x0 : Vec F S256x260 .bf16) (x1 : Vec F S2048x260 .bf16) (x2 : Vec F S1x2048 .f32) (x3 : Vec F S1024x2048 .bf16) (x4 : Vec F S1x1024 .f32) : Vec F S256x1024 .f32 :=
  accV.read (Elt F) (accV.writes (Elt F) accV.junk (runFirst c i a2 h2 a3 h3 a4 h4 a5 h5 a6 h6 a7 h7 a8 h8 hc0 hc1 x0 x1 x2 x3 x4).2.1)

/-- The scratch buffer's pieces at a point of this kind tile it, so they cover it. -/
theorem totalCoverMid (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : ¬isLast i)
    (x0 : Vec F S256x260 .bf16) (x1 : Vec F S2048x260 .bf16) (x2 : Vec F S1x2048 .f32) (x3 : Vec F S1024x2048 .bf16) (x4 : Vec F S1x1024 .f32) (xs : Vec F S256x1024 .f32) (y : S256x1024.Idx) :
    ∃ pc ∈ (runMid c i a2 h2 a3 h3 a4 h4 a5 h5 a6 h6 a7 h7 a8 h8 hc0 hc1 x0 x1 x2 x3 x4 xs).2.1, y ∈ pc.1.set :=
  View.cover_of_tiledL (runMid c i a2 h2 a3 h3 a4 h4 a5 h5 a6 h6 a7 h7 a8 h8 hc0 hc1 x0 x1 x2 x3 x4 xs).2.1 S256x1024.size (by sl_kernel_rfl) y

/-- The running total a point of this kind leaves in the scratch buffer: its pieces read back. -/
def totalMid (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : ¬isLast i)
    (x0 : Vec F S256x260 .bf16) (x1 : Vec F S2048x260 .bf16) (x2 : Vec F S1x2048 .f32) (x3 : Vec F S1024x2048 .bf16) (x4 : Vec F S1x1024 .f32) (xs : Vec F S256x1024 .f32) : Vec F S256x1024 .f32 :=
  accV.read (Elt F) (accV.writes (Elt F) accV.junk (runMid c i a2 h2 a3 h3 a4 h4 a5 h5 a6 h6 a7 h7 a8 h8 hc0 hc1 x0 x1 x2 x3 x4 xs).2.1)

/-- The scratch buffer's pieces at a point of this kind tile it, so they cover it. -/
theorem totalCoverLast (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) (y : S256x1024.Idx) :
    ∃ pc ∈ (runLast c i a2 h2 a3 h3 a4 h4 a5 h5 a6 h6 a7 h7 a8 h8 hc0 hc1 x0 x1 x2 x3 x4 xs).2.1, y ∈ pc.1.set :=
  View.cover_of_tiledL (runLast c i a2 h2 a3 h3 a4 h4 a5 h5 a6 h6 a7 h7 a8 h8 hc0 hc1 x0 x1 x2 x3 x4 xs).2.1 S256x1024.size (by sl_kernel_rfl) y

/-- The running total a point of this kind leaves in the scratch buffer: its pieces read back. -/
def totalLast (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) : Vec F S256x1024 .f32 :=
  accV.read (Elt F) (accV.writes (Elt F) accV.junk (runLast c i a2 h2 a3 h3 a4 h4 a5 h5 a6 h6 a7 h7 a8 h8 hc0 hc1 x0 x1 x2 x3 x4 xs).2.1)

/-- The output buffer's pieces at the last tile tile it, so they cover it. -/
theorem outCoverLast (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) (y : S256x1024.Idx) :
    ∃ pc ∈ (runLast c i a2 h2 a3 h3 a4 h4 a5 h5 a6 h6 a7 h7 a8 h8 hc0 hc1 x0 x1 x2 x3 x4 xs).1, y ∈ pc.1.set :=
  View.cover_of_tiledL (runLast c i a2 h2 a3 h3 a4 h4 a5 h5 a6 h6 a7 h7 a8 h8 hc0 hc1 x0 x1 x2 x3 x4 xs).1 S256x1024.size (by sl_kernel_rfl) y

/-- What the last tile's point leaves in the output buffer: its pieces read back. -/
def outLast (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) : Vec F S256x1024 .f32 :=
  outV.read (Elt F) (outV.writes (Elt F) outV.junk (runLast c i a2 h2 a3 h3 a4 h4 a5 h5 a6 h6 a7 h7 a8 h8 hc0 hc1 x0 x1 x2 x3 x4 xs).1)

/-! ## The running total after each point -/

/-- The running total after the point at position `n`: by recursion on the position, the kind of point read off `n mod 32`. -/
def totalAt (c : Dev nD) : (n : ℕ) → n < cfg1.N → Vec F S256x1024 .f32
  | 0, hn => totalFirst c (grid1.coords ⟨0, hn⟩) (mB_0 ⟨0, hn⟩) (hB_0 ⟨0, hn⟩) (mB_1 ⟨0, hn⟩) (hB_1 ⟨0, hn⟩) (mB_2 ⟨0, hn⟩) (hB_2 ⟨0, hn⟩) (mB_3 ⟨0, hn⟩) (hB_3 ⟨0, hn⟩) (mB_4 ⟨0, hn⟩) (hB_4 ⟨0, hn⟩) (mB_5 ⟨0, hn⟩) (hB_5 ⟨0, hn⟩) accM (Memref.isWhole_whole _) ((isFirst_iff ⟨0, hn⟩).mpr (Nat.zero_mod _)) (fun h => (fun h => by (try dsimp only at h); omega) ((isLast_iff ⟨0, hn⟩).mp h)) (blkB V c 0 ⟨0, hn⟩) (blkB V c 1 ⟨0, hn⟩) (blkB V c 2 ⟨0, hn⟩) (blkB V c 3 ⟨0, hn⟩) (blkB V c 4 ⟨0, hn⟩)
  | n + 1, hn =>
    if h0 : (n + 1) % 32 = 0 then
      if h1 : (n + 1) % 32 = 31 then
        False.elim (by omega)
      else
        totalFirst c (grid1.coords ⟨n + 1, hn⟩) (mB_0 ⟨n + 1, hn⟩) (hB_0 ⟨n + 1, hn⟩) (mB_1 ⟨n + 1, hn⟩) (hB_1 ⟨n + 1, hn⟩) (mB_2 ⟨n + 1, hn⟩) (hB_2 ⟨n + 1, hn⟩) (mB_3 ⟨n + 1, hn⟩) (hB_3 ⟨n + 1, hn⟩) (mB_4 ⟨n + 1, hn⟩) (hB_4 ⟨n + 1, hn⟩) (mB_5 ⟨n + 1, hn⟩) (hB_5 ⟨n + 1, hn⟩) accM (Memref.isWhole_whole _) ((isFirst_iff ⟨n + 1, hn⟩).mpr h0) (fun h => h1 ((isLast_iff ⟨n + 1, hn⟩).mp h)) (blkB V c 0 ⟨n + 1, hn⟩) (blkB V c 1 ⟨n + 1, hn⟩) (blkB V c 2 ⟨n + 1, hn⟩) (blkB V c 3 ⟨n + 1, hn⟩) (blkB V c 4 ⟨n + 1, hn⟩)
    else
      if h1 : (n + 1) % 32 = 31 then
        totalLast c (grid1.coords ⟨n + 1, hn⟩) (mB_0 ⟨n + 1, hn⟩) (hB_0 ⟨n + 1, hn⟩) (mB_1 ⟨n + 1, hn⟩) (hB_1 ⟨n + 1, hn⟩) (mB_2 ⟨n + 1, hn⟩) (hB_2 ⟨n + 1, hn⟩) (mB_3 ⟨n + 1, hn⟩) (hB_3 ⟨n + 1, hn⟩) (mB_4 ⟨n + 1, hn⟩) (hB_4 ⟨n + 1, hn⟩) (mB_5 ⟨n + 1, hn⟩) (hB_5 ⟨n + 1, hn⟩) accM (Memref.isWhole_whole _) (fun h => h0 ((isFirst_iff ⟨n + 1, hn⟩).mp h)) ((isLast_iff ⟨n + 1, hn⟩).mpr h1) (blkB V c 0 ⟨n + 1, hn⟩) (blkB V c 1 ⟨n + 1, hn⟩) (blkB V c 2 ⟨n + 1, hn⟩) (blkB V c 3 ⟨n + 1, hn⟩) (blkB V c 4 ⟨n + 1, hn⟩) (totalAt c n (Nat.lt_of_succ_lt hn))
      else
        totalMid c (grid1.coords ⟨n + 1, hn⟩) (mB_0 ⟨n + 1, hn⟩) (hB_0 ⟨n + 1, hn⟩) (mB_1 ⟨n + 1, hn⟩) (hB_1 ⟨n + 1, hn⟩) (mB_2 ⟨n + 1, hn⟩) (hB_2 ⟨n + 1, hn⟩) (mB_3 ⟨n + 1, hn⟩) (hB_3 ⟨n + 1, hn⟩) (mB_4 ⟨n + 1, hn⟩) (hB_4 ⟨n + 1, hn⟩) (mB_5 ⟨n + 1, hn⟩) (hB_5 ⟨n + 1, hn⟩) accM (Memref.isWhole_whole _) (fun h => h0 ((isFirst_iff ⟨n + 1, hn⟩).mp h)) (fun h => h1 ((isLast_iff ⟨n + 1, hn⟩).mp h)) (blkB V c 0 ⟨n + 1, hn⟩) (blkB V c 1 ⟨n + 1, hn⟩) (blkB V c 2 ⟨n + 1, hn⟩) (blkB V c 3 ⟨n + 1, hn⟩) (blkB V c 4 ⟨n + 1, hn⟩) (totalAt c n (Nat.lt_of_succ_lt hn))

/-- At a first-tile point the total starts afresh. -/
theorem totalAt_first (c : Dev nD) (t : Fin cfg1.N) (h0 : t.val % 32 = 0) (h1 : ¬t.val % 32 = 31) :
    totalAt V c t.val t.isLt = totalFirst c (grid1.coords t) (mB_0 t) (hB_0 t) (mB_1 t) (hB_1 t) (mB_2 t) (hB_2 t) (mB_3 t) (hB_3 t) (mB_4 t) (hB_4 t) (mB_5 t) (hB_5 t) accM (Memref.isWhole_whole _) ((isFirst_iff t).mpr h0) (fun h => h1 ((isLast_iff t).mp h)) (blkB V c 0 t) (blkB V c 1 t) (blkB V c 2 t) (blkB V c 3 t) (blkB V c 4 t) := by
  obtain ⟨n, hn⟩ := t
  cases n with
  | zero => exact rfl
  | succ n => exact (dif_pos h0).trans ((dif_neg h1).trans rfl)

/-- At a middle point it is the point's contribution added to the total before. -/
theorem totalAt_mid (c : Dev nD) (t : Fin cfg1.N) (h0 : ¬t.val % 32 = 0) (h1 : ¬t.val % 32 = 31) :
    totalAt V c t.val t.isLt = totalMid c (grid1.coords t) (mB_0 t) (hB_0 t) (mB_1 t) (hB_1 t) (mB_2 t) (hB_2 t) (mB_3 t) (hB_3 t) (mB_4 t) (hB_4 t) (mB_5 t) (hB_5 t) accM (Memref.isWhole_whole _) (fun h => h0 ((isFirst_iff t).mp h)) (fun h => h1 ((isLast_iff t).mp h)) (blkB V c 0 t) (blkB V c 1 t) (blkB V c 2 t) (blkB V c 3 t) (blkB V c 4 t) (totalAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last-tile point likewise. -/
theorem totalAt_last (c : Dev nD) (t : Fin cfg1.N) (h0 : ¬t.val % 32 = 0) (h1 : t.val % 32 = 31) :
    totalAt V c t.val t.isLt = totalLast c (grid1.coords t) (mB_0 t) (hB_0 t) (mB_1 t) (hB_1 t) (mB_2 t) (hB_2 t) (mB_3 t) (hB_3 t) (mB_4 t) (hB_4 t) (mB_5 t) (hB_5 t) accM (Memref.isWhole_whole _) (fun h => h0 ((isFirst_iff t).mp h)) ((isLast_iff t).mpr h1) (blkB V c 0 t) (blkB V c 1 t) (blkB V c 2 t) (blkB V c 3 t) (blkB V c 4 t) (totalAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output buffer holds after point `t`'s body where that is ever looked at — at the last-tile points, which
    alone write the block back: `outLast` of the point's blocks and the total before.  (Elsewhere the value is a
    placeholder nothing reads: the window is idle there.) -/
def outAt (c : Dev nD) (t : Fin cfg1.N) : Vec F S256x1024 .f32 :=
  if h1 : t.val % 32 = 31 then
    outLast c (grid1.coords t) (mB_0 t) (hB_0 t) (mB_1 t) (hB_1 t) (mB_2 t) (hB_2 t) (mB_3 t) (hB_3 t) (mB_4 t) (hB_4 t) (mB_5 t) (hB_5 t) accM (Memref.isWhole_whole _) (fun h => (fun h => by omega) ((isFirst_iff t).mp h)) ((isLast_iff t).mpr h1) (blkB V c 0 t) (blkB V c 1 t) (blkB V c 2 t) (blkB V c 3 t) (blkB V c 4 t) (totalAt V c (t.val - 1) (Nat.lt_of_le_of_lt (Nat.sub_le _ _) t.isLt))
  else totalAt V c t.val t.isLt

theorem outAt_last (c : Dev nD) (t : Fin cfg1.N) (h0 : ¬t.val % 32 = 0) (h1 : t.val % 32 = 31) :
    outAt V c t = outLast c (grid1.coords t) (mB_0 t) (hB_0 t) (mB_1 t) (hB_1 t) (mB_2 t) (hB_2 t) (mB_3 t) (hB_3 t) (mB_4 t) (hB_4 t) (mB_5 t) (hB_5 t) accM (Memref.isWhole_whole _) (fun h => h0 ((isFirst_iff t).mp h)) ((isLast_iff t).mpr h1) (blkB V c 0 t) (blkB V c 1 t) (blkB V c 2 t) (blkB V c 3 t) (blkB V c 4 t) (totalAt V c (t.val - 1) (Nat.lt_of_le_of_lt (Nat.sub_le _ _) t.isLt)) :=
  dif_pos h1

/-! ## The invariant -/

/-- Before position `n`: at the start what the region hands over; afterwards the scratch buffer at the total the point
    before left, beside the other scoped buffers and the generator register. -/
def inv (c : Dev nD) : (n : ℕ) → n ≤ cfg1.N → sProp 𝕄
  | 0, _ => Pipeline.ΦA spec1 c
  | n + 1, hn => iprop(restWith c (owns (c : Thread nD τ) accM fullShare (totalAt V c n hn)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(restWith c (owns (c : Thread nD τ) accM fullShare (totalAt V c n hn)) ∗ (∃ r, prngReg c r)) := rfl

theorem inv_pos (c : Dev nD) (n : ℕ) (h : n ≤ cfg1.N) (hz : n ≠ 0) :
    inv V c n h = iprop(restWith c (owns (c : Thread nD τ) accM fullShare (totalAt V c (n - 1) (by omega))) ∗ (∃ r, prngReg c r)) := by
  cases n with
  | zero => exact absurd rfl hz
  | succ n => rfl

/-! ## The second kernel's proof data -/

/-- Around the second kernel on core `c`: the arrays as found (`V`); after the body each input's buffer at its block and
    the output's at `outAt`; the invariant `inv`; nothing owed; full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => outAt V c t
  Φ t := inv V c t.val (Nat.le_of_lt_succ t.isLt)
  q _ := fullShare
  owed _ := 0

theorem datB_A (c : Dev nD) (w : Fin cfg1.W) : (datB V c).A w = V c (Pipeline.arrRef spec1 w) := by
  dsimp only [datB]

theorem inv_castSucc (c : Dev nD) (t : Fin cfg1.N) :
    (datB V c).Φ t.castSucc = inv V c t.val (Nat.le_of_lt t.isLt) := by
  dsimp only [datB]; simp only [Fin.coe_castSucc]

theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = blkB V c 3 t := by dsimp only [datB]
theorem afterB_4 (c : Dev nD) (t : Fin cfg1.N) : (datB V c).after 4 t = blkB V c 4 t := by dsimp only [datB]
theorem afterB_5 (c : Dev nD) (t : Fin cfg1.N) : (datB V c).after 5 t = outAt V c t := by dsimp only [datB]

theorem beforeB_0 (c : Dev nD) (t : Fin cfg1.N) (d) : (datB V c).before 0 t d = blkB V c 0 t :=
  foundB_0 V (datB V c) (datB_A V c 0) (afterB_0 V c) t d
theorem beforeB_1 (c : Dev nD) (t : Fin cfg1.N) (d) : (datB V c).before 1 t d = blkB V c 1 t :=
  foundB_1 V (datB V c) (datB_A V c 1) (afterB_1 V c) t d
theorem beforeB_2 (c : Dev nD) (t : Fin cfg1.N) (d) : (datB V c).before 2 t d = blkB V c 2 t :=
  foundB_2 V (datB V c) (datB_A V c 2) (afterB_2 V c) t d
theorem beforeB_3 (c : Dev nD) (t : Fin cfg1.N) (d) : (datB V c).before 3 t d = blkB V c 3 t :=
  foundB_3 V (datB V c) (datB_A V c 3) (afterB_3 V c) t d
theorem beforeB_4 (c : Dev nD) (t : Fin cfg1.N) (d) : (datB V c).before 4 t d = blkB V c 4 t :=
  foundB_4 V (datB V c) (datB_A V c 4) (afterB_4 V c) t d

/-! ## The body obligation -/

/-- What the body is handed at point `t`, -/
def preB (c : Dev nD) (t : Fin cfg1.N) : sProp 𝕄 :=
  iprop((datB V c).Φ t.castSucc ∗ (datB V c).owesAt () t.castSucc
    ∗ (∃ d, owns (c : Thread nD τ) (mB_0 t) fullShare ((datB V c).before 0 t d))
    ∗ (∃ d, owns (c : Thread nD τ) (mB_1 t) fullShare ((datB V c).before 1 t d))
    ∗ (∃ d, owns (c : Thread nD τ) (mB_2 t) fullShare ((datB V c).before 2 t d))
    ∗ (∃ d, owns (c : Thread nD τ) (mB_3 t) fullShare ((datB V c).before 3 t d))
    ∗ (∃ d, owns (c : Thread nD τ) (mB_4 t) fullShare ((datB V c).before 4 t d))
    ∗ (∃ d, owns (c : Thread nD τ) (mB_5 t) fullShare ((datB V c).before 5 t d)))

/-- and what it hands back. -/
def postB (c : Dev nD) (t : Fin cfg1.N) : sProp 𝕄 :=
  iprop((datB V c).Φ t.succ ∗ (datB V c).owesAt () t.succ
    ∗ (datB V c).leavesExact 0 t
    ∗ (datB V c).leavesExact 1 t
    ∗ (datB V c).leavesExact 2 t
    ∗ (datB V c).leavesExact 3 t
    ∗ (datB V c).leavesExact 4 t
    ∗ (datB V c).leavesExact 5 t)

set_option maxHeartbeats 4800000 in
/-- The body at any point.  The inputs' buffers hold their blocks; `t mod 32` says which kind of point this is; the
    invariant hands over the scratch buffer at the total before (at anything, at the very first point) and takes it
    back at this point's total; away from the last tile the output buffer goes back as it came. -/
theorem soundB (c : Dev nD) (t : Fin cfg1.N) :
    preB V c t ⊢ wp frame (wpE (defs₀ (F := F)) Variants.none c none) Set.univ (bodyAt1 t) (fun _ => postB V c t) := by
  unfold preB postB bodyAt1
  simp only [beforeB_0, beforeB_1, beforeB_2, beforeB_3, beforeB_4]
  rw [show (datB V c).owesAt () t.succ = (datB V c).owesAt () t.castSucc from rfl]
  rw [show (datB V c).Φ t.succ = inv V c (t.val + 1) t.isLt from rfl, inv_succ]
  have hN : t.val < 64 := lt_of_lt_of_eq t.isLt (show cfg1.N = 64 from N_1)
  by_cases h0 : t.val % 32 = 0
  · by_cases h1 : t.val % 32 = 31
    · exfalso; omega
    · rw [show (datB V c).leavesExact 0 t = owns (c : Thread nD τ) (mB_0 t) fullShare ((datB V c).after 0 t) from by
        unfold Dat.leavesExact; rw [live_in_0 t], afterB_0]
      rw [show (datB V c).leavesExact 1 t = owns (c : Thread nD τ) (mB_1 t) fullShare ((datB V c).after 1 t) from by
        unfold Dat.leavesExact; rw [live_in_1 t], afterB_1]
      rw [show (datB V c).leavesExact 2 t = owns (c : Thread nD τ) (mB_2 t) fullShare ((datB V c).after 2 t) from by
        unfold Dat.leavesExact; rw [live_in_2 t], afterB_2]
      rw [show (datB V c).leavesExact 3 t = owns (c : Thread nD τ) (mB_3 t) fullShare ((datB V c).after 3 t) from by
        unfold Dat.leavesExact; rw [live_in_3 t], afterB_3]
      rw [show (datB V c).leavesExact 4 t = owns (c : Thread nD τ) (mB_4 t) fullShare ((datB V c).after 4 t) from by
        unfold Dat.leavesExact; rw [live_in_4 t], afterB_4]
      rw [Dat.leavesExact_idle (datB V c) 5 t (idle_of_not_last t (fun h => h1 ((isLast_iff t).mp h))) (noFlush_of_not_last t (fun h => h1 ((isLast_iff t).mp h)))]
      rw [totalAt_first V c t h0 h1]
      unfold totalFirst; (try dsimp only)
      by_cases hz : t.val = 0
      · rw [inv_castSucc V c t, inv_zero V c _ _ hz, entry_eq]
        unfold restWith
        iintro ⟨⟨⟨G0, G1, G2, G3, G4, G5, HS⟩, Hg⟩, Ho, ⟨%d0, I0⟩, ⟨%d1, I1⟩, ⟨%d2, I2⟩, ⟨%d3, I3⟩, ⟨%d4, I4⟩, ⟨%d5, I5⟩⟩
        iapply ((runFirst c (grid1.coords t) _ _ _ _ _ _ _ _ _ _ _ _ _ _ ((isFirst_iff t).mpr h0) (fun h => h1 ((isLast_iff t).mp h)) (blkB V c 0 t) (blkB V c 1 t) (blkB V c 2 t) (blkB V c 3 t) (blkB V c 4 t)).2.2 _ Set.univ _)
        isplitl [I0]; · iexact I0
        isplitl [I1]; · iexact I1
        isplitl [I2]; · iexact I2
        isplitl [I3]; · iexact I3
        isplitl [I4]; · iexact I4
        isplitl [I5]; · iexact I5
        isplitl [HS]; · iexact HS
        iintro ⟨I0, I1, I2, I3, I4, I5, ⟨%es, HS⟩⟩
        isplitl [G0 G1 G2 G3 G4 G5 HS Hg]
        · isplitl [G0 G1 G2 G3 G4 G5 HS]
          · isplitl [G0]; · iexact G0
            isplitl [G1]; · iexact G1
            isplitl [G2]; · iexact G2
            isplitl [G3]; · iexact G3
            isplitl [G4]; · iexact G4
            isplitl [G5]; · iexact G5
            unfold owns; iexists _; isplitr
            swap; · iexact HS
            ipureintro; exact View.read_writes_of_cover _ _ _ _ _ (totalCoverFirst c _ _ _ _ _ _ _ _ _ _ _ _ _ _ _ _ _ _ _ _ _ _)
          iexact Hg
        isplitl [Ho]; · iexact Ho
        isplitl [I0]; · iexact I0
        isplitl [I1]; · iexact I1
        isplitl [I2]; · iexact I2
        isplitl [I3]; · iexact I3
        isplitl [I4]; · iexact I4
        iexists _; iexact I5
      · rw [inv_castSucc V c t, inv_pos V c _ _ hz]
        unfold restWith
        iintro ⟨⟨⟨G0, G1, G2, G3, G4, G5, HS⟩, Hg⟩, Ho, ⟨%d0, I0⟩, ⟨%d1, I1⟩, ⟨%d2, I2⟩, ⟨%d3, I3⟩, ⟨%d4, I4⟩, ⟨%d5, I5⟩⟩
        iapply ((runFirst c (grid1.coords t) _ _ _ _ _ _ _ _ _ _ _ _ _ _ ((isFirst_iff t).mpr h0) (fun h => h1 ((isLast_iff t).mp h)) (blkB V c 0 t) (blkB V c 1 t) (blkB V c 2 t) (blkB V c 3 t) (blkB V c 4 t)).2.2 _ Set.univ _)
        isplitl [I0]; · iexact I0
        isplitl [I1]; · iexact I1
        isplitl [I2]; · iexact I2
        isplitl [I3]; · iexact I3
        isplitl [I4]; · iexact I4
        isplitl [I5]; · iexact I5
        isplitl [HS]; · iexists _; iexact HS
        iintro ⟨I0, I1, I2, I3, I4, I5, ⟨%es, HS⟩⟩
        isplitl [G0 G1 G2 G3 G4 G5 HS Hg]
        · isplitl [G0 G1 G2 G3 G4 G5 HS]
          · isplitl [G0]; · iexact G0
            isplitl [G1]; · iexact G1
            isplitl [G2]; · iexact G2
            isplitl [G3]; · iexact G3
            isplitl [G4]; · iexact G4
            isplitl [G5]; · iexact G5
            unfold owns; iexists _; isplitr
            swap; · iexact HS
            ipureintro; exact View.read_writes_of_cover _ _ _ _ _ (totalCoverFirst c _ _ _ _ _ _ _ _ _ _ _ _ _ _ _ _ _ _ _ _ _ _)
          iexact Hg
        isplitl [Ho]; · iexact Ho
        isplitl [I0]; · iexact I0
        isplitl [I1]; · iexact I1
        isplitl [I2]; · iexact I2
        isplitl [I3]; · iexact I3
        isplitl [I4]; · iexact I4
        iexists _; iexact I5
  · by_cases h1 : t.val % 32 = 31
    · rw [show (datB V c).leavesExact 0 t = owns (c : Thread nD τ) (mB_0 t) fullShare ((datB V c).after 0 t) from by
        unfold Dat.leavesExact; rw [live_in_0 t], afterB_0]
      rw [show (datB V c).leavesExact 1 t = owns (c : Thread nD τ) (mB_1 t) fullShare ((datB V c).after 1 t) from by
        unfold Dat.leavesExact; rw [live_in_1 t], afterB_1]
      rw [show (datB V c).leavesExact 2 t = owns (c : Thread nD τ) (mB_2 t) fullShare ((datB V c).after 2 t) from by
        unfold Dat.leavesExact; rw [live_in_2 t], afterB_2]
      rw [show (datB V c).leavesExact 3 t = owns (c : Thread nD τ) (mB_3 t) fullShare ((datB V c).after 3 t) from by
        unfold Dat.leavesExact; rw [live_in_3 t], afterB_3]
      rw [show (datB V c).leavesExact 4 t = owns (c : Thread nD τ) (mB_4 t) fullShare ((datB V c).after 4 t) from by
        unfold Dat.leavesExact; rw [live_in_4 t], afterB_4]
      rw [show (datB V c).leavesExact 5 t = owns (c : Thread nD τ) (mB_5 t) fullShare ((datB V c).after 5 t) from by
        unfold Dat.leavesExact; rw [live_of_last t ((isLast_iff t).mpr h1)], afterB_5]
      rw [totalAt_last V c t h0 h1, outAt_last V c t h0 h1]
      unfold outLast totalLast; (try dsimp only)
      have hz : t.val ≠ 0 := by omega
      rw [inv_castSucc V c t, inv_pos V c _ _ hz]
      unfold restWith
      iintro ⟨⟨⟨G0, G1, G2, G3, G4, G5, HS⟩, Hg⟩, Ho, ⟨%d0, I0⟩, ⟨%d1, I1⟩, ⟨%d2, I2⟩, ⟨%d3, I3⟩, ⟨%d4, I4⟩, ⟨%d5, I5⟩⟩
      iapply ((runLast c (grid1.coords t) _ _ _ _ _ _ _ _ _ _ _ _ _ _ (fun h => h0 ((isFirst_iff t).mp h)) ((isLast_iff t).mpr h1) (blkB V c 0 t) (blkB V c 1 t) (blkB V c 2 t) (blkB V c 3 t) (blkB V c 4 t) _).2.2 Set.univ _)
      isplitl [I0]; · iexact I0
      isplitl [I1]; · iexact I1
      isplitl [I2]; · iexact I2
      isplitl [I3]; · iexact I3
      isplitl [I4]; · iexact I4
      isplitl [I5]; · iexists _; iexact I5
      isplitl [HS]; · iexact HS
      iintro ⟨I0, I1, I2, I3, I4, ⟨%e5, I5⟩, ⟨%es, HS⟩⟩
      isplitl [G0 G1 G2 G3 G4 G5 HS Hg]
      · isplitl [G0 G1 G2 G3 G4 G5 HS]
        · isplitl [G0]; · iexact G0
          isplitl [G1]; · iexact G1
          isplitl [G2]; · iexact G2
          isplitl [G3]; · iexact G3
          isplitl [G4]; · iexact G4
          isplitl [G5]; · iexact G5
          unfold owns; iexists _; isplitr
          swap; · iexact HS
          ipureintro; exact View.read_writes_of_cover _ _ _ _ _ (totalCoverLast c _ _ _ _ _ _ _ _ _ _ _ _ _ _ _ _ _ _ _ _ _ _ _)
        iexact Hg
      isplitl [Ho]; · iexact Ho
      isplitl [I0]; · iexact I0
      isplitl [I1]; · iexact I1
      isplitl [I2]; · iexact I2
      isplitl [I3]; · iexact I3
      isplitl [I4]; · iexact I4
      unfold owns; iexists _; isplitr
      swap; · iexact I5
      ipureintro; exact View.read_writes_of_cover _ _ _ _ _ (outCoverLast c _ _ _ _ _ _ _ _ _ _ _ _ _ _ _ _ _ _ _ _ _ _ _)
    · rw [show (datB V c).leavesExact 0 t = owns (c : Thread nD τ) (mB_0 t) fullShare ((datB V c).after 0 t) from by
        unfold Dat.leavesExact; rw [live_in_0 t], afterB_0]
      rw [show (datB V c).leavesExact 1 t = owns (c : Thread nD τ) (mB_1 t) fullShare ((datB V c).after 1 t) from by
        unfold Dat.leavesExact; rw [live_in_1 t], afterB_1]
      rw [show (datB V c).leavesExact 2 t = owns (c : Thread nD τ) (mB_2 t) fullShare ((datB V c).after 2 t) from by
        unfold Dat.leavesExact; rw [live_in_2 t], afterB_2]
      rw [show (datB V c).leavesExact 3 t = owns (c : Thread nD τ) (mB_3 t) fullShare ((datB V c).after 3 t) from by
        unfold Dat.leavesExact; rw [live_in_3 t], afterB_3]
      rw [show (datB V c).leavesExact 4 t = owns (c : Thread nD τ) (mB_4 t) fullShare ((datB V c).after 4 t) from by
        unfold Dat.leavesExact; rw [live_in_4 t], afterB_4]
      rw [Dat.leavesExact_idle (datB V c) 5 t (idle_of_not_last t (fun h => h1 ((isLast_iff t).mp h))) (noFlush_of_not_last t (fun h => h1 ((isLast_iff t).mp h)))]
      rw [totalAt_mid V c t h0 h1]
      unfold totalMid; (try dsimp only)
      have hz : t.val ≠ 0 := by omega
      rw [inv_castSucc V c t, inv_pos V c _ _ hz]
      unfold restWith
      iintro ⟨⟨⟨G0, G1, G2, G3, G4, G5, HS⟩, Hg⟩, Ho, ⟨%d0, I0⟩, ⟨%d1, I1⟩, ⟨%d2, I2⟩, ⟨%d3, I3⟩, ⟨%d4, I4⟩, ⟨%d5, I5⟩⟩
      iapply ((runMid c (grid1.coords t) _ _ _ _ _ _ _ _ _ _ _ _ _ _ (fun h => h0 ((isFirst_iff t).mp h)) (fun h => h1 ((isLast_iff t).mp h)) (blkB V c 0 t) (blkB V c 1 t) (blkB V c 2 t) (blkB V c 3 t) (blkB V c 4 t) _).2.2 _ Set.univ _)
      isplitl [I0]; · iexact I0
      isplitl [I1]; · iexact I1
      isplitl [I2]; · iexact I2
      isplitl [I3]; · iexact I3
      isplitl [I4]; · iexact I4
      isplitl [I5]; · iexact I5
      isplitl [HS]; · iexact HS
      iintro ⟨I0, I1, I2, I3, I4, I5, ⟨%es, HS⟩⟩
      isplitl [G0 G1 G2 G3 G4 G5 HS Hg]
      · isplitl [G0 G1 G2 G3 G4 G5 HS]
        · isplitl [G0]; · iexact G0
          isplitl [G1]; · iexact G1
          isplitl [G2]; · iexact G2
          isplitl [G3]; · iexact G3
          isplitl [G4]; · iexact G4
          isplitl [G5]; · iexact G5
          unfold owns; iexists _; isplitr
          swap; · iexact HS
          ipureintro; exact View.read_writes_of_cover _ _ _ _ _ (totalCoverMid c _ _ _ _ _ _ _ _ _ _ _ _ _ _ _ _ _ _ _ _ _ _ _)
        iexact Hg
      isplitl [Ho]; · iexact Ho
      isplitl [I0]; · iexact I0
      isplitl [I1]; · iexact I1
      isplitl [I2]; · iexact I2
      isplitl [I3]; · iexact I3
      isplitl [I4]; · iexact I4
      iexists _; iexact I5

/-- The pipeline's body obligation for the second kernel, at every point. -/
theorem obligationB (c : Dev nD) : BodyObligation (datB (F := F) V c) (defs₀ (F := F)) Variants.none () Set.univ := fun t => by
  rw [bigSep_W1, bigSep_W1]
  exact soundB V c t

/-- What the region hands over is the invariant before the first point. -/
theorem entryB (c : Dev nD) : Pipeline.ΦA spec1 c ⊢ (datB V c).Φ 0 := by
  rw [show (datB V c).Φ 0 = inv V c 0 (Nat.zero_le _) from rfl, inv_zero V c 0 _ rfl]
  try exact Idealize.SL.BI.Entails.refl _

/-- The total's name forgotten: the scratch buffer at some contents. -/
theorem forget_total (c : Dev nD) (x : Vec F S256x1024 .f32) :
    restWith c (owns (c : Thread nD τ) accM fullShare x) ⊢ (restWith c (iprop(∃ d, owns (c : Thread nD τ) accM fullShare d)) : sProp 𝕄) :=
  restWith_mono c (by iintro H; iexists x; iexact H)

/-- After the last point the invariant gives the entry state back, the total's name forgotten. -/
theorem exitB (c : Dev nD) : (datB V c).Φ (Fin.last cfg1.N) ⊢ Pipeline.ΦA spec1 c := by
  rw [show (datB V c).Φ (Fin.last cfg1.N) = inv V c (Fin.last cfg1.N).val (Nat.le_of_lt_succ (Fin.last cfg1.N).isLt) from rfl,
    inv_pos V c _ _ (by rw [Fin.val_last]; have : cfg1.N = 64 := N_1; omega), entry_eq]
  exact sep_mono (forget_total c _) .rfl

end Cert.KernelIdeal.Hand

end
-- ==== Proof.KI.Whole.lean ====
/-
  The whole program: reshape the four biases, run the first kernel, round the two large weight matrices, run the
  second kernel.  The contents of every unscoped buffer are followed from the launch through these four steps
  (`W0` … `W4`): a host step applies its operations; a kernel leaves its arrays at what its pipeline wrote back and
  every other buffer alone.  Each kernel enters the run as a region with its proof data taken at the contents it is
  entered with, and the run ends with every unscoped buffer at `W4`: the nine argument arrays as launched, and the
  result array at what the second kernel's write-backs left.
-/
import proofs.«175217_j66597762892542_2_alg».proof.Proof.KI.First
import proofs.«175217_j66597762892542_2_alg».proof.Proof.KI.Fused
import proofs.«175217_j66597762892542_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the steps -/

/-- Core `c`'s buffers at launch. -/
abbrev W0 : Dev nD → Valuation τ sig (Elt F) := fun c b => m (c, b)
/-- After the four reshapes (what the first kernel is entered with). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its arrays at what its pipeline leaves, every other buffer as entered. -/
def W2 (c : Dev nD) : Valuation τ sig (Elt F) :=
  Pipeline.withArrays spec0 c (W1 m c) fun w => (datA (V1 m) c).arrAt w cfg0.N
theorem W2_arr (c : Dev nD) (w : Fin cfg0.W) :
    W2 m c (Proc.devRef .tc (Pipeline.arrRef spec0 w)) = (datA (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem leftA (c : Dev nD) (w : Fin cfg0.W) : (datA (V1 m) c).arrAt w cfg0.N = V2 m c (Pipeline.arrRef spec0 w) :=
  (W2_arr m c w).symm
theorem keptA (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two roundings (what the second kernel is entered with). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel. -/
def W4 (c : Dev nD) : Valuation τ sig (Elt F) :=
  Pipeline.withArrays spec1 c (W3 m c) fun w => (datB (V3 m) c).arrAt w cfg1.N
theorem W4_arr (c : Dev nD) (w : Fin cfg1.W) :
    W4 m c (Proc.devRef .tc (Pipeline.arrRef spec1 w)) = (datB (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem leftB (c : Dev nD) (w : Fin cfg1.W) : (datB (V3 m) c).arrAt w cfg1.N = V4 m c (Pipeline.arrRef spec1 w) :=
  (W4_arr m c w).symm
theorem keptB (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No step writes an argument array -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((datA (V1 m) c).arrAt_in 0 rfl _).trans (datA_A (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((datA (V1 m) c).arrAt_in 1 rfl _).trans (datA_A (V1 m) c 1))
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 3).trans (((datA (V1 m) c).arrAt_in 3 rfl _).trans (datA_A (V1 m) c 3))
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## Both kernels' proof data, and what rides along -/

/-- The two pipelines' proof data, each at the contents its kernel is entered with. -/
def pdats : (p : Fin 2) → (c : Dev nD) → Dat τ (Elt F) Unit ℕ (UR sig nD τ) ℕ (Pipeline.pin (pcfgs (F := F)) adm p) c
  | ⟨0, _⟩ => fun c => datA (V1 m) c
  | ⟨1, _⟩ => fun c => datB (V3 m) c
abbrev 𝒱₀ : Variants := Variants.none
/-- No core owes another anything. -/
abbrev L : GSem nD τ sig → Finset Unit := fun _ => ∅
abbrev lv : GSem nD τ sig → Unit → ℕ := fun _ _ => 0
/-- Beside the buffers, through every step: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, the `owes` apart. -/
abbrev Tend (c : Dev nD) : sProp 𝕄 := iprop(StableHlo.held (c : Thread nD τ) (Pipeline.ucRefs τ sig) (W4 m c) ∗ ∃ r, prngReg c r)

/-! ## The two kernels as segments -/

set_option backward.isDefEq.respectTransparency.types false in
/-- The first kernel's region as a segment of the program: entered with every unscoped buffer at `W1`, left with them at
    `W2`.  Its arrays are split out of the unscoped buffers on the way in and put back, at what the pipeline
    leaves in them, on the way out; the generator register goes into the kernel's invariant and comes back; nothing is
    owed; the kernel has no semaphore of its own. -/
def segA : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligationA (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (leftA m c) (keptA m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region as a segment of the program: entered with every unscoped buffer at `W3`, left with them at
    `W4`.  Its arrays are split out of the unscoped buffers on the way in and put back, at what the pipeline
    leaves in them, on the way out; the generator register goes into the kernel's invariant and comes back; nothing is
    owed; the kernel has no semaphore of its own. -/
def segB : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligationB (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (entryB (V3 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (exitB (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (leftB m c) (keptB m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

abbrev segs : List (Pipeline.Seg (pcfgs (F := F)) adm (pdats m) () defs₀ 𝒱₀ L lv) :=
  [ .host (hostSeg hostOps0 hostOps0_sub hostOps0_fresh (W0 m)),
    .region (segA m),
    .host (hostSeg hostOps1 hostOps1_sub hostOps1_fresh (W2 m)),
    .region (segB m) ]
theorem main_is_segs (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer of every core at `W4`. -/
theorem run_whole : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_whole m ρ)

/-- The result array ends at what the second kernel's write-backs leave, and the argument arrays as launched. -/
theorem result_and_args : θ_run defs (onTc (τ := τ) (main (F := F))) ⟨m, fun _ => 0, ρ⟩ (fun r => ∀ c : Dev nD,
      r.2.mem ((c.tc : Thread nD τ).loc main_v7) = (datB (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_v7 (by decide))).trans (W4_arr m c 5),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_whole m ρ)

end Cert.KernelIdeal.Hand

end
-- ==== Proof.KI.Pieces.lean ====
/-
  What the pieces amount to.  Every store of the second kernel's body covers its whole buffer, so what a buffer holds
  after the body is simply the last value stored, and a load of a whole buffer reads what it holds.  Hence: after a
  first-tile point the running total is the tile's contribution added to zero; after any other point it is the
  contribution added to the total before; and the last tile's output is the bias added to that new total, ramped.
-/
import proofs.«175217_j66597762892542_2_alg».proof.Proof.KI.Fused
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access in the body: the origin. -/
theorem origin2 : (![0, 0] : Fin 2 → Nat) = fun _ => 0 := funext fun a => by fin_cases a <;> rfl

/-- In the middle of the sum the scratch buffer ends at the tile's contribution added to what it held. -/
theorem totalMid_eq (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : ¬isLast i)
    (x0 : Vec F S256x260 .bf16) (x1 : Vec F S2048x260 .bf16) (x2 : Vec F S1x2048 .f32) (x3 : Vec F S1024x2048 .bf16) (x4 : Vec F S1x1024 .f32) (xs : Vec F S256x1024 .f32) :
    totalMid c i a2 h2 a3 h3 a4 h4 a5 h5 a6 h6 a7 h7 a8 h8 hc0 hc1 x0 x1 x2 x3 x4 xs = k1_pay2 x0 x1 x2 x3 xs := by
  unfold totalMid
  rw [View.read_writes_eq_canon _ _ _ (totalCoverMid c i a2 h2 a3 h3 a4 h4 a5 h5 a6 h6 a7 h7 a8 h8 hc0 hc1 x0 x1 x2 x3 x4 xs)]
  unfold runMid
  dsimp only
  rw [View.canon_unit_zero (S := S256x1024) origin2]
  simp only [View.readCov_unit_zero (S := S256x1024) _ origin2, View.readAt_eq_ld, h2.read_unread, h3.read_unread, h4.read_unread, h5.read_unread, h6.read_unread, h8.read_unread,
    View.ld_unit_zero (S := S256x260) origin2, View.ld_unit_zero (S := S2048x260) origin2, View.ld_unit_zero (S := S1x2048) origin2,
    View.ld_unit_zero (S := S1024x2048) origin2, View.ld_unit_zero (S := S1x1024) origin2, View.ld_unit_zero (S := S256x1024) origin2]

/-- At the last tile the same, -/
theorem totalLast_eq (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) :
    totalLast c i a2 h2 a3 h3 a4 h4 a5 h5 a6 h6 a7 h7 a8 h8 hc0 hc1 x0 x1 x2 x3 x4 xs = k1_pay2 x0 x1 x2 x3 xs := by
  unfold totalLast
  rw [View.read_writes_eq_canon _ _ _ (totalCoverLast c i a2 h2 a3 h3 a4 h4 a5 h5 a6 h6 a7 h7 a8 h8 hc0 hc1 x0 x1 x2 x3 x4 xs)]
  unfold runLast
  dsimp only
  sl_unfold_run_names
  rw [View.canon_unit_zero (S := S256x1024) origin2]
  simp only [View.readCov_unit_zero (S := S256x1024) _ origin2, View.readAt_eq_ld, h2.read_unread, h3.read_unread, h4.read_unread, h5.read_unread, h6.read_unread, h8.read_unread,
    View.ld_unit_zero (S := S256x260) origin2, View.ld_unit_zero (S := S2048x260) origin2, View.ld_unit_zero (S := S1x2048) origin2,
    View.ld_unit_zero (S := S1024x2048) origin2, View.ld_unit_zero (S := S1x1024) origin2, View.ld_unit_zero (S := S256x1024) origin2]

/-- and the output buffer ends at the bias added to that new total, ramped. -/
theorem outLast_eq (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : ¬isFirst i) (hc1 : isLast i)
    (x0 : Vec F S256x260 .bf16) (x1 : Vec F S2048x260 .bf16) (x2 : Vec F S1x2048 .f32) (x3 : Vec F S1024x2048 .bf16) (x4 : Vec F S1x1024 .f32) (xs : Vec F S256x1024 .f32) :
    outLast c i a2 h2 a3 h3 a4 h4 a5 h5 a6 h6 a7 h7 a8 h8 hc0 hc1 x0 x1 x2 x3 x4 xs = k1_pay3 (k1_pay2 x0 x1 x2 x3 xs) x4 := by
  unfold outLast
  rw [View.read_writes_eq_canon _ _ _ (outCoverLast c i a2 h2 a3 h3 a4 h4 a5 h5 a6 h6 a7 h7 a8 h8 hc0 hc1 x0 x1 x2 x3 x4 xs)]
  unfold runLast
  dsimp only
  sl_unfold_run_names
  rw [View.canon_unit_zero (S := S256x1024) origin2]
  simp only [View.readCov_unit_zero (S := S256x1024) _ origin2, View.readAt_eq_ld, h2.read_unread, h3.read_unread, h4.read_unread, h5.read_unread, h6.read_unread, h8.read_unread,
    View.ld_unit_zero (S := S256x260) origin2, View.ld_unit_zero (S := S2048x260) origin2, View.ld_unit_zero (S := S1x2048) origin2,
    View.ld_unit_zero (S := S1024x2048) origin2, View.ld_unit_zero (S := S1x1024) origin2, View.ld_unit_zero (S := S256x1024) origin2]

/-- At a first tile the scratch buffer is first set to zero, so it ends at the tile's contribution added to zero. -/
theorem totalFirst_eq (c : Dev nD) (i : grid1.Coords) (a2 : Memref sig .tc .vmem S256x260 .bf16) (h2 : a2.IsWhole) (a3 : Memref sig .tc .vmem S2048x260 .bf16) (h3 : a3.IsWhole) (a4 : Memref sig .tc .vmem S1x2048 .f32) (h4 : a4.IsWhole) (a5 : Memref sig .tc .vmem S1024x2048 .bf16) (h5 : a5.IsWhole) (a6 : Memref sig .tc .vmem S1x1024 .f32) (h6 : a6.IsWhole) (a7 : Memref sig .tc .vmem S256x1024 .f32) (h7 : a7.IsWhole) (a8 : Memref sig .tc .vmem S256x1024 .f32) (h8 : a8.IsWhole) (hc0 : isFirst i) (hc1 : ¬isLast i)
    (x0 : Vec F S256x260 .bf16) (x1 : Vec F S2048x260 .bf16) (x2 : Vec F S1x2048 .f32) (x3 : Vec F S1024x2048 .bf16) (x4 : Vec F S1x1024 .f32) :
    totalFirst c i a2 h2 a3 h3 a4 h4 a5 h5 a6 h6 a7 h7 a8 h8 hc0 hc1 x0 x1 x2 x3 x4 = k1_pay2 x0 x1 x2 x3 k1_pay1 := by
  unfold totalFirst
  rw [View.read_writes_eq_canon _ _ _ (totalCoverFirst c i a2 h2 a3 h3 a4 h4 a5 h5 a6 h6 a7 h7 a8 h8 hc0 hc1 x0 x1 x2 x3 x4)]
  unfold runFirst
  dsimp only
  sl_unfold_run_names
  rw [View.canon_cons_unit_zero (S := S256x1024) origin2]
  simp only [View.readCov_unit_zero (S := S256x1024) _ origin2, View.readAt_eq_ld, h2.read_unread, h3.read_unread, h4.read_unread, h5.read_unread, h6.read_unread, h8.read_unread,
    View.ld_unit_zero (S := S256x260) origin2, View.ld_unit_zero (S := S2048x260) origin2, View.ld_unit_zero (S := S1x2048) origin2,
    View.ld_unit_zero (S := S1024x2048) origin2, View.ld_unit_zero (S := S1x1024) origin2, View.ld_unit_zero (S := S256x1024) origin2]

end Cert.KernelIdeal.Hand

end
-- ==== Proof.KI.Blocks.lean ====
/-
  Where the second kernel's blocks sit in their arrays.  Point t = 32·h + k of the grid (h the half of the output
  units, k the tile of layer-three features) reads: the activations whole; rows 2048k … 2048k+2047 of the third weight
  matrix; the same stretch of its bias; the 1024 × 2048 tile (h, k) of the fourth weight matrix; and the stretch
  1024h … 1024h+1023 of the last bias.  An entry of a block is the array's entry at block index × block size + the
  position inside the block, axis by axis.
-/
import proofs.«175217_j66597762892542_2_alg».proof.Proof.KI.Second
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The block indices of the five inputs along the grid, read off the printed index maps. -/
theorem where_blocks : ∀ t : Fin cfg1.N,
    win1_0.index t (0 : Fin 2) = 0 ∧ win1_0.index t (1 : Fin 2) = 0
    ∧ win1_1.index t (0 : Fin 2) = t.val % 32 ∧ win1_1.index t (1 : Fin 2) = 0
    ∧ win1_2.index t (0 : Fin 2) = 0 ∧ win1_2.index t (1 : Fin 2) = t.val % 32
    ∧ win1_3.index t (0 : Fin 2) = t.val / 32 ∧ win1_3.index t (1 : Fin 2) = t.val % 32
    ∧ win1_4.index t (0 : Fin 2) = 0 ∧ win1_4.index t (1 : Fin 2) = t.val / 32
    ∧ win1_5.index t (0 : Fin 2) = 0 ∧ win1_5.index t (1 : Fin 2) = t.val / 32 :=
  (by decide +kernel : ∀ t : Fin grid1.N, _)

theorem pt_lt (t : Fin cfg1.N) : t.val < 64 := lt_of_lt_of_eq t.isLt (show cfg1.N = 64 from N_1)

/-- The activations' block is the whole array. -/
theorem acts_at (c : Dev nD) (t : Fin cfg1.N) (p : Fin 256) (k : Fin 260) :
    (blkB V c 0 t : Vec F S256x260 .bf16) (ix2 p k) = V c main_v4 (ix2 p k) := by
  obtain ⟨e0, e1, -⟩ := where_blocks t
  show V c main_v4 (((cfg1.win 0).blk t).view.emb (ix2 p k)) = _
  refine congrArg _ (funext fun a => Fin.ext ?_)
  match a with
  | ⟨0, _⟩ => show win1_0.index t (0 : Fin 2) * 256 + 1 * p.val = p.val; omega
  | ⟨1, _⟩ => show win1_0.index t (1 : Fin 2) * 260 + 1 * k.val = k.val; omega

/-- Row l of the third weight matrix's block is row 2048·(t mod 32) + l of the matrix. -/
theorem w3_at (c : Dev nD) (t : Fin cfg1.N) (l : Fin 2048) (k : Fin 260) :
    (blkB V c 1 t : Vec F S2048x260 .bf16) (ix2 l k)
      = V c main_v5 (ix2 (⟨t.val % 32 * 2048 + l.val, by have := l.isLt; omega⟩ : Fin 65536) k) := by
  obtain ⟨-, -, e0, e1, -⟩ := where_blocks t
  show V c main_v5 (((cfg1.win 1).blk t).view.emb (ix2 l k)) = _
  refine congrArg _ (funext fun a => Fin.ext ?_)
  match a with
  | ⟨0, _⟩ => show win1_1.index t (0 : Fin 2) * 2048 + 1 * l.val = t.val % 32 * 2048 + l.val; omega
  | ⟨1, _⟩ => show win1_1.index t (1 : Fin 2) * 260 + 1 * k.val = k.val; omega

/-- Entry l of the third bias's block is entry 2048·(t mod 32) + l of the (reshaped) bias. -/
theorem b3_at (c : Dev nD) (t : Fin cfg1.N) (l : Fin 2048) :
    (blkB V c 2 t : Vec F S1x2048 .f32) (ix2 (0 : Fin 1) l)
      = V c main_v2 (ix2 (0 : Fin 1) (⟨t.val % 32 * 2048 + l.val, by have := l.isLt; omega⟩ : Fin 65536)) := by
  obtain ⟨-, -, -, -, e0, e1, -⟩ := where_blocks t
  show V c main_v2 (((cfg1.win 2).blk t).view.emb (ix2 (0 : Fin 1) l)) = _
  refine congrArg _ (funext fun a => Fin.ext ?_)
  match a with
  | ⟨0, _⟩ => show win1_2.index t (0 : Fin 2) * 1 + 1 * 0 = 0; omega
  | ⟨1, _⟩ => show win1_2.index t (1 : Fin 2) * 2048 + 1 * l.val = t.val % 32 * 2048 + l.val; omega

/-- Entry (q, l) of the fourth weight matrix's block is entry (1024·(t div 32) + q, 2048·(t mod 32) + l) of the matrix. -/
theorem w4_at (c : Dev nD) (t : Fin cfg1.N) (q : Fin 1024) (l : Fin 2048) :
    (blkB V c 3 t : Vec F S1024x2048 .bf16) (ix2 q l)
      = V c main_v6 (ix2 (⟨t.val / 32 * 1024 + q.val, by have := q.isLt; have := pt_lt t; omega⟩ : Fin 2048)
          (⟨t.val % 32 * 2048 + l.val, by have := l.isLt; omega⟩ : Fin 65536)) := by
  obtain ⟨-, -, -, -, -, -, e0, e1, -⟩ := where_blocks t
  show V c main_v6 (((cfg1.win 3).blk t).view.emb (ix2 q l)) = _
  refine congrArg _ (funext fun a => Fin.ext ?_)
  match a with
  | ⟨0, _⟩ => show win1_3.index t (0 : Fin 2) * 1024 + 1 * q.val = t.val / 32 * 1024 + q.val; omega
  | ⟨1, _⟩ => show win1_3.index t (1 : Fin 2) * 2048 + 1 * l.val = t.val % 32 * 2048 + l.val; omega

/-- Entry q of the last bias's block is entry 1024·(t div 32) + q of the (reshaped) bias. -/
theorem b4_at (c : Dev nD) (t : Fin cfg1.N) (q : Fin 1024) :
    (blkB V c 4 t : Vec F S1x1024 .f32) (ix2 (0 : Fin 1) q)
      = V c main_v3 (ix2 (0 : Fin 1) (⟨t.val / 32 * 1024 + q.val, by have := q.isLt; have := pt_lt t; omega⟩ : Fin 2048)) := by
  obtain ⟨-, -, -, -, -, -, -, -, e0, e1, -⟩ := where_blocks t
  show V c main_v3 (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 1024 + 1 * q.val = t.val / 32 * 1024 + q.val; omega

end Cert.KernelIdeal.Hand

end
-- ==== Proof.KI.Contribution.lean ====
/-
  The second kernel's arithmetic on the extended reals, entry by entry.  With h the 256 × 260 activations, W the tile's
  2048 rows of the third weight matrix, b its 2048 biases, U the 1024 × 2048 tile of the fourth weight matrix and s the
  running total, the body's new total at (p, q) is
      s(p,q) + ∑ₗ max (∑ₖ h(p,k)·W(l,k) + b(l)) 0 · U(q,l),
  the reset value is zero everywhere, and the final value is max (s(p,q) + bias(q)) 0.
  A matrix product into a zero accumulator is the plain sum over the contracted axis; rounding to a narrower format is
  the identity on the extended reals.
-/
import proofs.«175217_j66597762892542_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- Layer three's product of a row of activations with a row of weights, both contracted along their second axis. -/
theorem thirdDot_l0 (i : S256x2048.Idx) (q : dot_S256x260_S2048x260_S256x2048_1_1_0_0_n_n.contr.Idx) : (dot_S256x260_S2048x260_S256x2048_1_1_0_0_n_n.lhsIdx i q 0).val = (i 0).val := by
  unfold DotDims.lhsIdx
  rw [dif_neg (show ¬(0 : Fin S256x260.rank) ∈ dot_S256x260_S2048x260_S256x2048_1_1_0_0_n_n.lhsBatch by decide), dif_pos (show (0 : Fin S256x260.rank) ∈ dot_S256x260_S2048x260_S256x2048_1_1_0_0_n_n.lhsNonContracting by decide)]
  rfl
theorem thirdDot_l1 (i : S256x2048.Idx) (q : dot_S256x260_S2048x260_S256x2048_1_1_0_0_n_n.contr.Idx) : (dot_S256x260_S2048x260_S256x2048_1_1_0_0_n_n.lhsIdx i q 1).val = (q ⟨0, by decide⟩).val :=
  dot_S256x260_S2048x260_S256x2048_1_1_0_0_n_n.lhsIdx_val_of_single rfl i q
theorem thirdDot_r0 (i : S256x2048.Idx) (q : dot_S256x260_S2048x260_S256x2048_1_1_0_0_n_n.contr.Idx) : (dot_S256x260_S2048x260_S256x2048_1_1_0_0_n_n.rhsIdx i q 0).val = (i 1).val := by
  unfold DotDims.rhsIdx
  rw [dif_neg (show ¬(0 : Fin S2048x260.rank) ∈ dot_S256x260_S2048x260_S256x2048_1_1_0_0_n_n.rhsBatch by decide), dif_pos (show (0 : Fin S2048x260.rank) ∈ dot_S256x260_S2048x260_S256x2048_1_1_0_0_n_n.rhsNonContracting by decide)]
  rfl
theorem thirdDot_r1 (i : S256x2048.Idx) (q : dot_S256x260_S2048x260_S256x2048_1_1_0_0_n_n.contr.Idx) : (dot_S256x260_S2048x260_S256x2048_1_1_0_0_n_n.rhsIdx i q 1).val = (q ⟨0, by decide⟩).val :=
  dot_S256x260_S2048x260_S256x2048_1_1_0_0_n_n.rhsIdx_val_of_single rfl i q
theorem thirdDot {φ₁ φ₂ : FTy} (l : FVec Ideal S256x260 φ₁) (r : FVec Ideal S2048x260 φ₂) (p : Fin 256) (q : Fin 2048) :
    matmul dot_S256x260_S2048x260_S256x2048_1_1_0_0_n_n none l r (constant S256x2048 .f32 0x00000000#32) (ix2 p q) = ∑ k : Fin 260, l (ix2 p k) * r (ix2 q k) := by
  simp only [matmul]
  rw [Ideal.matmul_constant_zero_apply, ← Equiv.sum_comp (ValueIdx.contrEquiv1 dot_S256x260_S2048x260_S256x2048_1_1_0_0_n_n 260 rfl rfl).symm]
  refine Finset.sum_congr rfl fun k _ => ?_
  have hk := ValueIdx.contrEquiv1_symm_val dot_S256x260_S2048x260_S256x2048_1_1_0_0_n_n 260 rfl rfl k
  have el : dot_S256x260_S2048x260_S256x2048_1_1_0_0_n_n.lhsIdx (ix2 p q) ((ValueIdx.contrEquiv1 dot_S256x260_S2048x260_S256x2048_1_1_0_0_n_n 260 rfl rfl).symm k) = ix2 p k := funext fun a => Fin.ext (by
    match a with
    | ⟨0, _⟩ => exact thirdDot_l0 _ _
    | ⟨1, _⟩ => exact (thirdDot_l1 _ _).trans hk)
  have er : dot_S256x260_S2048x260_S256x2048_1_1_0_0_n_n.rhsIdx (ix2 p q) ((ValueIdx.contrEquiv1 dot_S256x260_S2048x260_S256x2048_1_1_0_0_n_n 260 rfl rfl).symm k) = ix2 q k := funext fun a => Fin.ext (by
    match a with
    | ⟨0, _⟩ => exact thirdDot_r0 _ _
    | ⟨1, _⟩ => exact (thirdDot_r1 _ _).trans hk)
  rw [el, er]

/-- Layer four's partial product over one tile of 2048 features. -/
theorem fourthDot_l0 (i : S256x1024.Idx) (q : dot_S256x2048_S1024x2048_S256x1024_1_1_0_0_n_n.contr.Idx) : (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem fourthDot_l1 (i : S256x1024.Idx) (q : dot_S256x2048_S1024x2048_S256x1024_1_1_0_0_n_n.contr.Idx) : (dot_S256x2048_S1024x2048_S256x1024_1_1_0_0_n_n.lhsIdx i q 1).val = (q ⟨0, by decide⟩).val :=
  dot_S256x2048_S1024x2048_S256x1024_1_1_0_0_n_n.lhsIdx_val_of_single rfl i q
theorem fourthDot_r0 (i : S256x1024.Idx) (q : dot_S256x2048_S1024x2048_S256x1024_1_1_0_0_n_n.contr.Idx) : (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem fourthDot_r1 (i : S256x1024.Idx) (q : dot_S256x2048_S1024x2048_S256x1024_1_1_0_0_n_n.contr.Idx) : (dot_S256x2048_S1024x2048_S256x1024_1_1_0_0_n_n.rhsIdx i q 1).val = (q ⟨0, by decide⟩).val :=
  dot_S256x2048_S1024x2048_S256x1024_1_1_0_0_n_n.rhsIdx_val_of_single rfl i q
theorem fourthDot {φ₁ φ₂ : FTy} (l : FVec Ideal S256x2048 φ₁) (r : FVec Ideal S1024x2048 φ₂) (p : Fin 256) (q : Fin 1024) :
    matmul dot_S256x2048_S1024x2048_S256x1024_1_1_0_0_n_n none l r (constant S256x1024 .f32 0x00000000#32) (ix2 p q) = ∑ k : Fin 2048, l (ix2 p k) * r (ix2 q k) := by
  simp only [matmul]
  rw [Ideal.matmul_constant_zero_apply, ← Equiv.sum_comp (ValueIdx.contrEquiv1 dot_S256x2048_S1024x2048_S256x1024_1_1_0_0_n_n 2048 rfl rfl).symm]
  refine Finset.sum_congr rfl fun k _ => ?_
  have hk := ValueIdx.contrEquiv1_symm_val dot_S256x2048_S1024x2048_S256x1024_1_1_0_0_n_n 2048 rfl rfl k
  have el : dot_S256x2048_S1024x2048_S256x1024_1_1_0_0_n_n.lhsIdx (ix2 p q) ((ValueIdx.contrEquiv1 dot_S256x2048_S1024x2048_S256x1024_1_1_0_0_n_n 2048 rfl rfl).symm k) = ix2 p k := funext fun a => Fin.ext (by
    match a with
    | ⟨0, _⟩ => exact fourthDot_l0 _ _
    | ⟨1, _⟩ => exact (fourthDot_l1 _ _).trans hk)
  have er : dot_S256x2048_S1024x2048_S256x1024_1_1_0_0_n_n.rhsIdx (ix2 p q) ((ValueIdx.contrEquiv1 dot_S256x2048_S1024x2048_S256x1024_1_1_0_0_n_n 2048 rfl rfl).symm k) = ix2 q k := funext fun a => Fin.ext (by
    match a with
    | ⟨0, _⟩ => exact fourthDot_r0 _ _
    | ⟨1, _⟩ => exact (fourthDot_r1 _ _).trans hk)
  rw [el, er]

/-- The reset value: zero everywhere. -/
theorem pay1_apply (j : S256x1024.Idx) : k1_pay1 (F := Ideal) j = 0 := by
  unfold k1_pay1
  rw [shapeCast_self]
  show Ideal.ofBits .f32 0x00000000#32 = 0
  exact Ideal.ofBits_zero_f32

/-- The new total: the old one plus this tile's contribution. -/
theorem pay2_apply (x0 : Vec Ideal S256x260 .bf16) (x1 : Vec Ideal S2048x260 .bf16) (x2 : Vec Ideal S1x2048 .f32)
    (x3 : Vec Ideal S1024x2048 .bf16) (xs : Vec Ideal S256x1024 .f32) (p : Fin 256) (q : Fin 1024) :
    k1_pay2 (F := Ideal) x0 x1 x2 x3 xs (ix2 p q)
      = xs (ix2 p q) + ∑ l : Fin 2048, max ((∑ k : Fin 260, x0 (ix2 p k) * x1 (ix2 l k)) + x2 (ix2 (0 : Fin 1) l)) 0 * x3 (ix2 q l) := by
  unfold k1_pay2
  simp only [shapeCast_self]
  rw [addf_apply, fourthDot]
  refine congrArg _ (Finset.sum_congr rfl fun l _ => ?_)
  rw [truncf_apply, maximumf_apply, addf_apply, thirdDot, broadcastTo_1b_ab_apply, broadcast_apply]
  show max _ (Ideal.ofBits .f32 0x00000000#32) * _ = _
  rw [Ideal.ofBits_zero_f32]

/-- The final value: bias added, ramp applied. -/
theorem pay3_apply (acc : Vec Ideal S256x1024 .f32) (x4 : Vec Ideal S1x1024 .f32) (p : Fin 256) (q : Fin 1024) :
    k1_pay3 (F := Ideal) acc x4 (ix2 p q) = max (acc (ix2 p q) + x4 (ix2 (0 : Fin 1) q)) 0 := by
  unfold k1_pay3
  simp only [shapeCast_self]
  rw [maximumf_apply, addf_apply, broadcastTo_1b_ab_apply, broadcast_apply]
  show max _ (Ideal.ofBits .f32 0x00000000#32) = _
  rw [Ideal.ofBits_zero_f32]

end Cert.KernelIdeal.Hand

end
-- ==== Proof.Spec.lean ====
/-
  The function both programs compute, read on the extended reals: four dense layers, each followed by the
  ramp x ↦ max x 0.  A layer sends a batch `h` (rows i, features k), a weight matrix `W` (units j, features k)
  and a bias `b` (units j) to   out(i, j) = max (∑ₖ h(i,k) · W(j,k) + b(j)) 0.
  The last layer's sum runs over 65536 features; the kernel takes it 2048 features at a time, adding the
  thirty-two partial sums to a running total that starts at zero.  Sums on the extended reals commute and
  associate (they form a commutative monoid), so the tiled total is the whole sum: `tiled_sum`.
-/
import Idealize.ShloMosaic.PureOps.Ideal
import Idealize.ShloMosaic.Lib.ValueIdx

noncomputable section

namespace Cert.Mlp

open Idealize.ShloMosaic Idealize.ShloMosaic.ValueIdx

/-- One dense layer with the ramp, index by index: `out(i,j) = max (∑ₖ h(i,k)·W(j,k) + b(j)) 0`. -/
def dense {A B K : ℕ} (h : (⟨2, ![A, K]⟩ : Shape).Idx → EReal) (W : (⟨2, ![B, K]⟩ : Shape).Idx → EReal)
    (b : (⟨1, ![B]⟩ : Shape).Idx → EReal) : (⟨2, ![A, B]⟩ : Shape).Idx → EReal :=
  fun i => max ((∑ k : Fin K, h (ix2 (i 0) k) * W (ix2 (i 1) k)) + b (ix1 (i 1))) 0

/-- The four layers composed: 7 → 515 → 260 → 65536 → 2048 features on a batch of 256 rows. -/
def net (x : (⟨2, ![256, 7]⟩ : Shape).Idx → EReal)
    (W1 : (⟨2, ![515, 7]⟩ : Shape).Idx → EReal) (b1 : (⟨1, ![515]⟩ : Shape).Idx → EReal)
    (W2 : (⟨2, ![260, 515]⟩ : Shape).Idx → EReal) (b2 : (⟨1, ![260]⟩ : Shape).Idx → EReal)
    (W3 : (⟨2, ![65536, 260]⟩ : Shape).Idx → EReal) (b3 : (⟨1, ![65536]⟩ : Shape).Idx → EReal)
    (W4 : (⟨2, ![2048, 65536]⟩ : Shape).Idx → EReal) (b4 : (⟨1, ![2048]⟩ : Shape).Idx → EReal) :
    (⟨2, ![256, 2048]⟩ : Shape).Idx → EReal :=
  dense (dense (dense (dense x W1 b1) W2 b2) W3 b3) W4 b4

/-- The running total after `n` tiles of width `T`: zero, then each tile's partial sum added on the right. -/
def runningTotal (T : ℕ) (f : ℕ → EReal) : ℕ → EReal
  | 0 => 0
  | n + 1 => runningTotal T f n + ∑ l : Fin T, f (n * T + l.val)

/-- Adding tile after tile gives the sum over all `n * T` terms. -/
theorem runningTotal_eq (T : ℕ) (f : ℕ → EReal) (n : ℕ) :
    runningTotal T f n = ∑ j : Fin (n * T), f j.val := by
  induction n with
  | zero =>
    haveI : IsEmpty (Fin (0 * T)) := by rw [Nat.zero_mul]; infer_instance
    exact (Fintype.sum_empty _).symm
  | succ n ih =>
    rw [runningTotal, ih]
    have e : (n + 1) * T = n * T + T := Nat.succ_mul n T
    have h1 : ∑ j : Fin ((n + 1) * T), f j.val = ∑ j : Fin (n * T + T), f j.val :=
      Fin.sum_congr' (fun j : Fin (n * T + T) => f j.val) e
    rw [h1, Fin.sum_univ_add]
    simp

/-- The kernel's tiled total over thirty-two tiles of 2048 is the sum over all 65536 features. -/
theorem tiled_sum (f : ℕ → EReal) :
    runningTotal 2048 f 32 = ∑ j : Fin 65536, f j.val :=
  runningTotal_eq 2048 f 32

end Cert.Mlp

end
-- ==== Proof.KI.Total.lean ====
/-
  The running total, in closed form.  Fix a row p and an output unit n = 1024·h + q.  Write term(j) for the j-th
  summand of unit n's layer-four sum: layer three's activation (p, j) times the fourth weight (n, j).  A tile's
  contribution to the total at (p, q), read off the blocks, is the sum of term over the tile's 2048 features; so after
  point t = 32·h + k the scratch buffer holds at (p, q) the sum of the first k + 1 tiles, added tile after tile to
  zero.  After the last tile that is, by `Cert.Mlp.tiled_sum`, the sum over all 65536 features; the bias and the ramp
  then give the fourth layer's value at (p, n).
-/
import proofs.«175217_j66597762892542_2_alg».proof.Proof.KI.Pieces
import proofs.«175217_j66597762892542_2_alg».proof.Proof.KI.Blocks
import proofs.«175217_j66597762892542_2_alg».proof.Proof.KI.Contribution
import proofs.«175217_j66597762892542_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b)) (c : Dev nD)
variable (h2 : (⟨2, ![256, 260]⟩ : Shape).Idx → EReal) (W3 : (⟨2, ![65536, 260]⟩ : Shape).Idx → EReal)
  (b3 : (⟨1, ![65536]⟩ : Shape).Idx → EReal) (W4 : (⟨2, ![2048, 65536]⟩ : Shape).Idx → EReal) (b4 : (⟨1, ![2048]⟩ : Shape).Idx → EReal)

/-- The j-th summand of unit n's layer-four sum for row p (zero past the last feature). -/
def term (p : Fin 256) (n : Fin 2048) (j : ℕ) : EReal :=
  if hj : j < 65536 then Cert.Mlp.dense h2 W3 b3 (ix2 p (⟨j, hj⟩ : Fin 65536)) * W4 (ix2 n (⟨j, hj⟩ : Fin 65536)) else 0

/-- The unit that entry q of the output block of a point at position n belongs to. -/
abbrev unitOf (n : ℕ) (hn : n < 64) (q : Fin 1024) : Fin 2048 := ⟨n / 32 * 1024 + q.val, by have := q.isLt; omega⟩

/-- One step of the total, over any blocks that are tile `tile` of half `half`: the old total plus the tile's terms. -/
theorem step_eq (half tile : ℕ) (hh : half < 2) (ht : tile < 32)
    (x0 : Vec Ideal S256x260 .bf16) (x1 : Vec Ideal S2048x260 .bf16) (x2 : Vec Ideal S1x2048 .f32) (x3 : Vec Ideal S1024x2048 .bf16)
    (xs : Vec Ideal S256x1024 .f32)
    (hx0 : ∀ (p : Fin 256) (k : Fin 260), x0 (ix2 p k) = h2 (ix2 p k))
    (hx1 : ∀ (l : Fin 2048) (k : Fin 260), x1 (ix2 l k) = W3 (ix2 (⟨tile * 2048 + l.val, by have := l.isLt; omega⟩ : Fin 65536) k))
    (hx2 : ∀ l : Fin 2048, x2 (ix2 (0 : Fin 1) l) = b3 (ix1 (⟨tile * 2048 + l.val, by have := l.isLt; omega⟩ : Fin 65536)))
    (hx3 : ∀ (q : Fin 1024) (l : Fin 2048), x3 (ix2 q l)
      = W4 (ix2 (⟨half * 1024 + q.val, by have := q.isLt; omega⟩ : Fin 2048) (⟨tile * 2048 + l.val, by have := l.isLt; omega⟩ : Fin 65536)))
    (p : Fin 256) (q : Fin 1024) :
    k1_pay2 (F := Ideal) x0 x1 x2 x3 xs (ix2 p q)
      = xs (ix2 p q) + ∑ l : Fin 2048, term h2 W3 b3 W4 p (⟨half * 1024 + q.val, by have := q.isLt; omega⟩ : Fin 2048) (tile * 2048 + l.val) := by
  rw [pay2_apply]
  refine congrArg _ (Finset.sum_congr rfl fun l _ => ?_)
  have hj : tile * 2048 + l.val < 65536 := by have := l.isLt; omega
  rw [term, dif_pos hj, hx3, hx2]
  simp only [hx0, hx1]
  rfl

/-- The step at a point of the grid: its blocks are tile (t mod 32) of half (t div 32). -/
theorem step_at (e0 : V c main_v4 = h2) (e1 : V c main_v5 = W3) (e2 : V c main_v2 = fun i => b3 (ix1 (i 1))) (e3 : V c main_v6 = W4)
    (t : Fin cfg1.N) (xs : Vec Ideal S256x1024 .f32) (p : Fin 256) (q : Fin 1024) :
    k1_pay2 (F := Ideal) (blkB V c 0 t) (blkB V c 1 t) (blkB V c 2 t) (blkB V c 3 t) xs (ix2 p q)
      = xs (ix2 p q) + ∑ l : Fin 2048, term h2 W3 b3 W4 p (unitOf t.val (pt_lt t) q) (t.val % 32 * 2048 + l.val) :=
  step_eq h2 W3 b3 W4 (t.val / 32) (t.val % 32) (by have := pt_lt t; omega) (by omega) _ _ _ _ xs
    (fun p k => (acts_at V c t p k).trans (congrFun e0 _))
    (fun l k => (w3_at V c t l k).trans (congrFun e1 _))
    (fun l => (b3_at V c t l).trans (congrFun e2 _))
    (fun q l => (w4_at V c t q l).trans (congrFun e3 _)) p q

/-- After point n the scratch buffer holds, at (p, q), the first (n mod 32) + 1 tiles of unit (n div 32, q)'s sum. -/
theorem total_eq (e0 : V c main_v4 = h2) (e1 : V c main_v5 = W3) (e2 : V c main_v2 = fun i => b3 (ix1 (i 1))) (e3 : V c main_v6 = W4) :
    ∀ (n : ℕ) (hn : n < cfg1.N) (p : Fin 256) (q : Fin 1024),
      totalAt V c n hn (ix2 p q)
        = Cert.Mlp.runningTotal 2048 (term h2 W3 b3 W4 p (unitOf n (pt_lt ⟨n, hn⟩) q)) (n % 32 + 1) := by
  intro n
  induction n with
  | zero =>
    intro hn p q
    rw [totalAt_first V c ⟨0, hn⟩ rfl (by show ¬ (0 : ℕ) % 32 = 31; decide), totalFirst_eq,
      step_at V c h2 W3 b3 W4 e0 e1 e2 e3 ⟨0, hn⟩, pay1_apply]
    rfl
  | succ n ih =>
    intro hn p q
    have hN : n + 1 < 64 := pt_lt ⟨n + 1, hn⟩
    by_cases h0 : (n + 1) % 32 = 0
    · have h1 : ¬(n + 1) % 32 = 31 := by omega
      rw [totalAt_first V c ⟨n + 1, hn⟩ h0 h1, totalFirst_eq, step_at V c h2 W3 b3 W4 e0 e1 e2 e3 ⟨n + 1, hn⟩, pay1_apply]
      show (0 : EReal) + ∑ l : Fin 2048, term h2 W3 b3 W4 p (unitOf (n + 1) hN q) ((n + 1) % 32 * 2048 + l.val)
        = Cert.Mlp.runningTotal 2048 (term h2 W3 b3 W4 p (unitOf (n + 1) hN q)) ((n + 1) % 32 + 1)
      rw [h0]
      rfl
    · have hprev := ih (Nat.lt_of_succ_lt hn) p q
      have hu : unitOf n (pt_lt ⟨n, Nat.lt_of_succ_lt hn⟩) q = unitOf (n + 1) hN q :=
        Fin.ext (by show n / 32 * 1024 + q.val = (n + 1) / 32 * 1024 + q.val; omega)
      have hk : n % 32 + 1 = (n + 1) % 32 := by omega
      rw [hu, hk] at hprev
      have hstep : totalAt V c (n + 1) hn (ix2 p q)
          = totalAt V c n (Nat.lt_of_succ_lt hn) (ix2 p q)
            + ∑ l : Fin 2048, term h2 W3 b3 W4 p (unitOf (n + 1) hN q) ((n + 1) % 32 * 2048 + l.val) := by
        by_cases h1 : (n + 1) % 32 = 31
        · rw [totalAt_last V c ⟨n + 1, hn⟩ h0 h1, totalLast_eq, step_at V c h2 W3 b3 W4 e0 e1 e2 e3 ⟨n + 1, hn⟩]; rfl
        · rw [totalAt_mid V c ⟨n + 1, hn⟩ h0 h1, totalMid_eq, step_at V c h2 W3 b3 W4 e0 e1 e2 e3 ⟨n + 1, hn⟩]; rfl
      rw [hstep, hprev]
      rfl

/-- The sum of all the terms is unit n's layer-four sum. -/
theorem sum_term (p : Fin 256) (n : Fin 2048) :
    ∑ j : Fin 65536, term h2 W3 b3 W4 p n j.val = ∑ j : Fin 65536, Cert.Mlp.dense h2 W3 b3 (ix2 p j) * W4 (ix2 n j) :=
  Finset.sum_congr rfl fun j _ => by rw [term, dif_pos j.isLt]

/-- The last step over variables: bias added to the finished sum, ramp applied. -/
theorem last_eq (n : Fin 2048) (acc : Vec Ideal S256x1024 .f32) (x4 : Vec Ideal S1x1024 .f32) (p : Fin 256) (q : Fin 1024)
    (hacc : acc (ix2 p q) = Cert.Mlp.runningTotal 2048 (term h2 W3 b3 W4 p n) 32)
    (hx4 : x4 (ix2 (0 : Fin 1) q) = b4 (ix1 n)) :
    k1_pay3 (F := Ideal) acc x4 (ix2 p q) = Cert.Mlp.dense (Cert.Mlp.dense h2 W3 b3) W4 b4 (ix2 p n) := by
  rw [pay3_apply, hacc, hx4, Cert.Mlp.tiled_sum, sum_term]
  rfl

/-- At a last-tile point the output buffer holds the fourth layer: at (p, q) the network's value at (p, 1024·h + q). -/
theorem out_eq (e0 : V c main_v4 = h2) (e1 : V c main_v5 = W3) (e2 : V c main_v2 = fun i => b3 (ix1 (i 1))) (e3 : V c main_v6 = W4)
    (e4 : V c main_v3 = fun i => b4 (ix1 (i 1)))
    (t : Fin cfg1.N) (h1 : t.val % 32 = 31) (p : Fin 256) (q : Fin 1024) :
    outAt V c t (ix2 p q) = Cert.Mlp.dense (Cert.Mlp.dense h2 W3 b3) W4 b4 (ix2 p (unitOf t.val (pt_lt t) q)) := by
  have h0 : ¬t.val % 32 = 0 := by omega
  have htot := total_eq V c h2 W3 b3 W4 e0 e1 e2 e3 t.val t.isLt p q
  rw [totalAt_last V c t h0 h1, totalLast_eq, h1] at htot
  rw [outAt_last V c t h0 h1, outLast_eq]
  exact last_eq h2 W3 b3 W4 b4 (unitOf t.val (pt_lt t) q) _ _ p q htot ((b4_at V c t q).trans (congrFun e4 _))

end Cert.KernelIdeal.Hand

end
-- ==== Proof.KI.Result.lean ====
/-
  The result array after the second kernel.  Its output block at point t = 32·h + k is columns 1024·h … 1024·h+1023 of the
  256 × 2048 result, written back at the last tile (k = 31) only; the two last-tile points' blocks are the two halves of
  the array, so together they cover it, and each is written with the network's values there.  Hence the array ends holding
  the fourth layer applied to what the kernel was entered with.
-/
import proofs.«175217_j66597762892542_2_alg».proof.Proof.KI.Total

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b)) (c : Dev nD)
variable (h2 : (⟨2, ![256, 260]⟩ : Shape).Idx → EReal) (W3 : (⟨2, ![65536, 260]⟩ : Shape).Idx → EReal)
  (b3 : (⟨1, ![65536]⟩ : Shape).Idx → EReal) (W4 : (⟨2, ![2048, 65536]⟩ : Shape).Idx → EReal) (b4 : (⟨1, ![2048]⟩ : Shape).Idx → EReal)

/-- Entry (p, q) of point t's output block is entry (p, 1024·(t div 32) + q) of the result array. -/
theorem out_block_at (t : Fin cfg1.N) (p : Fin 256) (q : Fin 1024) :
    ((cfg1.win 5).blk t).view.emb (ix2 p q) = (ix2 p (unitOf t.val (pt_lt t) q) : S256x2048.Idx) := by
  obtain ⟨-, -, -, -, -, -, -, -, -, -, e0, e1⟩ := where_blocks t
  refine funext fun a => Fin.ext ?_
  match a with
  | ⟨0, _⟩ => show win1_5.index t (0 : Fin 2) * 256 + 1 * p.val = p.val; omega
  | ⟨1, _⟩ => show win1_5.index t (1 : Fin 2) * 1024 + 1 * q.val = t.val / 32 * 1024 + q.val; omega

/-- Entry by entry: what a last-tile point leaves at (p, q) of its output buffer is the network's value at the array
    entry the block's (p, q) sits at. -/
theorem written_at (e0 : V c main_v4 = h2) (e1 : V c main_v5 = W3) (e2 : V c main_v2 = fun i => b3 (ix1 (i 1))) (e3 : V c main_v6 = W4)
    (e4 : V c main_v3 = fun i => b4 (ix1 (i 1))) (t : Fin cfg1.N) (h1 : t.val % 32 = 31) (p : Fin 256) (q : Fin 1024) :
    outAt V c t (ix2 p q) = Cert.Mlp.dense (Cert.Mlp.dense h2 W3 b3) W4 b4 (((cfg1.win 5).blk t).view.emb (ix2 p q)) := by
  rw [out_block_at]
  exact out_eq V c h2 W3 b3 W4 b4 e0 e1 e2 e3 e4 t h1 p q

/-- What a last-tile point writes back is its block of the network's values. -/
theorem written_back (e0 : V c main_v4 = h2) (e1 : V c main_v5 = W3) (e2 : V c main_v2 = fun i => b3 (ix1 (i 1))) (e3 : V c main_v6 = W4)
    (e4 : V c main_v3 = fun i => b4 (ix1 (i 1))) (t : Fin cfg1.N) (hf : (cfg1.win 5).flush t = true) :
    (datB V c).flushed 5 t = ((cfg1.win 5).blk t).view.read (Elt Ideal) (Cert.Mlp.dense (Cert.Mlp.dense h2 W3 b3) W4 b4) := by
  have h1 : t.val % 32 = 31 := (flush1_5 t).mp hf
  show (cfg1.win 5).cut (grid1.coords t) ((datB V c).after 5 t) = _
  rw [afterB_5]
  refine funext fun (y : S256x1024.Idx) => ?_
  show outAt V c t y = Cert.Mlp.dense (Cert.Mlp.dense h2 W3 b3) W4 b4 (((cfg1.win 5).blk t).view.emb y)
  obtain ⟨p, q, rfl⟩ : ∃ (p : Fin 256) (q : Fin 1024), y = ix2 p q := ⟨y 0, y 1, eq_ix2 y⟩
  exact written_at V c h2 W3 b3 W4 b4 e0 e1 e2 e3 e4 t h1 p q

/-- An index of the result array lies in point t's block iff each coordinate lies in the block's range. -/
theorem mem_out_block (t : Fin cfg1.N) (i : S256x2048.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v7).slice (win1_5.rect t)).set ↔ _
  rw [View.set_slice_whole, Rect.mem_set_unit]
  exact Iff.rfl

/-- Every index of the result array lies in the block of a point that writes back. -/
theorem covered (i : S256x2048.Idx) : ∃ t : Fin cfg1.N, (cfg1.win 5).flush t = true ∧ i ∈ ((cfg1.win 5).blk t).view.set := by
  have hi0 : (i 0).val < 256 := (i 0).isLt
  have hi1 : (i 1).val < 2048 := (i 1).isLt
  have hN : cfg1.N = 64 := N_1
  let t : Fin cfg1.N := ⟨(i 1).val / 1024 * 32 + 31, by omega⟩
  have ht : t.val = (i 1).val / 1024 * 32 + 31 := rfl
  obtain ⟨-, -, -, -, -, -, -, -, -, -, e0, e1⟩ := where_blocks t
  refine ⟨t, (flush1_5 t).mpr (by omega), ?_⟩
  rw [mem_out_block]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1024 ≤ (i 1).val ∧ (i 1).val < win1_5.index t (1 : Fin 2) * 1024 + 1024; omega

/-- The result array after the second kernel: the fourth layer of what the kernel was entered with. -/
theorem fused_result (e0 : V c main_v4 = h2) (e1 : V c main_v5 = W3) (e2 : V c main_v2 = fun i => b3 (ix1 (i 1))) (e3 : V c main_v6 = W4)
    (e4 : V c main_v3 = fun i => b4 (ix1 (i 1))) :
    (datB V c).arrAt 5 cfg1.N = Cert.Mlp.dense (Cert.Mlp.dense h2 W3 b3) W4 b4 :=
  (datB V c).arrAt_eq_of_cover 5 _ (fun t hf => written_back V c h2 W3 b3 W4 b4 e0 e1 e2 e3 e4 t hf) covered

end Cert.KernelIdeal.Hand

end
-- ==== Proof.KI.FirstValue.lean ====
/-
  The first kernel's result as a value on the extended reals: after it, the 256 × 260 array holds the first two
  dense layers of the arrays the kernel found.

  The body's stored value is two rounds of the same operations: a contraction of the batch with the weights over
  the feature axis of both (into a zero accumulator, so just the sum  ∑ₖ h(i,k) · W(j,k)), plus the bias row
  broadcast down the batch, then the maximum with zero; the final narrowing of the format is the identity on the
  extended reals.  With bias rows that hold b along their second axis, each round is the specification's dense
  layer, so the stored value is  dense (dense x W1 b1) W2 b2.

  The grid has one point, every block index is zero and every block is as large as its array: each input block is
  its whole array, the one store covers the output buffer, and the one write-back covers the output array.  So
  the array after the kernel is that function.
-/
import proofs.«175217_j66597762892542_2_alg».proof.Proof.KI.First
import proofs.«175217_j66597762892542_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The two contractions at an index

Both contractions run over axis 1 of both operands: the result's row picks the left operand's row, the result's
column picks the right operand's row, and the contraction position is the second coordinate of each. -/

theorem lhsA_0 (j : S256x515.Idx) (q : dot_S256x7_S515x7_S256x515_1_1_0_0_n_n.contr.Idx) :
    (dot_S256x7_S515x7_S256x515_1_1_0_0_n_n.lhsIdx j q 0).val = (j 0).val := by
  unfold DotDims.lhsIdx
  rw [dif_neg (show ¬(0 : Fin S256x7.rank) ∈ dot_S256x7_S515x7_S256x515_1_1_0_0_n_n.lhsBatch by decide),
    dif_pos (show (0 : Fin S256x7.rank) ∈ dot_S256x7_S515x7_S256x515_1_1_0_0_n_n.lhsNonContracting by decide)]
  rfl
theorem lhsA_1 (j : S256x515.Idx) (q : dot_S256x7_S515x7_S256x515_1_1_0_0_n_n.contr.Idx) :
    (dot_S256x7_S515x7_S256x515_1_1_0_0_n_n.lhsIdx j q 1).val = (q ⟨0, by decide⟩).val :=
  dot_S256x7_S515x7_S256x515_1_1_0_0_n_n.lhsIdx_val_of_single rfl j q
theorem rhsA_0 (j : S256x515.Idx) (q : dot_S256x7_S515x7_S256x515_1_1_0_0_n_n.contr.Idx) :
    (dot_S256x7_S515x7_S256x515_1_1_0_0_n_n.rhsIdx j q 0).val = (j 1).val := by
  unfold DotDims.rhsIdx
  rw [dif_neg (show ¬(0 : Fin S515x7.rank) ∈ dot_S256x7_S515x7_S256x515_1_1_0_0_n_n.rhsBatch by decide),
    dif_pos (show (0 : Fin S515x7.rank) ∈ dot_S256x7_S515x7_S256x515_1_1_0_0_n_n.rhsNonContracting by decide)]
  rfl
theorem rhsA_1 (j : S256x515.Idx) (q : dot_S256x7_S515x7_S256x515_1_1_0_0_n_n.contr.Idx) :
    (dot_S256x7_S515x7_S256x515_1_1_0_0_n_n.rhsIdx j q 1).val = (q ⟨0, by decide⟩).val :=
  dot_S256x7_S515x7_S256x515_1_1_0_0_n_n.rhsIdx_val_of_single rfl j q

/-- The first contraction into the zero accumulator, at row `p` and column `q`: `∑ₖ h(p,k) · W(q,k)` over the 7 features. -/
theorem matmulA_apply (h : FVec Ideal S256x7 .f32) (W : FVec Ideal S515x7 .f32) (p : Fin 256) (q : Fin 515) :
    matmul dot_S256x7_S515x7_S256x515_1_1_0_0_n_n (some .fp32) h W (constant S256x515 .f32 0x00000000#32) (ix2 p q)
      = ∑ k : Fin 7, h (ix2 p k) * W (ix2 q k) := by
  refine (Ideal.matmul_constant_zero_apply dot_S256x7_S515x7_S256x515_1_1_0_0_n_n (some .fp32) h W (ix2 p q)).trans ?_
  rw [← Equiv.sum_comp (contrEquiv1 dot_S256x7_S515x7_S256x515_1_1_0_0_n_n 7 rfl rfl).symm]
  refine Finset.sum_congr rfl fun k _ => ?_
  have hk := contrEquiv1_symm_val dot_S256x7_S515x7_S256x515_1_1_0_0_n_n 7 rfl rfl k
  have el : dot_S256x7_S515x7_S256x515_1_1_0_0_n_n.lhsIdx (ix2 p q) ((contrEquiv1 dot_S256x7_S515x7_S256x515_1_1_0_0_n_n 7 rfl rfl).symm k) = ix2 p k :=
    funext fun a => Fin.ext (by
      match a with
      | ⟨0, _⟩ => exact lhsA_0 _ _
      | ⟨1, _⟩ => exact (lhsA_1 _ _).trans hk)
  have er : dot_S256x7_S515x7_S256x515_1_1_0_0_n_n.rhsIdx (ix2 p q) ((contrEquiv1 dot_S256x7_S515x7_S256x515_1_1_0_0_n_n 7 rfl rfl).symm k) = ix2 q k :=
    funext fun a => Fin.ext (by
      match a with
      | ⟨0, _⟩ => exact rhsA_0 _ _
      | ⟨1, _⟩ => exact (rhsA_1 _ _).trans hk)
  rw [el, er]

theorem lhsB_0 (j : S256x260.Idx) (q : dot_S256x515_S260x515_S256x260_1_1_0_0_n_n.contr.Idx) :
    (dot_S256x515_S260x515_S256x260_1_1_0_0_n_n.lhsIdx j q 0).val = (j 0).val := by
  unfold DotDims.lhsIdx
  rw [dif_neg (show ¬(0 : Fin S256x515.rank) ∈ dot_S256x515_S260x515_S256x260_1_1_0_0_n_n.lhsBatch by decide),
    dif_pos (show (0 : Fin S256x515.rank) ∈ dot_S256x515_S260x515_S256x260_1_1_0_0_n_n.lhsNonContracting by decide)]
  rfl
theorem lhsB_1 (j : S256x260.Idx) (q : dot_S256x515_S260x515_S256x260_1_1_0_0_n_n.contr.Idx) :
    (dot_S256x515_S260x515_S256x260_1_1_0_0_n_n.lhsIdx j q 1).val = (q ⟨0, by decide⟩).val :=
  dot_S256x515_S260x515_S256x260_1_1_0_0_n_n.lhsIdx_val_of_single rfl j q
theorem rhsB_0 (j : S256x260.Idx) (q : dot_S256x515_S260x515_S256x260_1_1_0_0_n_n.contr.Idx) :
    (dot_S256x515_S260x515_S256x260_1_1_0_0_n_n.rhsIdx j q 0).val = (j 1).val := by
  unfold DotDims.rhsIdx
  rw [dif_neg (show ¬(0 : Fin S260x515.rank) ∈ dot_S256x515_S260x515_S256x260_1_1_0_0_n_n.rhsBatch by decide),
    dif_pos (show (0 : Fin S260x515.rank) ∈ dot_S256x515_S260x515_S256x260_1_1_0_0_n_n.rhsNonContracting by decide)]
  rfl
theorem rhsB_1 (j : S256x260.Idx) (q : dot_S256x515_S260x515_S256x260_1_1_0_0_n_n.contr.Idx) :
    (dot_S256x515_S260x515_S256x260_1_1_0_0_n_n.rhsIdx j q 1).val = (q ⟨0, by decide⟩).val :=
  dot_S256x515_S260x515_S256x260_1_1_0_0_n_n.rhsIdx_val_of_single rfl j q

/-- The second contraction into the zero accumulator, at row `p` and column `q`: `∑ₖ h(p,k) · W(q,k)` over the 515 features. -/
theorem matmulB_apply (h : FVec Ideal S256x515 .f32) (W : FVec Ideal S260x515 .f32) (p : Fin 256) (q : Fin 260) :
    matmul dot_S256x515_S260x515_S256x260_1_1_0_0_n_n (some .fp32) h W (constant S256x260 .f32 0x00000000#32) (ix2 p q)
      = ∑ k : Fin 515, h (ix2 p k) * W (ix2 q k) := by
  refine (Ideal.matmul_constant_zero_apply dot_S256x515_S260x515_S256x260_1_1_0_0_n_n (some .fp32) h W (ix2 p q)).trans ?_
  rw [← Equiv.sum_comp (contrEquiv1 dot_S256x515_S260x515_S256x260_1_1_0_0_n_n 515 rfl rfl).symm]
  refine Finset.sum_congr rfl fun k _ => ?_
  have hk := contrEquiv1_symm_val dot_S256x515_S260x515_S256x260_1_1_0_0_n_n 515 rfl rfl k
  have el : dot_S256x515_S260x515_S256x260_1_1_0_0_n_n.lhsIdx (ix2 p q) ((contrEquiv1 dot_S256x515_S260x515_S256x260_1_1_0_0_n_n 515 rfl rfl).symm k) = ix2 p k :=
    funext fun a => Fin.ext (by
      match a with
      | ⟨0, _⟩ => exact lhsB_0 _ _
      | ⟨1, _⟩ => exact (lhsB_1 _ _).trans hk)
  have er : dot_S256x515_S260x515_S256x260_1_1_0_0_n_n.rhsIdx (ix2 p q) ((contrEquiv1 dot_S256x515_S260x515_S256x260_1_1_0_0_n_n 515 rfl rfl).symm k) = ix2 q k :=
    funext fun a => Fin.ext (by
      match a with
      | ⟨0, _⟩ => exact rhsB_0 _ _
      | ⟨1, _⟩ => exact (rhsB_1 _ _).trans hk)
  rw [el, er]

/-! ## One layer as the kernel computes it

The contraction into a zero accumulator, plus the bias row broadcast down the batch, then the maximum with the
zero splat.  With the bias row holding `b` along its second axis this is the specification's dense layer. -/

/-- The first layer's operations, of the batch, the weights and the bias row. -/
def kLayer1 (h : FVec Ideal S256x7 .f32) (W : FVec Ideal S515x7 .f32) (r : FVec Ideal S1x515 .f32) : FVec Ideal S256x515 .f32 :=
  maximumf (addf (matmul dot_S256x7_S515x7_S256x515_1_1_0_0_n_n (some .fp32) h W (constant S256x515 .f32 0x00000000#32))
      (broadcastTo S256x515 (shapeCast S1x515 r shapeCasts_S1x515_S1x515) broadcasts_S1x515_S256x515))
    (broadcast S256x515 (Scalar.ofBits .f32 0x00000000#32))

/-- The second layer's operations, of the first layer's result, the weights and the bias row. -/
def kLayer2 (h : FVec Ideal S256x515 .f32) (W : FVec Ideal S260x515 .f32) (r : FVec Ideal S1x260 .f32) : FVec Ideal S256x260 .f32 :=
  maximumf (addf (matmul dot_S256x515_S260x515_S256x260_1_1_0_0_n_n (some .fp32) h W (constant S256x260 .f32 0x00000000#32))
      (broadcastTo S256x260 (shapeCast S1x260 r shapeCasts_S1x260_S1x260) broadcasts_S1x260_S256x260))
    (broadcast S256x260 (Scalar.ofBits .f32 0x00000000#32))

/-- The first layer is the dense layer 7 → 515. -/
theorem kLayer1_eq (h : FVec Ideal S256x7 .f32) (W : FVec Ideal S515x7 .f32) (b : (⟨1, ![515]⟩ : Shape).Idx → EReal) :
    kLayer1 h W (fun i => b (ix1 (i 1))) = Cert.Mlp.dense h W b := by
  funext i
  obtain ⟨p, q, rfl⟩ : ∃ (p : Fin 256) (q : Fin 515), i = ix2 p q := ⟨i 0, i 1, eq_ix2 i⟩
  show max (matmul _ (some .fp32) h W (constant S256x515 .f32 0x00000000#32) (ix2 p q)
      + broadcastTo S256x515 (shapeCast S1x515 (fun i => b (ix1 (i 1))) shapeCasts_S1x515_S1x515) broadcasts_S1x515_S256x515 (ix2 p q))
    (Ideal.ofBits .f32 0x00000000#32) = max ((∑ k : Fin 7, h (ix2 p k) * W (ix2 q k)) + b (ix1 q)) 0
  rw [matmulA_apply, shapeCast_self, broadcastTo_1b_ab_apply, Ideal.ofBits_zero_f32]

/-- The second layer is the dense layer 515 → 260. -/
theorem kLayer2_eq (h : FVec Ideal S256x515 .f32) (W : FVec Ideal S260x515 .f32) (b : (⟨1, ![260]⟩ : Shape).Idx → EReal) :
    kLayer2 h W (fun i => b (ix1 (i 1))) = Cert.Mlp.dense h W b := by
  funext i
  obtain ⟨p, q, rfl⟩ : ∃ (p : Fin 256) (q : Fin 260), i = ix2 p q := ⟨i 0, i 1, eq_ix2 i⟩
  show max (matmul _ (some .fp32) h W (constant S256x260 .f32 0x00000000#32) (ix2 p q)
      + broadcastTo S256x260 (shapeCast S1x260 (fun i => b (ix1 (i 1))) shapeCasts_S1x260_S1x260) broadcasts_S1x260_S256x260 (ix2 p q))
    (Ideal.ofBits .f32 0x00000000#32) = max ((∑ k : Fin 515, h (ix2 p k) * W (ix2 q k)) + b (ix1 q)) 0
  rw [matmulB_apply, shapeCast_self, broadcastTo_1b_ab_apply, Ideal.ofBits_zero_f32]

/-! ## The stored value -/

/-- The value the body stores is the second layer of the first; narrowing the format changes nothing on the
    extended reals. -/
theorem pay1_split (x0 : Vec Ideal S256x7 .f32) (x1 : Vec Ideal S515x7 .f32) (x2 : Vec Ideal S1x515 .f32)
    (x3 : Vec Ideal S260x515 .f32) (x4 : Vec Ideal S1x260 .f32) :
    k0_pay1 (F := Ideal) x0 x1 x2 x3 x4 = kLayer2 (kLayer1 x0 x1 x2) x3 x4 := rfl

/-- With bias rows holding `b1` and `b2`, the stored value is the two dense layers composed. -/
theorem pay1_eq (x0 : Vec Ideal S256x7 .f32) (x1 : Vec Ideal S515x7 .f32) (x3 : Vec Ideal S260x515 .f32)
    (b1 : (⟨1, ![515]⟩ : Shape).Idx → EReal) (b2 : (⟨1, ![260]⟩ : Shape).Idx → EReal) :
    k0_pay1 (F := Ideal) x0 x1 (fun i => b1 (ix1 (i 1))) x3 (fun i => b2 (ix1 (i 1)))
      = Cert.Mlp.dense (Cert.Mlp.dense x0 x1 b1) x3 b2 := by
  rw [pay1_split, kLayer1_eq, kLayer2_eq]

/-! ## From the one block to the array

The grid has one point and every window's block index is zero on both axes with the block as large as the
array, so each input block is its whole array and the output's one block is the whole output. -/

/-- The zero offsets, as the stores and loads spell them. -/
theorem hzA : (![0, 0] : Fin 2 → Nat) = fun _ => 0 := funext fun a => by fin_cases a <;> rfl

/-- What the body leaves in the output buffer, from whole input buffers whose bias rows hold `b1` and `b2`: the
    two dense layers.  One store through the whole rectangle leaves its value; a load through it reads the buffer. -/
theorem outA_eq (x0 : Vec Ideal S256x7 .f32) (x1 : Vec Ideal S515x7 .f32) (x3 : Vec Ideal S260x515 .f32)
    (b1 : (⟨1, ![515]⟩ : Shape).Idx → EReal) (b2 : (⟨1, ![260]⟩ : Shape).Idx → EReal) :
    outA (F := Ideal) x0 x1 (fun i => b1 (ix1 (i 1))) x3 (fun i => b2 (ix1 (i 1)))
      = Cert.Mlp.dense (Cert.Mlp.dense x0 x1 b1) x3 b2 := by
  unfold outA
  rw [View.canon_unit_zero hzA]
  simp only [View.ld_unit_zero (S := S256x7) hzA, View.ld_unit_zero (S := S515x7) hzA, View.ld_unit_zero (S := S1x515) hzA,
    View.ld_unit_zero (S := S260x515) hzA, View.ld_unit_zero (S := S1x260) hzA]
  exact pay1_eq x0 x1 x3 b1 b2

variable (V : (c : Dev nD) → (b : Ref sig .tc) → Buf (Elt Ideal) ((c : Thread nD τ).loc b))

/-- Every window's block index is zero on both axes at every point, decided over the grid. -/
theorem idxA_facts : ∀ t : Fin cfg0.N,
    (∀ a : Fin 2, win0_0.index t a = 0) ∧ (∀ a : Fin 2, win0_1.index t a = 0) ∧ (∀ a : Fin 2, win0_2.index t a = 0)
    ∧ (∀ a : Fin 2, win0_3.index t a = 0) ∧ (∀ a : Fin 2, win0_4.index t a = 0) ∧ (∀ a : Fin 2, win0_5.index t a = 0) :=
  (by decide +kernel : ∀ t : Fin grid0.N, _)

/-! Each input block is its whole array. -/

theorem blkA_0 (c : Dev nD) (t : Fin cfg0.N) : blkA V c 0 t = V c main_arg0 := by
  have hz' : (fun a => win0_0.index t a * main_arg0.ty.shape.size a) = fun _ => 0 :=
    funext fun a => by rw [(idxA_facts t).1 a, Nat.zero_mul]
  exact Memref.read_access_unit_zero (Elt Ideal) main_arg0 hz' (fun a => by rw [congrFun hz' a]; simp) (V c main_arg0)

theorem blkA_1 (c : Dev nD) (t : Fin cfg0.N) : blkA V c 1 t = V c main_arg1 := by
  have hz' : (fun a => win0_1.index t a * main_arg1.ty.shape.size a) = fun _ => 0 :=
    funext fun a => by rw [(idxA_facts t).2.1 a, Nat.zero_mul]
  exact Memref.read_access_unit_zero (Elt Ideal) main_arg1 hz' (fun a => by rw [congrFun hz' a]; simp) (V c main_arg1)

theorem blkA_2 (c : Dev nD) (t : Fin cfg0.N) : blkA V c 2 t = V c main_v0 := by
  have hz' : (fun a => win0_2.index t a * main_v0.ty.shape.size a) = fun _ => 0 :=
    funext fun a => by rw [(idxA_facts t).2.2.1 a, Nat.zero_mul]
  exact Memref.read_access_unit_zero (Elt Ideal) main_v0 hz' (fun a => by rw [congrFun hz' a]; simp) (V c main_v0)

theorem blkA_3 (c : Dev nD) (t : Fin cfg0.N) : blkA V c 3 t = V c main_arg3 := by
  have hz' : (fun a => win0_3.index t a * main_arg3.ty.shape.size a) = fun _ => 0 :=
    funext fun a => by rw [(idxA_facts t).2.2.2.1 a, Nat.zero_mul]
  exact Memref.read_access_unit_zero (Elt Ideal) main_arg3 hz' (fun a => by rw [congrFun hz' a]; simp) (V c main_arg3)

theorem blkA_4 (c : Dev nD) (t : Fin cfg0.N) : blkA V c 4 t = V c main_v1 := by
  have hz' : (fun a => win0_4.index t a * main_v1.ty.shape.size a) = fun _ => 0 :=
    funext fun a => by rw [(idxA_facts t).2.2.2.2.1 a, Nat.zero_mul]
  exact Memref.read_access_unit_zero (Elt Ideal) main_v1 hz' (fun a => by rw [congrFun hz' a]; simp) (V c main_v1)

/-- The output's block of a whole-array function is that function. -/
theorem readA_5 (t : Fin cfg0.N) (G : S256x260.Idx → EReal) :
    ((cfg0.win 5).blk t).view.read (Elt Ideal) G = G := by
  have hz' : (fun a => win0_5.index t a * main_v4.ty.shape.size a) = fun _ => 0 :=
    funext fun a => by rw [(idxA_facts t).2.2.2.2.2 a, Nat.zero_mul]
  exact Memref.read_access_unit_zero (Elt Ideal) main_v4 hz' (fun a => by rw [congrFun hz' a]; simp) G

/-! ## What the one point writes back, and the array after the kernel -/

/-- The point writes back the two dense layers of the arrays as the kernel finds them: the output's block of that
    function, which is the function itself. -/
theorem flushedA_eq (c : Dev nD)
    (x : (⟨2, ![256, 7]⟩ : Shape).Idx → EReal) (W1 : (⟨2, ![515, 7]⟩ : Shape).Idx → EReal) (b1 : (⟨1, ![515]⟩ : Shape).Idx → EReal)
    (W2 : (⟨2, ![260, 515]⟩ : Shape).Idx → EReal) (b2 : (⟨1, ![260]⟩ : Shape).Idx → EReal)
    (e0 : V c main_arg0 = x) (e1 : V c main_arg1 = W1) (e2 : V c main_v0 = fun i => b1 (ValueIdx.ix1 (i 1)))
    (e3 : V c main_arg3 = W2) (e4 : V c main_v1 = fun i => b2 (ValueIdx.ix1 (i 1))) (t : Fin cfg0.N) :
    (datA V c).flushed 5 t
      = ((cfg0.win 5).blk t).view.read (Elt Ideal) (Cert.Mlp.dense (Cert.Mlp.dense x W1 b1) W2 b2) := by
  rw [readA_5]
  show (cfg0.win 5).cut (grid0.coords t) ((datA V c).after 5 t) = _
  rw [afterA_5, blkA_0, blkA_1, blkA_2, blkA_3, blkA_4]
  show outA (V c main_arg0) (V c main_arg1) (V c main_v0) (V c main_arg3) (V c main_v1) = _
  rw [e0, e1, e2, e3, e4]
  exact outA_eq x W1 W2 b1 b2

/-- After the first kernel the 256 × 260 array holds the first two dense layers of the arrays the kernel found: its
    one point writes the whole array. -/
theorem firstLayers (c : Dev nD)
    (x : (⟨2, ![256, 7]⟩ : Shape).Idx → EReal) (W1 : (⟨2, ![515, 7]⟩ : Shape).Idx → EReal) (b1 : (⟨1, ![515]⟩ : Shape).Idx → EReal)
    (W2 : (⟨2, ![260, 515]⟩ : Shape).Idx → EReal) (b2 : (⟨1, ![260]⟩ : Shape).Idx → EReal)
    (e0 : V c main_arg0 = x) (e1 : V c main_arg1 = W1) (e2 : V c main_v0 = fun i => b1 (ValueIdx.ix1 (i 1)))
    (e3 : V c main_arg3 = W2) (e4 : V c main_v1 = fun i => b2 (ValueIdx.ix1 (i 1))) :
    (datA V c).arrAt 5 cfg0.N = Cert.Mlp.dense (Cert.Mlp.dense x W1 b1) W2 b2 :=
  (datA V c).arrAt_eq_of_cover 5 (Cert.Mlp.dense (Cert.Mlp.dense x W1 b1) W2 b2)
    (fun t _ => flushedA_eq V c x W1 b1 W2 b2 e0 e1 e2 e3 e4 t) fun i =>
    ⟨t0_0, flush0_5 t0_0, by
      show i ∈ ((View.whole main_v4).slice (win0_5.rect t0_0)).set
      rw [View.set_slice_whole, Rect.mem_set_unit]
      intro a
      have h0 : (i 0 : Nat) < 256 := (i 0).isLt
      have h1 : (i 1 : Nat) < 260 := (i 1).isLt
      match a with
      | ⟨0, _⟩ =>
        show win0_5.index t0_0 0 * win0_5.size 0 ≤ (i 0 : Nat)
          ∧ (i 0 : Nat) < win0_5.index t0_0 0 * win0_5.size 0 + win0_5.xsize (grid0.coords t0_0) 0
        rw [show win0_5.index t0_0 0 * win0_5.size 0 = 0 from by decide +kernel,
          show win0_5.xsize (grid0.coords t0_0) 0 = 256 from by decide +kernel]
        omega
      | ⟨1, _⟩ =>
        show win0_5.index t0_0 1 * win0_5.size 1 ≤ (i 1 : Nat)
          ∧ (i 1 : Nat) < win0_5.index t0_0 1 * win0_5.size 1 + win0_5.xsize (grid0.coords t0_0) 1
        rw [show win0_5.index t0_0 1 * win0_5.size 1 = 0 from by decide +kernel,
          show win0_5.xsize (grid0.coords t0_0) 1 = 260 from by decide +kernel]
        omega⟩

end Cert.KernelIdeal.Hand

end
-- ==== Proof.KI.Value.lean ====
/-
  The kernel's whole program as one function of its nine arguments.  The four reshaped biases are rows (entry (0, j)
  of the row is entry j of the bias); rounding the two large weight matrices to a narrower format changes nothing on the
  extended reals; the first kernel leaves the first two layers' activations in its output array; nothing else touches
  what the second kernel reads.  So the second kernel is entered with exactly the operands of layers three and four, and
  the result array ends holding the four layers composed.
-/
import proofs.«175217_j66597762892542_2_alg».proof.Proof.KI.Whole
import proofs.«175217_j66597762892542_2_alg».proof.Proof.KI.Result
import proofs.«175217_j66597762892542_2_alg».proof.Proof.KI.FirstValue
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- A vector cast to a one-row matrix reads, at (0, j), the vector at j. -/
theorem row_of {α : Type} {a : ℕ} (x : (⟨1, ![a]⟩ : Shape).Idx → α) (h : (⟨1, ![a]⟩ : Shape).ShapeCasts ⟨2, ![1, a]⟩) :
    (fun i => shapeCast ⟨2, ![1, a]⟩ x h i) = fun i => x (ix1 (i 1)) := by
  funext i
  obtain ⟨u, j, rfl⟩ : ∃ (u : Fin 1) (j : Fin a), i = ix2 u j := ⟨i 0, i 1, eq_ix2 i⟩
  exact shapeCast_a_1a_apply x h u j

/-! ## What the first kernel is entered with -/

theorem in_x : V1 m c main_arg0 = m ((c : Thread nD τ).loc main_arg0) :=
  StableHlo.after_of_writes_sub hostOps0 _ hostOps0_writes (by decide)
theorem in_W1 : V1 m c main_arg1 = m ((c : Thread nD τ).loc main_arg1) :=
  StableHlo.after_of_writes_sub hostOps0 _ hostOps0_writes (by decide)
theorem in_W2 : V1 m c main_arg3 = m ((c : Thread nD τ).loc main_arg3) :=
  StableHlo.after_of_writes_sub hostOps0 _ hostOps0_writes (by decide)
theorem in_b1 : (V1 m c main_v0 : S1x515.Idx → EReal) = fun i => (m ((c : Thread nD τ).loc main_arg2) : S515.Idx → EReal) (ix1 (i 1)) := by
  show StableHlo.after hostOps0 (fun b => m (c, b)) (Proc.devRef .tc main_v0) = _
  after_results
  exact row_of (a := 515) _ _
theorem in_b2 : (V1 m c main_v1 : S1x260.Idx → EReal) = fun i => (m ((c : Thread nD τ).loc main_arg4) : S260.Idx → EReal) (ix1 (i 1)) := by
  show StableHlo.after hostOps0 (fun b => m (c, b)) (Proc.devRef .tc main_v1) = _
  after_results
  exact row_of (a := 260) _ _

/-! ## What the second kernel is entered with -/

/-- The activations: what the first kernel left. -/
theorem in_h2 : (V3 m c main_v4 : S256x260.Idx → EReal)
    = Cert.Mlp.dense (Cert.Mlp.dense (m ((c : Thread nD τ).loc main_arg0)) (m ((c : Thread nD τ).loc main_arg1)) (m ((c : Thread nD τ).loc main_arg2)))
        (m ((c : Thread nD τ).loc main_arg3)) (m ((c : Thread nD τ).loc main_arg4)) :=
  calc (V3 m c main_v4 : S256x260.Idx → EReal)
    _ = W2 m c (Proc.devRef .tc main_v4) := StableHlo.after_of_writes_sub hostOps1 _ hostOps1_writes (by decide)
    _ = (datA (V1 m) c).arrAt 5 cfg0.N := W2_arr m c 5
    _ = _ := firstLayers (V1 m) c _ _ _ _ _ (in_x m c) (in_W1 m c) (in_b1 m c) (in_W2 m c) (in_b2 m c)

theorem kept_arg5 : W2 m c (Proc.devRef .tc main_arg5) = m ((c : Thread nD τ).loc main_arg5) :=
  (W2_of_ne m c main_arg5 (by decide)).trans (StableHlo.after_of_writes_sub hostOps0 _ hostOps0_writes (by decide))
theorem kept_arg7 : W2 m c (Proc.devRef .tc main_arg7) = m ((c : Thread nD τ).loc main_arg7) :=
  (W2_of_ne m c main_arg7 (by decide)).trans (StableHlo.after_of_writes_sub hostOps0 _ hostOps0_writes (by decide))

/-- The third weight matrix, rounded: the same extended reals. -/
theorem in_W3 : (V3 m c main_v5 : S65536x260.Idx → EReal) = (m ((c : Thread nD τ).loc main_arg5) : S65536x260.Idx → EReal) := by
  show StableHlo.after hostOps1 (W2 m c) (Proc.devRef .tc main_v5) = _
  after_results
  rw [kept_arg5]
  rfl
/-- The fourth weight matrix likewise. -/
theorem in_W4 : (V3 m c main_v6 : S2048x65536.Idx → EReal) = (m ((c : Thread nD τ).loc main_arg7) : S2048x65536.Idx → EReal) := by
  show StableHlo.after hostOps1 (W2 m c) (Proc.devRef .tc main_v6) = _
  after_results
  rw [kept_arg7]
  rfl
/-- The third bias as a row. -/
theorem in_b3 : (V3 m c main_v2 : S1x65536.Idx → EReal) = fun i => (m ((c : Thread nD τ).loc main_arg6) : S65536.Idx → EReal) (ix1 (i 1)) := by
  have h1 : V3 m c main_v2 = W2 m c (Proc.devRef .tc main_v2) := StableHlo.after_of_writes_sub hostOps1 _ hostOps1_writes (by decide)
  have h2 : W2 m c (Proc.devRef .tc main_v2) = W1 m c (Proc.devRef .tc main_v2) := W2_of_ne m c main_v2 (by decide)
  rw [h1, h2]
  show StableHlo.after hostOps0 (fun b => m (c, b)) (Proc.devRef .tc main_v2) = _
  after_results
  exact row_of (a := 65536) _ _
/-- The last bias as a row. -/
theorem in_b4 : (V3 m c main_v3 : S1x2048.Idx → EReal) = fun i => (m ((c : Thread nD τ).loc main_arg8) : S2048.Idx → EReal) (ix1 (i 1)) := by
  have h1 : V3 m c main_v3 = W2 m c (Proc.devRef .tc main_v3) := StableHlo.after_of_writes_sub hostOps1 _ hostOps1_writes (by decide)
  have h2 : W2 m c (Proc.devRef .tc main_v3) = W1 m c (Proc.devRef .tc main_v3) := W2_of_ne m c main_v3 (by decide)
  rw [h1, h2]
  show StableHlo.after hostOps0 (fun b => m (c, b)) (Proc.devRef .tc main_v3) = _
  after_results
  exact row_of (a := 2048) _ _

/-! ## The program's value -/

/-- Every weakly fair execution of the kernel's program terminates with the result array at the four layers composed,
    applied to the argument arrays, and the argument arrays as launched. -/
theorem kernel_net (ρ : Dev nD → PrngReg) : θ_run defs (onTc (τ := τ) (main (F := Ideal))) ⟨m, fun _ => 0, ρ⟩ (fun r => ∀ c : Dev nD,
      r.2.mem ((c.tc : Thread nD τ).loc main_v7)
        = Cert.Mlp.net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans
      (fused_result (V3 m) c _ _ _ _ _ (in_h2 m c) (in_W3 m c) (in_b3 m c) (in_W4 m c) (in_b4 m c)), (h c).2⟩)
    (result_and_args (F := Ideal) m ρ)

end Cert.KernelIdeal.Hand

end
-- ==== Proof.RefValue.lean ====
/-
  The reference program, read on the extended reals, is the four-layer perceptron of the specification.

  Each layer of the program is six array operations: the weight matrix transposed, the contraction of the
  batch with the transposed weights over the feature axis, the bias broadcast first to one row and then to
  every row of the batch, the sum of the two, and the maximum with an array that is zero everywhere.  Read at
  an index (i, j) the transposed weights at (k, j) are the weights at (j, k), the broadcast bias is b(j), and
  the zero array is 0, so the layer's element is   max (∑ₖ h(i,k) · W(j,k) + b(j)) 0,   which is the
  specification's dense layer.  One lemma per layer says so, with the previous layer's result as the batch;
  composing the four gives the network.
-/
import proofs.«175217_j66597762892542_2_alg».proof.Proof.Gen.ReferenceIdeal.Read
import proofs.«175217_j66597762892542_2_alg».proof.Proof.Spec

noncomputable section

namespace Cert.RefNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The first layer: the stage after the first maximum is the dense layer of the input batch, 7 → 515 features. -/
theorem layer1
    (x0 : (⟨S256x7, .f32⟩ : BufTy).Contents (Elt Ideal)) (x1 : (⟨S515x7, .f32⟩ : BufTy).Contents (Elt Ideal))
    (x2 : (⟨S515, .f32⟩ : BufTy).Contents (Elt Ideal)) :
    val_main_v5 (F := Ideal) x0 x1 x2 = Cert.Mlp.dense x0 x1 x2 := by
  funext i
  rw [val_main_v5_apply, val_main_v4_apply, val_main_v1_apply, val_main_v3_apply, val_main_v2_apply,
    val_main_call0_v0_apply, val_main_call0_cst_apply, Ideal.maximumf_def, Ideal.addf_def, Ideal.ofBits_def,
    Ideal.ofBits_zero_f32]
  have eb : idx_main_v2 (idx_main_v3 i) = ix1 (i 1) := funext fun a => by
    match a with
    | ⟨0, _⟩ => rfl
  rw [eb]
  refine congrArg (fun s => max (s + x2 (ix1 (i 1))) 0) (Finset.sum_congr rfl fun k _ => ?_)
  rw [val_main_v0_apply]
  have el : lidx_main_v1 i k = ix2 (i 0) k := funext fun a => by
    match a with
    | ⟨0, _⟩ => rfl
    | ⟨1, _⟩ => rfl
  have er : idx_main_v0 (ridx_main_v1 i k) = ix2 (i 1) k := funext fun a => by
    match a with
    | ⟨0, _⟩ => rfl
    | ⟨1, _⟩ => rfl
  rw [el, er]
  rfl

/-- The second layer: the stage after the second maximum is the dense layer of the first layer's result, 515 → 260 features. -/
theorem layer2
    (x0 : (⟨S256x7, .f32⟩ : BufTy).Contents (Elt Ideal)) (x1 : (⟨S515x7, .f32⟩ : BufTy).Contents (Elt Ideal))
    (x2 : (⟨S515, .f32⟩ : BufTy).Contents (Elt Ideal)) (x3 : (⟨S260x515, .f32⟩ : BufTy).Contents (Elt Ideal))
    (x4 : (⟨S260, .f32⟩ : BufTy).Contents (Elt Ideal)) :
    val_main_v11 (F := Ideal) x0 x1 x2 x3 x4 = Cert.Mlp.dense (val_main_v5 (F := Ideal) x0 x1 x2) x3 x4 := by
  funext i
  rw [val_main_v11_apply, val_main_v10_apply, val_main_v7_apply, val_main_v9_apply, val_main_v8_apply,
    val_main_call1_v0_apply, val_main_call1_cst_apply, Ideal.maximumf_def, Ideal.addf_def, Ideal.ofBits_def,
    Ideal.ofBits_zero_f32]
  have eb : idx_main_v8 (idx_main_v9 i) = ix1 (i 1) := funext fun a => by
    match a with
    | ⟨0, _⟩ => rfl
  rw [eb]
  refine congrArg (fun s => max (s + x4 (ix1 (i 1))) 0) (Finset.sum_congr rfl fun k _ => ?_)
  rw [val_main_v6_apply]
  have el : lidx_main_v7 i k = ix2 (i 0) k := funext fun a => by
    match a with
    | ⟨0, _⟩ => rfl
    | ⟨1, _⟩ => rfl
  have er : idx_main_v6 (ridx_main_v7 i k) = ix2 (i 1) k := funext fun a => by
    match a with
    | ⟨0, _⟩ => rfl
    | ⟨1, _⟩ => rfl
  rw [el, er]
  rfl

/-- The third layer: the stage after the third maximum is the dense layer of the second layer's result, 260 → 65536 features. -/
theorem layer3
    (x0 : (⟨S256x7, .f32⟩ : BufTy).Contents (Elt Ideal)) (x1 : (⟨S515x7, .f32⟩ : BufTy).Contents (Elt Ideal))
    (x2 : (⟨S515, .f32⟩ : BufTy).Contents (Elt Ideal)) (x3 : (⟨S260x515, .f32⟩ : BufTy).Contents (Elt Ideal))
    (x4 : (⟨S260, .f32⟩ : BufTy).Contents (Elt Ideal)) (x5 : (⟨S65536x260, .f32⟩ : BufTy).Contents (Elt Ideal))
    (x6 : (⟨S65536, .f32⟩ : BufTy).Contents (Elt Ideal)) :
    val_main_v17 (F := Ideal) x0 x1 x2 x3 x4 x5 x6 = Cert.Mlp.dense (val_main_v11 (F := Ideal) x0 x1 x2 x3 x4) x5 x6 := by
  funext i
  rw [val_main_v17_apply, val_main_v16_apply, val_main_v13_apply, val_main_v15_apply, val_main_v14_apply,
    val_main_call2_v0_apply, val_main_call2_cst_apply, Ideal.maximumf_def, Ideal.addf_def, Ideal.ofBits_def,
    Ideal.ofBits_zero_f32]
  have eb : idx_main_v14 (idx_main_v15 i) = ix1 (i 1) := funext fun a => by
    match a with
    | ⟨0, _⟩ => rfl
  rw [eb]
  refine congrArg (fun s => max (s + x6 (ix1 (i 1))) 0) (Finset.sum_congr rfl fun k _ => ?_)
  rw [val_main_v12_apply]
  have el : lidx_main_v13 i k = ix2 (i 0) k := funext fun a => by
    match a with
    | ⟨0, _⟩ => rfl
    | ⟨1, _⟩ => rfl
  have er : idx_main_v12 (ridx_main_v13 i k) = ix2 (i 1) k := funext fun a => by
    match a with
    | ⟨0, _⟩ => rfl
    | ⟨1, _⟩ => rfl
  rw [el, er]
  rfl

/-- The fourth layer: the last stage is the dense layer of the third layer's result, 65536 → 2048 features; the sum over the 65536 features stays a sum. -/
theorem layer4
    (x0 : (⟨S256x7, .f32⟩ : BufTy).Contents (Elt Ideal)) (x1 : (⟨S515x7, .f32⟩ : BufTy).Contents (Elt Ideal))
    (x2 : (⟨S515, .f32⟩ : BufTy).Contents (Elt Ideal)) (x3 : (⟨S260x515, .f32⟩ : BufTy).Contents (Elt Ideal))
    (x4 : (⟨S260, .f32⟩ : BufTy).Contents (Elt Ideal)) (x5 : (⟨S65536x260, .f32⟩ : BufTy).Contents (Elt Ideal))
    (x6 : (⟨S65536, .f32⟩ : BufTy).Contents (Elt Ideal)) (x7 : (⟨S2048x65536, .f32⟩ : BufTy).Contents (Elt Ideal))
    (x8 : (⟨S2048, .f32⟩ : BufTy).Contents (Elt Ideal)) :
    val_main_v23 (F := Ideal) x0 x1 x2 x3 x4 x5 x6 x7 x8 = Cert.Mlp.dense (val_main_v17 (F := Ideal) x0 x1 x2 x3 x4 x5 x6) x7 x8 := by
  funext i
  rw [val_main_v23_apply, val_main_v22_apply, val_main_v19_apply, val_main_v21_apply, val_main_v20_apply,
    val_main_call3_v0_apply, val_main_call3_cst_apply, Ideal.maximumf_def, Ideal.addf_def, Ideal.ofBits_def,
    Ideal.ofBits_zero_f32]
  have eb : idx_main_v20 (idx_main_v21 i) = ix1 (i 1) := funext fun a => by
    match a with
    | ⟨0, _⟩ => rfl
  rw [eb]
  refine congrArg (fun s => max (s + x8 (ix1 (i 1))) 0) (Finset.sum_congr rfl fun k _ => ?_)
  rw [val_main_v18_apply]
  have el : lidx_main_v19 i k = ix2 (i 0) k := funext fun a => by
    match a with
    | ⟨0, _⟩ => rfl
    | ⟨1, _⟩ => rfl
  have er : idx_main_v18 (ridx_main_v19 i k) = ix2 (i 1) k := funext fun a => by
    match a with
    | ⟨0, _⟩ => rfl
    | ⟨1, _⟩ => rfl
  rw [el, er]
  rfl

/-- The reference's result, as a function of its nine arguments, is the specification's network: the four layers composed. -/
theorem result_eq
    (x0 : (⟨S256x7, .f32⟩ : BufTy).Contents (Elt Ideal)) (x1 : (⟨S515x7, .f32⟩ : BufTy).Contents (Elt Ideal))
    (x2 : (⟨S515, .f32⟩ : BufTy).Contents (Elt Ideal)) (x3 : (⟨S260x515, .f32⟩ : BufTy).Contents (Elt Ideal))
    (x4 : (⟨S260, .f32⟩ : BufTy).Contents (Elt Ideal)) (x5 : (⟨S65536x260, .f32⟩ : BufTy).Contents (Elt Ideal))
    (x6 : (⟨S65536, .f32⟩ : BufTy).Contents (Elt Ideal)) (x7 : (⟨S2048x65536, .f32⟩ : BufTy).Contents (Elt Ideal))
    (x8 : (⟨S2048, .f32⟩ : BufTy).Contents (Elt Ideal)) :
    Cert.ReferenceIdeal.Read.val_main_v23 (F := Ideal) x0 x1 x2 x3 x4 x5 x6 x7 x8
      = Cert.Mlp.net x0 x1 x2 x3 x4 x5 x6 x7 x8 := by
  rw [layer4, layer3, layer2, layer1]
  rfl

end Cert.RefNet

end
-- ==== Proof.lean ====
/-
  The certificate.  Both programs compute a four-layer perceptron on a batch of 256 rows: each layer sends its input h
  to max (h · Wᵀ + b) 0.  The kernel runs the two small layers in one grid point of a first kernel, rounds the two large
  weight matrices, and fuses layers three and four in a second kernel that sums layer four over thirty-two tiles of 2048
  features into a running total; the reference applies four matrix products.  On the extended reals rounding to a
  narrower format is the identity, a matrix product is the plain sum over the contracted axis, and sums may be regrouped
  freely, so both results are `Cert.Mlp.net` of the nine arguments, index by index, for all inputs.
  The three frames: each kernel program, at either reading of the floats, runs to the end without a fault and leaves its
  argument arrays alone (the two kernels composed as regions of one run); the reference's is its run with the result
  dropped.  The idealization rewrote nothing, so there is nothing to preserve.
-/
import proofs.«175217_j66597762892542_2_alg».proof.Defs
import proofs.«175217_j66597762892542_2_alg».proof.Proof.Gen.Kernel
import proofs.«175217_j66597762892542_2_alg».proof.Proof.Gen.KernelIdeal
import proofs.«175217_j66597762892542_2_alg».proof.Proof.Gen.ReferenceIdeal
import proofs.«175217_j66597762892542_2_alg».proof.Proof.Gen.Pre_finite_inputs
import proofs.«175217_j66597762892542_2_alg».proof.Proof.Gen.ReferenceIdeal.Run
import proofs.«175217_j66597762892542_2_alg».proof.Proof.Gen.ReferenceIdeal.Read
import proofs.«175217_j66597762892542_2_alg».proof.Proof.K.Whole
import proofs.«175217_j66597762892542_2_alg».proof.Proof.KI.Value
import proofs.«175217_j66597762892542_2_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.args_kept (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.args_kept (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the arguments, both programs end with the result array at the network's value. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.kernel_net m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.RefNet.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
